-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x256 .f32) (main_arg8 : FVec F S512 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S256 .f32) (main_arg5 : FVec F S256x512 .f32) (main_arg6 : FVec F S256 .f32) (main_arg7 : FVec F S512x256 .f32) (main_arg8 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S256x512 .f32) (main_arg2 : FVec F S256 .f32) (main_arg3 : FVec F S256x512 .f32) (main_arg4 : FVec F S256 .f32) (main_arg5 : FVec F S256x512 .f32) (main_arg6 : FVec F S256 .f32) (main_arg7 : FVec F S512x256 .f32) (main_arg8 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1x256 : Shape := ⟨2, ![1, 256]⟩
abbrev S8192x256 : Shape := ⟨2, ![8192, 256]⟩
abbrev S1024x512 : Shape := ⟨2, ![1024, 512]⟩
abbrev S1024x256 : Shape := ⟨2, ![1024, 256]⟩
abbrev S1x512 : Shape := ⟨2, ![1, 512]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 24
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S512x256, .f32⟩
  | .hbm, ⟨10, _⟩ => ⟨S512x256, .bf16⟩
  | .hbm, ⟨11, _⟩ => ⟨S512x256, .f32⟩
  | .hbm, ⟨12, _⟩ => ⟨S512x256, .bf16⟩
  | .hbm, ⟨13, _⟩ => ⟨S1x256, .f32⟩
  | .hbm, ⟨14, _⟩ => ⟨S1x256, .f32⟩
  | .hbm, ⟨15, _⟩ => ⟨S8192x256, .bf16⟩
  | .hbm, ⟨16, _⟩ => ⟨S8192x256, .bf16⟩
  | .hbm, ⟨17, _⟩ => ⟨S512x256, .f32⟩
  | .hbm, ⟨18, _⟩ => ⟨S512x256, .bf16⟩
  | .hbm, ⟨19, _⟩ => ⟨S1x256, .f32⟩
  | .hbm, ⟨20, _⟩ => ⟨S256x512, .f32⟩
  | .hbm, ⟨21, _⟩ => ⟨S256x512, .bf16⟩
  | .hbm, ⟨22, _⟩ => ⟨S1x512, .f32⟩
  | .hbm, ⟨23, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x256, .bf16⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x512, .f32⟩
  | .local _ .vmem, ⟨11, _⟩ => ⟨S1024x512, .f32⟩
  | .local _ .vmem, ⟨12, _⟩ => ⟨S512x256, .bf16⟩
  | .local _ .vmem, ⟨13, _⟩ => ⟨S1x256, .f32⟩
  | .local _ .vmem, ⟨14, _⟩ => ⟨S8192x256, .bf16⟩
  | .local _ .vmem, ⟨15, _⟩ => ⟨S8192x256, .bf16⟩
  | .local _ .vmem, ⟨16, _⟩ => ⟨S256x512, .bf16⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x256, .bf16⟩
  | .local _ .vmem, ⟨21, _⟩ => ⟨S1024x1, .f32⟩
  | .local _ .vmem, ⟨22, _⟩ => ⟨S1024x1, .f32⟩
  | .local _ .vmem, ⟨23, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v4 : BitVec 32 := Scalar.muli arg1 c1024_i32
  v4
def k1_off1 (i : grid1.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8192x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  transposes_S256x512_S512x256_1_0 : S256x512.Transposes [1, 0] S512x256
  bitsLt_bf16_f32 : FTy.bits .bf16 < FTy.bits .f32
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  transposes_S512x256_S256x512_1_0 : S512x256.Transposes [1, 0] S256x512
  shapeCasts_S512_S1x512 : S512.ShapeCasts S1x512
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x256_S1024x256_1_0_0_1_n_n_wf : DotDims.WF S1024x512 S512x256 S1024x256 [1] [0] [0] [1] [] []
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .bf16 = 32 ∨ (Rect.block (s := S8192x256) S1024x256.size (cc0_transform_6 i) (hinb0_6 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S8192x256.size a
  hwx1_4 : ∀ i : grid1.Coords, EltTy.bits .bf16 = 32 ∨ (Rect.block (s := S8192x256) S8192x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .bf16 = 32 ∨ (Rect.block (s := S256x512) S256x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S8192x512.size a
  hwx1_7 : ∀ i : grid1.Coords, EltTy.bits .f32 = 32 ∨ (Rect.block (s := S8192x512) S1024x512.size (cc1_transform_7 i) (hinb1_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S8192x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S512 : Shape := ⟨1, ![512]⟩
abbrev S8192x256 : Shape := ⟨2, ![8192, 256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S512x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S512x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S512x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S256x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x256, .f32⟩
  | .hbm, ⟨41, _⟩ => ⟨S256x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

class Facts : Prop extends Facts₀ where

variable [Facts]
-- ==== Proof.KFrameR0.lean ====
/-
  The key/value projection region, point by point: what each of its two output blocks holds after the body
  (the projection of the point's 1024 rows of the input by one transposed weight matrix, plus its bias row),
  the body's triple, and the region's proof data — at any contents "V" of the core's buffers when the region
  is entered, and at any float instance.
-/
import proofs.«122180_j6064493822280_2_alg».proof.Proof.Gen.Kernel.Launch
import proofs.«122180_j6064493822280_2_alg».proof.Proof.Gen.Kernel.Skeleton
import proofs.«122180_j6064493822280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window "w"'s block at point "t", read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rK : Rect S1024x256 := Rect.unit (s := S1024x256) ![0, 0] S1024x256.size inb_S1024x256_S1024x256_0_0

/-- The key block after the body: the one store's value, over the input blocks. -/
def out0_5 (x0 : Vec F S1024x512 .f32) (x1 : Vec F S512x256 .bf16) (x2 : Vec F S1x256 .f32) : Vec F S1024x256 .bf16 :=
  View.canon [⟨rK, k0_pay2 (View.ld x0 rX) (View.ld x1 rW) (View.ld x2 rB)⟩]
/-- The value block after the body. -/
def out0_6 (x0 : Vec F S1024x512 .f32) (x3 : Vec F S512x256 .bf16) (x4 : Vec F S1x256 .f32) : Vec F S1024x256 .bf16 :=
  View.canon [⟨rK, k0_pay3 (View.ld x0 rX) (View.ld x3 rW) (View.ld x4 rB)⟩]

/-- One whole-buffer store covers the buffer. -/
theorem cover0_K (p0 : Vec F S1024x256 .bf16) (y : S1024x256.Idx) :
    ∃ pc ∈ ([⟨rK, p0⟩] : List (View.Piece (Elt F) S1024x256 .bf16)), y ∈ pc.1.set :=
  View.cover_of_tiled [⟨rK, p0⟩] S1024x256.size (by rfl) y

set_option maxHeartbeats 2000000 in
/-- The body on whole staging buffers, the inputs' at contents "xW" and the outputs' at anything, runs to the
    continuation holding the inputs' as they were and the outputs' at "out0_5", "out0_6" of the inputs'. -/
theorem sound_kernel0 (c : Dev nD) (E : Set ℕ) (i : grid0.Coords)
    (arg1 : Memref sig .tc .vmem S1024x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S512x256 .bf16) (harg4 : arg4.IsWhole)
    (arg5 : Memref sig .tc .vmem S1x256 .f32) (harg5 : arg5.IsWhole) (arg6 : Memref sig .tc .vmem S1024x256 .bf16) (harg6 : arg6.IsWhole)
    (arg7 : Memref sig .tc .vmem S1024x256 .bf16) (harg7 : arg7.IsWhole)
    (x0 : Vec F S1024x512 .f32) (x1 : Vec F S512x256 .bf16) (x2 : Vec F S1x256 .f32) (x3 : Vec F S512x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__proj_kv_kernel i arg1 harg1 arg2 harg2 arg3 harg3 arg4 harg4 arg5 harg5 arg6 harg6 arg7 harg7) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_K _)
  iexists _; isplitr
  swap; · iexact H6
  ipureintro
  exact View.read_writes_eq_canon _ _ _ (cover0_K _)

/-! ## The region's proof data -/

/-- The arrays as the region finds them; after the body at point "t" each input's buffer at its block and each
    output's at its function of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrameR1Base.lean ====
/-
  The attention region: what its proofs share. Each window's block at a grid point; the two branch conditions of
  the body (first key tile: reset; last key tile: normalise, project and store) decided over the 8 × 8 grid — the
  key tile is the point's number modulo 8 —; where the output window is idle; the staging and scratch buffers by
  name; and the region's scoped rest with the four scratch buffers spelled as owned buffers.
-/
import proofs.«122180_j6064493822280_2_alg».proof.Proof.KFrameR0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window "w"'s block at point "t", read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is the first key tile": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key tile": the normalise-and-store branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The buffers by name -/

abbrev VO1_7 : View sig .tc .vmem S1024x512 .f32 := (Memref.whole cc1_stg7_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .f32 := win1_7.stage (cfg1.slots t 7)
abbrev hs1_7 (t : Fin cfg1.N) : (ms1_7 t).IsWhole := hstage1_7 ((cfg1.slots t 7).cast nbuf1_7)
abbrev scM1_0 : Memref sig .tc .vmem S1024x256 .bf16 := Memref.whole cc1_scratch0
abbrev VS1_0 : View sig .tc .vmem S1024x256 .bf16 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1 .f32 := Memref.whole cc1_scratch2
abbrev VS1_2 : View sig .tc .vmem S1024x1 .f32 := scM1_2.view
abbrev scM1_3 : Memref sig .tc .vmem S1024x256 .f32 := Memref.whole cc1_scratch3
abbrev VS1_3 : View sig .tc .vmem S1024x256 .f32 := scM1_3.view

/-- A scoped buffer of the other region, whole at some contents. -/
abbrev stg (c : Dev nD) (b : Ref sig .tc) : sProp 𝕄 :=
  iprop(∃ f : Buf (Elt F) ((c : Thread nD τ).loc b), ((c : Thread nD τ).loc b) ↦{fullShare} f)

/-- The class's invariant with the scratch buffers as owned buffers at some contents. -/
theorem PhiA1_eq (c : Dev nD) :
    (Pipeline.ΦA spec1 c : sProp 𝕄)
      = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Fr

end
-- ==== Proof.KR1RunA.lean ====
/-
  The attention body run whole in one of its three cases (first key tile / a middle key tile / last key tile):
  on whole staging buffers holding the point's input blocks, and scratch buffers holding what the previous key
  tile left (anything, at the first tile), it runs to its end and leaves the inputs as found and each buffer it
  stored into with its stores written — the lists of stores are found by running the body.
-/
import proofs.«122180_j6064493822280_2_alg».proof.Proof.KFrameR1Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    Σ' (L7 : List (View.Piece (Elt F) S1024x512 .f32)), Σ' (LS0 : List (View.Piece (Elt F) S1024x256 .bf16)), Σ' (LS1 : List (View.Piece (Elt F) S1024x1 .f32)), Σ' (LS2 : List (View.Piece (Elt F) S1024x1 .f32)), { LS3 : List (View.Piece (Elt F) S1024x256 .f32) //
      ∀ (xi7 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, fun xi7 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.Kernel.Fr

end
-- ==== Proof.KR1RunB.lean ====
/-
  The attention body run whole in one of its three cases (first key tile / a middle key tile / last key tile):
  on whole staging buffers holding the point's input blocks, and scratch buffers holding what the previous key
  tile left (anything, at the first tile), it runs to its end and leaves the inputs as found — the query tile's
  scratch too, after the first key tile, where it is only read — and each buffer it stored into with its stores
  written; the lists of stores are found by running the body.
-/
import proofs.«122180_j6064493822280_2_alg».proof.Proof.KR1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    Σ' (L7 : List (View.Piece (Elt F) S1024x512 .f32)), Σ' (LS1 : List (View.Piece (Elt F) S1024x1 .f32)), Σ' (LS2 : List (View.Piece (Elt F) S1024x1 .f32)), { LS3 : List (View.Piece (Elt F) S1024x256 .f32) //
      ∀ (xi7 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]; · iexists _; iexact HS1
    isplitl [HS2]; · iexists _; iexact HS2
    iexists _; iexact HS3

end Cert.Kernel.Fr

end
-- ==== Proof.KR1RunC.lean ====
/-
  The attention body run whole in one of its three cases (first key tile / a middle key tile / last key tile):
  on whole staging buffers holding the point's input blocks, and scratch buffers holding what the previous key
  tile left (anything, at the first tile), it runs to its end and leaves the inputs as found — the query tile's
  scratch too, after the first key tile, where it is only read — and each buffer it stored into with its stores
  written; the lists of stores are found by running the body.
-/
import proofs.«122180_j6064493822280_2_alg».proof.Proof.KR1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    Σ' (L7 : List (View.Piece (Elt F) S1024x512 .f32)), Σ' (LS1 : List (View.Piece (Elt F) S1024x1 .f32)), Σ' (LS2 : List (View.Piece (Elt F) S1024x1 .f32)), { LS3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.Kernel.Fr

end
-- ==== Proof.KFrameR1.lean ====
/-
  The attention region, point by point. What the output block and the four scratch buffers (the query tile, the
  running row maximum, the running normaliser, the running weighted sum) hold after each case of the body; what
  they hold after each grid point, by recursion on the point (a middle or last key tile starts from what the
  key tile before left in the scratch buffers, and leaves the query tile as it found it); the region's invariant
  (before the first point the class's; afterwards the scratch buffers at the previous point's contents); its
  proof data and the body obligation.
-/
import proofs.«122180_j6064493822280_2_alg».proof.Proof.KR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block's buffer after case A (nothing stored: a placeholder nothing consults). -/
def out1_A_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)

theorem scover1_A_0 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x256.size (by sl_kernel_rfl) y

/-- Scratch 0 after case A: its stores read back. -/
def sout1_A_0 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x256 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)

theorem scover1_A_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1.size (by sl_kernel_rfl) y

/-- Scratch 1 after case A: its stores read back. -/
def sout1_A_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

theorem scover1_A_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S1024x1.size (by sl_kernel_rfl) y

/-- Scratch 2 after case A: its stores read back. -/
def sout1_A_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

theorem scover1_A_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1 S1024x256.size (by sl_kernel_rfl) y

/-- Scratch 3 after case A: its stores read back. -/
def sout1_A_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x256 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1)

/-- The output block's buffer after case B (nothing stored: a placeholder nothing consults). -/
def out1_B_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x512 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)

theorem scover1_B_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S1024x1.size (by sl_kernel_rfl) y

/-- Scratch 1 after case B: its stores read back. -/
def sout1_B_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)

theorem scover1_B_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S1024x1.size (by sl_kernel_rfl) y

/-- Scratch 2 after case B: its stores read back. -/
def sout1_B_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)

theorem scover1_B_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S1024x256.size (by sl_kernel_rfl) y

/-- Scratch 3 after case B: its stores read back. -/
def sout1_B_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x256 .f32 :=
  VS1_3.read (Elt F) (VS1_3.writes (Elt F) VS1_3.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)

theorem cover1_C_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x512.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S1024x512.size (by sl_kernel_rfl) y

/-- The output block's buffer after case C. -/
def out1_C_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x512 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)

theorem scover1_C_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S1024x1.size (by sl_kernel_rfl) y

/-- Scratch 1 after case C: its stores read back. -/
def sout1_C_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)

theorem scover1_C_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S1024x1.size (by sl_kernel_rfl) y

/-- Scratch 2 after case C: its stores read back. -/
def sout1_C_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)

theorem scover1_C_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S1024x256.size (by sl_kernel_rfl) y

/-- Scratch 3 after case C: its stores read back. -/
def sout1_C_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x256 .f32 :=
  VS1_3.read (Elt F) (VS1_3.writes (Elt F) VS1_3.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)

/-! ## What the buffers hold after each point -/

def outsAt1 (c : Dev nD) : (n : ℕ) → n < cfg1.N → Vec F S1024x512 .f32 × Vec F S1024x256 .bf16 × Vec F S1024x1 .f32 × Vec F S1024x1 .f32 × Vec F S1024x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      if h1 : (n + 1) % 8 = 7 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 8 = 7 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

theorem outsAt1_A (c : Dev nD) (t : Fin cfg1.N) (h0 : t.val % 8 = 0) (h1 : ¬t.val % 8 = 7) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

def PhiS (c : Dev nD) : (n : ℕ) → n ≤ cfg1.N → sProp 𝕄
  | 0, _ => Pipeline.ΦA spec1 c
  | n + 1, hn => iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- first key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS_castSucc V c t, PhiS_zero V c _ _ hz, PhiA1_eq]
        iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [Hx0 Hx1 Hx2 Hx3 Hx4 Hx5 Hx6 Hx7 Hx8 Hx9 HS0 HS1 HS2 HS3 Hg]
        · isplitl [Hx0 Hx1 Hx2 Hx3 Hx4 Hx5 Hx6 Hx7 Hx8 Hx9 HS0 HS1 HS2 HS3]
          · isplitl [Hx0]; · iexact Hx0
            isplitl [Hx1]; · iexact Hx1
            isplitl [Hx2]; · iexact Hx2
            isplitl [Hx3]; · iexact Hx3
            isplitl [Hx4]; · iexact Hx4
            isplitl [Hx5]; · iexact Hx5
            isplitl [Hx6]; · iexact Hx6
            isplitl [Hx7]; · iexact Hx7
            isplitl [Hx8]; · iexact Hx8
            isplitl [Hx9]; · iexact Hx9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

      · rw [PhiS_castSucc V c t, PhiS_pos V c _ _ hz]
        iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, ⟨%es0, HS0⟩, ⟨%es1, HS1⟩, ⟨%es2, HS2⟩, ⟨%es3, HS3⟩⟩
        isplitl [Hx0 Hx1 Hx2 Hx3 Hx4 Hx5 Hx6 Hx7 Hx8 Hx9 HS0 HS1 HS2 HS3 Hg]
        · isplitl [Hx0 Hx1 Hx2 Hx3 Hx4 Hx5 Hx6 Hx7 Hx8 Hx9 HS0 HS1 HS2 HS3]
          · isplitl [Hx0]; · iexact Hx0
            isplitl [Hx1]; · iexact Hx1
            isplitl [Hx2]; · iexact Hx2
            isplitl [Hx3]; · iexact Hx3
            isplitl [Hx4]; · iexact Hx4
            isplitl [Hx5]; · iexact Hx5
            isplitl [Hx6]; · iexact Hx6
            isplitl [Hx7]; · iexact Hx7
            isplitl [Hx8]; · iexact Hx8
            isplitl [Hx9]; · iexact Hx9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

  · by_cases h1 : t.val % 8 = 7
    · -- last key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_1 sout1_C_2 sout1_C_3; (try dsimp only)
      have hz : t.val ≠ 0 := by omega
      rw [PhiS_castSucc V c t, PhiS_pos V c _ _ hz]
      iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, HS0, ⟨%es1, HS1⟩, ⟨%es2, HS2⟩, ⟨%es3, HS3⟩⟩
      isplitl [Hx0 Hx1 Hx2 Hx3 Hx4 Hx5 Hx6 Hx7 Hx8 Hx9 HS0 HS1 HS2 HS3 Hg]
      · isplitl [Hx0 Hx1 Hx2 Hx3 Hx4 Hx5 Hx6 Hx7 Hx8 Hx9 HS0 HS1 HS2 HS3]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          isplitl [Hx7]; · iexact Hx7
          isplitl [Hx8]; · iexact Hx8
          isplitl [Hx9]; · iexact Hx9
          isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _ _ _ _ _ _ _ _)

    · -- a middle key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_1 sout1_B_2 sout1_B_3; (try dsimp only)
      have hz : t.val ≠ 0 := by omega
      rw [PhiS_castSucc V c t, PhiS_pos V c _ _ hz]
      iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [Hx0 Hx1 Hx2 Hx3 Hx4 Hx5 Hx6 Hx7 Hx8 Hx9 HS0 HS1 HS2 HS3 Hg]
      · isplitl [Hx0 Hx1 Hx2 Hx3 Hx4 Hx5 Hx6 Hx7 Hx8 Hx9 HS0 HS1 HS2 HS3]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          isplitl [Hx7]; · iexact Hx7
          isplitl [Hx8]; · iexact Hx8
          isplitl [Hx9]; · iexact Hx9
          isplitl [HS0]; · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hx0, Hx1, Hx2, Hx3, Hx4, Hx5, Hx6, Hx7, Hx8, Hx9, HS0, HS1, HS2, HS3⟩, Hg⟩
  isplitl [Hx0 Hx1 Hx2 Hx3 Hx4 Hx5 Hx6 Hx7 Hx8 Hx9 HS0 HS1 HS2 HS3]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.KFrameRun.lean ====
/-
  The whole run. The core's buffer contents at each boundary of @main — the launch memory, after the first
  stretch of host operations, after the key/value projection region (its two output arrays at what its
  write-backs leave), after the second stretch, after the attention region (its output array likewise) —; the two
  regions as segments over the thread state "every unscoped buffer at the boundary's contents"; and the run:
  every weakly fair execution of @main terminates, nothing faulting, with every unscoped buffer at the last
  boundary's contents. Each argument array is read back through the boundaries to its launch contents.
-/
import proofs.«122180_j6064493822280_2_alg».proof.Proof.KFrameR1
import proofs.«122180_j6064493822280_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A stretch of host operations leaves a buffer none of them writes as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The input array both regions read through their first window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's invariant before its first point is the class's. -/
theorem Phi1_zero (c : Dev nD) : (pdats m ρ 1 c).Φ 0 = Pipeline.ΦA spec1 c :=
  (show (pdats m ρ 1 c).Φ 0 = PhiS (V3 m ρ) c 0 (Nat.zero_le _) from rfl).trans (PhiS_zero (V3 m ρ) c 0 _ rfl)

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [Phi1_zero m ρ c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.Kernel.Fr

end
-- ==== Proof.FrameR0.lean ====
/-
  The key/value projection region, point by point: what each of its two output blocks holds after the body
  (the projection of the point's 1024 rows of the input by one transposed weight matrix, plus its bias row),
  the body's triple, and the region's proof data — at any contents "V" of the core's buffers when the region
  is entered, and at any float instance.
-/
import proofs.«122180_j6064493822280_2_alg».proof.Proof.Gen.KernelIdeal.Launch
import proofs.«122180_j6064493822280_2_alg».proof.Proof.Gen.KernelIdeal.Skeleton
import proofs.«122180_j6064493822280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window "w"'s block at point "t", read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rK : Rect S1024x256 := Rect.unit (s := S1024x256) ![0, 0] S1024x256.size inb_S1024x256_S1024x256_0_0

/-- The key block after the body: the one store's value, over the input blocks. -/
def out0_5 (x0 : Vec F S1024x512 .f32) (x1 : Vec F S512x256 .bf16) (x2 : Vec F S1x256 .f32) : Vec F S1024x256 .bf16 :=
  View.canon [⟨rK, k0_pay2 (View.ld x0 rX) (View.ld x1 rW) (View.ld x2 rB)⟩]
/-- The value block after the body. -/
def out0_6 (x0 : Vec F S1024x512 .f32) (x3 : Vec F S512x256 .bf16) (x4 : Vec F S1x256 .f32) : Vec F S1024x256 .bf16 :=
  View.canon [⟨rK, k0_pay3 (View.ld x0 rX) (View.ld x3 rW) (View.ld x4 rB)⟩]

/-- One whole-buffer store covers the buffer. -/
theorem cover0_K (p0 : Vec F S1024x256 .bf16) (y : S1024x256.Idx) :
    ∃ pc ∈ ([⟨rK, p0⟩] : List (View.Piece (Elt F) S1024x256 .bf16)), y ∈ pc.1.set :=
  View.cover_of_tiled [⟨rK, p0⟩] S1024x256.size (by rfl) y

set_option maxHeartbeats 2000000 in
/-- The body on whole staging buffers, the inputs' at contents "xW" and the outputs' at anything, runs to the
    continuation holding the inputs' as they were and the outputs' at "out0_5", "out0_6" of the inputs'. -/
theorem sound_kernel0 (c : Dev nD) (E : Set ℕ) (i : grid0.Coords)
    (arg1 : Memref sig .tc .vmem S1024x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S512x256 .bf16) (harg4 : arg4.IsWhole)
    (arg5 : Memref sig .tc .vmem S1x256 .f32) (harg5 : arg5.IsWhole) (arg6 : Memref sig .tc .vmem S1024x256 .bf16) (harg6 : arg6.IsWhole)
    (arg7 : Memref sig .tc .vmem S1024x256 .bf16) (harg7 : arg7.IsWhole)
    (x0 : Vec F S1024x512 .f32) (x1 : Vec F S512x256 .bf16) (x2 : Vec F S1x256 .f32) (x3 : Vec F S512x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__proj_kv_kernel i arg1 harg1 arg2 harg2 arg3 harg3 arg4 harg4 arg5 harg5 arg6 harg6 arg7 harg7) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_K _)
  iexists _; isplitr
  swap; · iexact H6
  ipureintro
  exact View.read_writes_eq_canon _ _ _ (cover0_K _)

/-! ## The region's proof data -/

/-- The arrays as the region finds them; after the body at point "t" each input's buffer at its block and each
    output's at its function of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1Base.lean ====
/-
  The attention region: what its proofs share. Each window's block at a grid point; the two branch conditions of
  the body (first key tile: reset; last key tile: normalise, project and store) decided over the 8 × 8 grid — the
  key tile is the point's number modulo 8 —; where the output window is idle; the staging and scratch buffers by
  name; and the region's scoped rest with the four scratch buffers spelled as owned buffers.
-/
import proofs.«122180_j6064493822280_2_alg».proof.Proof.FrameR0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window "w"'s block at point "t", read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is the first key tile": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key tile": the normalise-and-store branch. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The buffers by name -/

abbrev VO1_7 : View sig .tc .vmem S1024x512 .f32 := (Memref.whole cc1_stg7_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .f32 := win1_7.stage (cfg1.slots t 7)
abbrev hs1_7 (t : Fin cfg1.N) : (ms1_7 t).IsWhole := hstage1_7 ((cfg1.slots t 7).cast nbuf1_7)
abbrev scM1_0 : Memref sig .tc .vmem S1024x256 .bf16 := Memref.whole cc1_scratch0
abbrev VS1_0 : View sig .tc .vmem S1024x256 .bf16 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1 .f32 := Memref.whole cc1_scratch2
abbrev VS1_2 : View sig .tc .vmem S1024x1 .f32 := scM1_2.view
abbrev scM1_3 : Memref sig .tc .vmem S1024x256 .f32 := Memref.whole cc1_scratch3
abbrev VS1_3 : View sig .tc .vmem S1024x256 .f32 := scM1_3.view

/-- A scoped buffer of the other region, whole at some contents. -/
abbrev stg (c : Dev nD) (b : Ref sig .tc) : sProp 𝕄 :=
  iprop(∃ f : Buf (Elt F) ((c : Thread nD τ).loc b), ((c : Thread nD τ).loc b) ↦{fullShare} f)

/-- The class's invariant with the scratch buffers as owned buffers at some contents. -/
theorem PhiA1_eq (c : Dev nD) :
    (Pipeline.ΦA spec1 c : sProp 𝕄)
      = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Fr

end
-- ==== Proof.R1RunA.lean ====
/-
  The attention body run whole in one of its three cases (first key tile / a middle key tile / last key tile):
  on whole staging buffers holding the point's input blocks, and scratch buffers holding what the previous key
  tile left (anything, at the first tile), it runs to its end and leaves the inputs as found and each buffer it
  stored into with its stores written — the lists of stores are found by running the body.
-/
import proofs.«122180_j6064493822280_2_alg».proof.Proof.FrameR1Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    Σ' (L7 : List (View.Piece (Elt F) S1024x512 .f32)), Σ' (LS0 : List (View.Piece (Elt F) S1024x256 .bf16)), Σ' (LS1 : List (View.Piece (Elt F) S1024x1 .f32)), Σ' (LS2 : List (View.Piece (Elt F) S1024x1 .f32)), { LS3 : List (View.Piece (Elt F) S1024x256 .f32) //
      ∀ (xi7 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, fun xi7 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.KernelIdeal.Fr

end
-- ==== Proof.R1RunB.lean ====
/-
  The attention body run whole in one of its three cases (first key tile / a middle key tile / last key tile):
  on whole staging buffers holding the point's input blocks, and scratch buffers holding what the previous key
  tile left (anything, at the first tile), it runs to its end and leaves the inputs as found — the query tile's
  scratch too, after the first key tile, where it is only read — and each buffer it stored into with its stores
  written; the lists of stores are found by running the body.
-/
import proofs.«122180_j6064493822280_2_alg».proof.Proof.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    Σ' (L7 : List (View.Piece (Elt F) S1024x512 .f32)), Σ' (LS1 : List (View.Piece (Elt F) S1024x1 .f32)), Σ' (LS2 : List (View.Piece (Elt F) S1024x1 .f32)), { LS3 : List (View.Piece (Elt F) S1024x256 .f32) //
      ∀ (xi7 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Fr

end
-- ==== Proof.R1RunC.lean ====
/-
  The attention body run whole in one of its three cases (first key tile / a middle key tile / last key tile):
  on whole staging buffers holding the point's input blocks, and scratch buffers holding what the previous key
  tile left (anything, at the first tile), it runs to its end and leaves the inputs as found — the query tile's
  scratch too, after the first key tile, where it is only read — and each buffer it stored into with its stores
  written; the lists of stores are found by running the body.
-/
import proofs.«122180_j6064493822280_2_alg».proof.Proof.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    Σ' (L7 : List (View.Piece (Elt F) S1024x512 .f32)), Σ' (LS1 : List (View.Piece (Elt F) S1024x1 .f32)), Σ' (LS2 : List (View.Piece (Elt F) S1024x1 .f32)), { LS3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Fr

end
-- ==== Proof.FrameR1.lean ====
/-
  The attention region, point by point. What the output block and the four scratch buffers (the query tile, the
  running row maximum, the running normaliser, the running weighted sum) hold after each case of the body; what
  they hold after each grid point, by recursion on the point (a middle or last key tile starts from what the
  key tile before left in the scratch buffers, and leaves the query tile as it found it); the region's invariant
  (before the first point the class's; afterwards the scratch buffers at the previous point's contents); its
  proof data and the body obligation.
-/
import proofs.«122180_j6064493822280_2_alg».proof.Proof.R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block's buffer after case A (nothing stored: a placeholder nothing consults). -/
def out1_A_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)

theorem scover1_A_0 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x256.size (by sl_kernel_rfl) y

/-- Scratch 0 after case A: its stores read back. -/
def sout1_A_0 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x256 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)

theorem scover1_A_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1.size (by sl_kernel_rfl) y

/-- Scratch 1 after case A: its stores read back. -/
def sout1_A_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

theorem scover1_A_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S1024x1.size (by sl_kernel_rfl) y

/-- Scratch 2 after case A: its stores read back. -/
def sout1_A_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

theorem scover1_A_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (y : S1024x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1 S1024x256.size (by sl_kernel_rfl) y

/-- Scratch 3 after case A: its stores read back. -/
def sout1_A_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) : Vec F S1024x256 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1)

/-- The output block's buffer after case B (nothing stored: a placeholder nothing consults). -/
def out1_B_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x512 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)

theorem scover1_B_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S1024x1.size (by sl_kernel_rfl) y

/-- Scratch 1 after case B: its stores read back. -/
def sout1_B_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)

theorem scover1_B_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S1024x1.size (by sl_kernel_rfl) y

/-- Scratch 2 after case B: its stores read back. -/
def sout1_B_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)

theorem scover1_B_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S1024x256.size (by sl_kernel_rfl) y

/-- Scratch 3 after case B: its stores read back. -/
def sout1_B_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x256 .f32 :=
  VS1_3.read (Elt F) (VS1_3.writes (Elt F) VS1_3.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)

theorem cover1_C_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x512.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S1024x512.size (by sl_kernel_rfl) y

/-- The output block's buffer after case C. -/
def out1_C_7 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x512 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)

theorem scover1_C_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S1024x1.size (by sl_kernel_rfl) y

/-- Scratch 1 after case C: its stores read back. -/
def sout1_C_1 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)

theorem scover1_C_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S1024x1.size (by sl_kernel_rfl) y

/-- Scratch 2 after case C: its stores read back. -/
def sout1_C_2 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)

theorem scover1_C_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S1024x256.size (by sl_kernel_rfl) y

/-- Scratch 3 after case C: its stores read back. -/
def sout1_C_3 (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) : Vec F S1024x256 .f32 :=
  VS1_3.read (Elt F) (VS1_3.writes (Elt F) VS1_3.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)

/-! ## What the buffers hold after each point -/

def outsAt1 (c : Dev nD) : (n : ℕ) → n < cfg1.N → Vec F S1024x512 .f32 × Vec F S1024x256 .bf16 × Vec F S1024x1 .f32 × Vec F S1024x1 .f32 × Vec F S1024x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      if h1 : (n + 1) % 8 = 7 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 8 = 7 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

theorem outsAt1_A (c : Dev nD) (t : Fin cfg1.N) (h0 : t.val % 8 = 0) (h1 : ¬t.val % 8 = 7) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

def PhiS (c : Dev nD) : (n : ℕ) → n ≤ cfg1.N → sProp 𝕄
  | 0, _ => Pipeline.ΦA spec1 c
  | n + 1, hn => iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop(stg (F := F) c cc0_stg0_0 ∗ stg (F := F) c cc0_stg0_1 ∗ stg (F := F) c cc0_stg1_0 ∗ stg (F := F) c cc0_stg2_0 ∗ stg (F := F) c cc0_stg3_0 ∗ stg (F := F) c cc0_stg4_0 ∗ stg (F := F) c cc0_stg5_0 ∗ stg (F := F) c cc0_stg5_1 ∗ stg (F := F) c cc0_stg6_0 ∗ stg (F := F) c cc0_stg6_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- first key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS_castSucc V c t, PhiS_zero V c _ _ hz, PhiA1_eq]
        iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [Hx0 Hx1 Hx2 Hx3 Hx4 Hx5 Hx6 Hx7 Hx8 Hx9 HS0 HS1 HS2 HS3 Hg]
        · isplitl [Hx0 Hx1 Hx2 Hx3 Hx4 Hx5 Hx6 Hx7 Hx8 Hx9 HS0 HS1 HS2 HS3]
          · isplitl [Hx0]; · iexact Hx0
            isplitl [Hx1]; · iexact Hx1
            isplitl [Hx2]; · iexact Hx2
            isplitl [Hx3]; · iexact Hx3
            isplitl [Hx4]; · iexact Hx4
            isplitl [Hx5]; · iexact Hx5
            isplitl [Hx6]; · iexact Hx6
            isplitl [Hx7]; · iexact Hx7
            isplitl [Hx8]; · iexact Hx8
            isplitl [Hx9]; · iexact Hx9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

      · rw [PhiS_castSucc V c t, PhiS_pos V c _ _ hz]
        iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, ⟨%es0, HS0⟩, ⟨%es1, HS1⟩, ⟨%es2, HS2⟩, ⟨%es3, HS3⟩⟩
        isplitl [Hx0 Hx1 Hx2 Hx3 Hx4 Hx5 Hx6 Hx7 Hx8 Hx9 HS0 HS1 HS2 HS3 Hg]
        · isplitl [Hx0 Hx1 Hx2 Hx3 Hx4 Hx5 Hx6 Hx7 Hx8 Hx9 HS0 HS1 HS2 HS3]
          · isplitl [Hx0]; · iexact Hx0
            isplitl [Hx1]; · iexact Hx1
            isplitl [Hx2]; · iexact Hx2
            isplitl [Hx3]; · iexact Hx3
            isplitl [Hx4]; · iexact Hx4
            isplitl [Hx5]; · iexact Hx5
            isplitl [Hx6]; · iexact Hx6
            isplitl [Hx7]; · iexact Hx7
            isplitl [Hx8]; · iexact Hx8
            isplitl [Hx9]; · iexact Hx9
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

  · by_cases h1 : t.val % 8 = 7
    · -- last key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_1 sout1_C_2 sout1_C_3; (try dsimp only)
      have hz : t.val ≠ 0 := by omega
      rw [PhiS_castSucc V c t, PhiS_pos V c _ _ hz]
      iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, HS0, ⟨%es1, HS1⟩, ⟨%es2, HS2⟩, ⟨%es3, HS3⟩⟩
      isplitl [Hx0 Hx1 Hx2 Hx3 Hx4 Hx5 Hx6 Hx7 Hx8 Hx9 HS0 HS1 HS2 HS3 Hg]
      · isplitl [Hx0 Hx1 Hx2 Hx3 Hx4 Hx5 Hx6 Hx7 Hx8 Hx9 HS0 HS1 HS2 HS3]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          isplitl [Hx7]; · iexact Hx7
          isplitl [Hx8]; · iexact Hx8
          isplitl [Hx9]; · iexact Hx9
          isplitl [HS0]; · iexact HS0
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _ _ _ _ _ _ _ _)

    · -- a middle key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_1 sout1_B_2 sout1_B_3; (try dsimp only)
      have hz : t.val ≠ 0 := by omega
      rw [PhiS_castSucc V c t, PhiS_pos V c _ _ hz]
      iintro ⟨⟨⟨Hx0, Hx1, Hx2, Hx3, Hx4, Hx5, Hx6, Hx7, Hx8, Hx9, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [Hx0 Hx1 Hx2 Hx3 Hx4 Hx5 Hx6 Hx7 Hx8 Hx9 HS0 HS1 HS2 HS3 Hg]
      · isplitl [Hx0 Hx1 Hx2 Hx3 Hx4 Hx5 Hx6 Hx7 Hx8 Hx9 HS0 HS1 HS2 HS3]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          isplitl [Hx7]; · iexact Hx7
          isplitl [Hx8]; · iexact Hx8
          isplitl [Hx9]; · iexact Hx9
          isplitl [HS0]; · iexact HS0
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hx0, Hx1, Hx2, Hx3, Hx4, Hx5, Hx6, Hx7, Hx8, Hx9, HS0, HS1, HS2, HS3⟩, Hg⟩
  isplitl [Hx0 Hx1 Hx2 Hx3 Hx4 Hx5 Hx6 Hx7 Hx8 Hx9 HS0 HS1 HS2 HS3]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.FrameRun.lean ====
/-
  The whole run. The core's buffer contents at each boundary of @main — the launch memory, after the first
  stretch of host operations, after the key/value projection region (its two output arrays at what its
  write-backs leave), after the second stretch, after the attention region (its output array likewise) —; the two
  regions as segments over the thread state "every unscoped buffer at the boundary's contents"; and the run:
  every weakly fair execution of @main terminates, nothing faulting, with every unscoped buffer at the last
  boundary's contents. Each argument array is read back through the boundaries to its launch contents.
-/
import proofs.«122180_j6064493822280_2_alg».proof.Proof.FrameR1
import proofs.«122180_j6064493822280_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A stretch of host operations leaves a buffer none of them writes as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The input array both regions read through their first window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's invariant before its first point is the class's. -/
theorem Phi1_zero (c : Dev nD) : (pdats m ρ 1 c).Φ 0 = Pipeline.ΦA spec1 c :=
  (show (pdats m ρ 1 c).Φ 0 = PhiS (V3 m ρ) c 0 (Nat.zero_le _) from rfl).trans (PhiS_zero (V3 m ρ) c 0 _ rfl)

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [Phi1_zero m ρ c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.KernelIdeal.Fr

end
-- ==== Proof.Spec.lean ====
/-
  The specification: single-head attention with learned projections, index by index on the extended reals.

  From an input "x" of 8192 rows and 512 columns: the queries, keys and values are the affine images
  "x · wᵀ + b" (256 columns each); the scores of row "i" are its query's inner products with all 8192 keys
  (not scaled); a row of scores is turned into weights by the softmax, written the stable way: subtract the
  row's largest score, exponentiate, divide by the row's sum; the context of row "i" is the weighted sum of the
  values; the result is the affine image of the context under the output projection (512 columns).
-/
import Idealize.ShloMosaic.PureOps.Ideal
import Idealize.ShloMosaic.Lib.ValueIdx

noncomputable section

open scoped BigOperators

namespace Cert.Spec

open Idealize.ShloMosaic Idealize.ShloMosaic.ValueIdx

/-- Row "i", column "h" of "x · wᵀ + b": "x" is 8192 × 512, "w" is 256 × 512, "b" has 256 entries. -/
def lin (x : (⟨2, ![8192, 512]⟩ : Shape).Idx → EReal) (w : (⟨2, ![256, 512]⟩ : Shape).Idx → EReal)
    (b : (⟨1, ![256]⟩ : Shape).Idx → EReal) (i : Fin 8192) (h : Fin 256) : EReal :=
  (∑ k : Fin 512, x (ix2 i k) * w (ix2 h k)) + b (ix1 h)

/-- The score of query row "i" against key row "j": the inner product over the 256 columns. -/
def score (q k : Fin 8192 → Fin 256 → EReal) (i j : Fin 8192) : EReal := ∑ h : Fin 256, q i h * k j h

/-- The largest score of row "i": the maximum over the row starting from "⊥", and once more against "⊥". -/
def rowMax (s : Fin 8192 → Fin 8192 → EReal) (i : Fin 8192) : EReal :=
  max ⊥ (Finset.univ.fold max ⊥ (fun j : Fin 8192 => s i j))

/-- The softmax weight of position "j" in row "i". -/
def soft (s : Fin 8192 → Fin 8192 → EReal) (i j : Fin 8192) : EReal :=
  Ideal.div (Ideal.exp (s i j - rowMax s i)) (∑ j' : Fin 8192, Ideal.exp (s i j' - rowMax s i))

/-- The context of row "i", column "h": the softmax-weighted sum of the values. -/
def ctx (s : Fin 8192 → Fin 8192 → EReal) (v : Fin 8192 → Fin 256 → EReal) (i : Fin 8192) (h : Fin 256) : EReal :=
  ∑ j : Fin 8192, soft s i j * v j h

/-- The result at row "p", column "c": the output projection "fw" (512 × 256) of the context, plus its bias. -/
def attnAt (x : (⟨2, ![8192, 512]⟩ : Shape).Idx → EReal)
    (ww : (⟨2, ![256, 512]⟩ : Shape).Idx → EReal) (wb : (⟨1, ![256]⟩ : Shape).Idx → EReal)
    (uw : (⟨2, ![256, 512]⟩ : Shape).Idx → EReal) (ub : (⟨1, ![256]⟩ : Shape).Idx → EReal)
    (hw : (⟨2, ![256, 512]⟩ : Shape).Idx → EReal) (hb : (⟨1, ![256]⟩ : Shape).Idx → EReal)
    (fw : (⟨2, ![512, 256]⟩ : Shape).Idx → EReal) (fb : (⟨1, ![512]⟩ : Shape).Idx → EReal)
    (p : Fin 8192) (c : Fin 512) : EReal :=
  (∑ h : Fin 256, ctx (score (lin x ww wb) (lin x uw ub)) (lin x hw hb) p h * fw (ix2 c h)) + fb (ix1 c)

/-- The result as an array of 8192 rows and 512 columns. -/
def attn (x : (⟨2, ![8192, 512]⟩ : Shape).Idx → EReal)
    (ww : (⟨2, ![256, 512]⟩ : Shape).Idx → EReal) (wb : (⟨1, ![256]⟩ : Shape).Idx → EReal)
    (uw : (⟨2, ![256, 512]⟩ : Shape).Idx → EReal) (ub : (⟨1, ![256]⟩ : Shape).Idx → EReal)
    (hw : (⟨2, ![256, 512]⟩ : Shape).Idx → EReal) (hb : (⟨1, ![256]⟩ : Shape).Idx → EReal)
    (fw : (⟨2, ![512, 256]⟩ : Shape).Idx → EReal) (fb : (⟨1, ![512]⟩ : Shape).Idx → EReal) :
    (⟨2, ![8192, 512]⟩ : Shape).Idx → EReal :=
  fun idx => attnAt x ww wb uw ub hw hb fw fb (idx 0) (idx 1)

theorem attn_ix2 (x : (⟨2, ![8192, 512]⟩ : Shape).Idx → EReal)
    (ww : (⟨2, ![256, 512]⟩ : Shape).Idx → EReal) (wb : (⟨1, ![256]⟩ : Shape).Idx → EReal)
    (uw : (⟨2, ![256, 512]⟩ : Shape).Idx → EReal) (ub : (⟨1, ![256]⟩ : Shape).Idx → EReal)
    (hw : (⟨2, ![256, 512]⟩ : Shape).Idx → EReal) (hb : (⟨1, ![256]⟩ : Shape).Idx → EReal)
    (fw : (⟨2, ![512, 256]⟩ : Shape).Idx → EReal) (fb : (⟨1, ![512]⟩ : Shape).Idx → EReal)
    (p : Fin 8192) (c : Fin 512) :
    attn x ww wb uw ub hw hb fw fb (ix2 p c) = attnAt x ww wb uw ub hw hb fw fb p c := rfl

end Cert.Spec

end
-- ==== Proof.RefValue.lean ====
/-
  The reference program's result is the specification.

  Each stage of the reference is read at an index: the three projections are the affine images, the scores the
  inner products of queries and keys, the row maximum a fold of "max" from "⊥" taken once more against "⊥", the
  weights the exponentials of the shifted scores over their row sum, the context their sum against the values,
  the result the affine image of the context.
-/
import proofs.«122180_j6064493822280_2_alg».proof.Proof.Gen.ReferenceIdeal.Run
import proofs.«122180_j6064493822280_2_alg».proof.Proof.Gen.ReferenceIdeal.Read
import proofs.«122180_j6064493822280_2_alg».proof.Proof.Spec
import proofs.«122180_j6064493822280_2_alg».proof.Defs
import proofs.«122180_j6064493822280_2_alg».proof.Proof.Gen.Pre_finite_inputs

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- An array of the reference, as a function of its index. -/
abbrev Arr (s : Shape) : Type := (⟨s, .f32⟩ : BufTy).Contents (Elt Ideal)

/-- The projection stage "x · wᵀ + b" at row "p", column "h" (the first projection; the other two are the same
    operations on other arguments). -/
theorem q_eq (x0 : Arr S8192x512) (x1 : Arr S256x512) (x2 : Arr S256) (p : Fin 8192) (h : Fin 256) :
    val_main_v4 (F := Ideal) x0 x1 x2 (ix2 p h) = Cert.Spec.lin x0 x1 x2 p h := by
  have e1 : ∀ k : Fin 512, lidx_main_v1 (ix2 p h) k = ix2 p k := fun k => funext fun a => by
    match a with | ⟨0, _⟩ => rfl | ⟨1, _⟩ => rfl
  have e2 : ∀ k : Fin 512, idx_main_v0 (ridx_main_v1 (ix2 p h) k) = ix2 h k := fun k => funext fun a => by
    match a with | ⟨0, _⟩ => rfl | ⟨1, _⟩ => rfl
  have e3 : idx_main_v2 (idx_main_v3 (ix2 p h)) = ix1 h := funext fun a => by
    match a with | ⟨0, _⟩ => rfl
  rw [val_main_v4_apply, val_main_v1_apply, val_main_v3_apply, val_main_v2_apply, e3]
  simp only [val_main_v0_apply, e1, e2, Ideal.addf_def]
  rfl

/-- The second projection (the keys). -/
theorem k_eq (x0 : Arr S8192x512) (x3 : Arr S256x512) (x4 : Arr S256) (p : Fin 8192) (h : Fin 256) :
    val_main_v9 (F := Ideal) x0 x3 x4 (ix2 p h) = Cert.Spec.lin x0 x3 x4 p h := by
  have e1 : ∀ k : Fin 512, lidx_main_v6 (ix2 p h) k = ix2 p k := fun k => funext fun a => by
    match a with | ⟨0, _⟩ => rfl | ⟨1, _⟩ => rfl
  have e2 : ∀ k : Fin 512, idx_main_v5 (ridx_main_v6 (ix2 p h) k) = ix2 h k := fun k => funext fun a => by
    match a with | ⟨0, _⟩ => rfl | ⟨1, _⟩ => rfl
  have e3 : idx_main_v7 (idx_main_v8 (ix2 p h)) = ix1 h := funext fun a => by
    match a with | ⟨0, _⟩ => rfl
  rw [val_main_v9_apply, val_main_v6_apply, val_main_v8_apply, val_main_v7_apply, e3]
  simp only [val_main_v5_apply, e1, e2, Ideal.addf_def]
  rfl

/-- The third projection (the values). -/
theorem v_eq (x0 : Arr S8192x512) (x5 : Arr S256x512) (x6 : Arr S256) (p : Fin 8192) (h : Fin 256) :
    val_main_v14 (F := Ideal) x0 x5 x6 (ix2 p h) = Cert.Spec.lin x0 x5 x6 p h := by
  have e1 : ∀ k : Fin 512, lidx_main_v11 (ix2 p h) k = ix2 p k := fun k => funext fun a => by
    match a with | ⟨0, _⟩ => rfl | ⟨1, _⟩ => rfl
  have e2 : ∀ k : Fin 512, idx_main_v10 (ridx_main_v11 (ix2 p h) k) = ix2 h k := fun k => funext fun a => by
    match a with | ⟨0, _⟩ => rfl | ⟨1, _⟩ => rfl
  have e3 : idx_main_v12 (idx_main_v13 (ix2 p h)) = ix1 h := funext fun a => by
    match a with | ⟨0, _⟩ => rfl
  rw [val_main_v14_apply, val_main_v11_apply, val_main_v13_apply, val_main_v12_apply, e3]
  simp only [val_main_v10_apply, e1, e2, Ideal.addf_def]
  rfl

/-- The scores: the inner product of query row "i" with key row "j". -/
theorem score_eq (x0 : Arr S8192x512) (x1 : Arr S256x512) (x2 : Arr S256) (x3 : Arr S256x512) (x4 : Arr S256)
    (i j : Fin 8192) :
    val_main_v16 (F := Ideal) x0 x1 x2 x3 x4 (ix2 i j)
      = Cert.Spec.score (Cert.Spec.lin x0 x1 x2) (Cert.Spec.lin x0 x3 x4) i j := by
  have e1 : ∀ k : Fin 256, lidx_main_v16 (ix2 i j) k = ix2 i k := fun k => funext fun a => by
    match a with | ⟨0, _⟩ => rfl | ⟨1, _⟩ => rfl
  have e2 : ∀ k : Fin 256, idx_main_v15 (ridx_main_v16 (ix2 i j) k) = ix2 j k := fun k => funext fun a => by
    match a with | ⟨0, _⟩ => rfl | ⟨1, _⟩ => rfl
  rw [val_main_v16_apply]
  simp only [val_main_v15_apply, e1, e2, q_eq, k_eq]
  rfl

/-- The bit pattern of "-∞" denotes "⊥". -/
theorem ofBits_neg_inf : Ideal.ofBits .f32 0xFF800000#32 = (⊥ : EReal) := by
  simp [Ideal.ofBits, Ideal.ieee]

/-- A reduced row index with the column "k" put back is the index (i, k). -/
theorem lift_row (hR : S8192x8192.Reduces [1] S8192) (i : Fin 8192) (k : Fin (S8192x8192.size 1)) :
    hR.lift (ix1 i) k = ix2 i (⟨k.val, k.isLt⟩ : Fin 8192) := by
  funext c
  apply Fin.ext
  fin_cases c <;> rfl

/-- The row maximum: the fold of "max" from "⊥" over the row, and "max" with "⊥" once more. -/
theorem rowmax_eq (x0 : Arr S8192x512) (x1 : Arr S256x512) (x2 : Arr S256) (x3 : Arr S256x512) (x4 : Arr S256)
    (i : Fin 8192) :
    val_main_v19 (F := Ideal) x0 x1 x2 x3 x4 (ix1 i)
      = Cert.Spec.rowMax (Cert.Spec.score (Cert.Spec.lin x0 x1 x2) (Cert.Spec.lin x0 x3 x4)) i := by
  have hR : S8192x8192.Reduces [1] S8192 := by decide
  rw [val_main_v19_apply, val_main_v18_apply, val_main_cst_0_apply]
  unfold val_main_v17
  rw [Host.reduce_eq_fold_single FloatOps.maximumf _ _ reducesTo_S8192x8192_S8192_d1 hR h_S_ (ix1 i)]
  have ef : (val_main_v16 (F := Ideal) x0 x1 x2 x3 x4 ∘ hR.lift (ix1 i))
      = fun k : Fin 8192 => Cert.Spec.score (Cert.Spec.lin x0 x1 x2) (Cert.Spec.lin x0 x3 x4) i k :=
    funext fun k => by
      show val_main_v16 (F := Ideal) x0 x1 x2 x3 x4 (hR.lift (ix1 i) k) = _
      rw [lift_row hR i k, score_eq]
      rfl
  rw [ef, val_main_cst_apply]
  simp only [Ideal.maximumf_def, Ideal.ofBits_def, ofBits_neg_inf]
  rfl

/-- The exponential of a score shifted by its row's maximum. -/
theorem exp_eq (x0 : Arr S8192x512) (x1 : Arr S256x512) (x2 : Arr S256) (x3 : Arr S256x512) (x4 : Arr S256) (i j : Fin 8192) :
    val_main_v23 (F := Ideal) x0 x1 x2 x3 x4 (ix2 i j)
      = Ideal.exp ((Cert.Spec.score (Cert.Spec.lin x0 x1 x2) (Cert.Spec.lin x0 x3 x4)) i j - Cert.Spec.rowMax (Cert.Spec.score (Cert.Spec.lin x0 x1 x2) (Cert.Spec.lin x0 x3 x4)) i) := by
  have e1 : idx_main_v20 (idx_main_v21 (ix2 i j)) = ix1 i := funext fun a => by
    match a with | ⟨0, _⟩ => rfl
  rw [val_main_v23_apply, val_main_v22_apply, val_main_v21_apply, val_main_v20_apply, e1, rowmax_eq, score_eq]
  simp only [Ideal.hostUnary_exp_def, Ideal.subf_def]

/-- The softmax weight: the exponential over the row's sum of exponentials (the sum starts from the zero word). -/
theorem soft_eq (x0 : Arr S8192x512) (x1 : Arr S256x512) (x2 : Arr S256) (x3 : Arr S256x512) (x4 : Arr S256) (i j : Fin 8192) :
    val_main_v27 (F := Ideal) x0 x1 x2 x3 x4 (ix2 i j) = Cert.Spec.soft (Cert.Spec.score (Cert.Spec.lin x0 x1 x2) (Cert.Spec.lin x0 x3 x4)) i j := by
  have e1 : idx_main_v25 (idx_main_v26 (ix2 i j)) = ix1 i := funext fun a => by
    match a with | ⟨0, _⟩ => rfl
  have e2 : ∀ k : Fin 8192, idx_main_v24 (ix1 i) k = ix2 i k := fun k => funext fun a => by
    match a with | ⟨0, _⟩ => rfl | ⟨1, _⟩ => rfl
  rw [val_main_v27_apply, val_main_v26_apply, val_main_v25_apply, e1, val_main_v24_apply, val_main_cst_1_apply]
  simp only [e2, exp_eq, Ideal.hostDivf_def, Ideal.ofBits_def, Ideal.ofBits_zero_f32, zero_add]
  rfl

/-- The context: the weighted sum of the values. -/
theorem ctx_eq (x0 : Arr S8192x512) (x1 : Arr S256x512) (x2 : Arr S256) (x3 : Arr S256x512) (x4 : Arr S256) (x5 : Arr S256x512) (x6 : Arr S256) (i : Fin 8192) (h : Fin 256) :
    val_main_v28 (F := Ideal) x0 x1 x2 x3 x4 x5 x6 (ix2 i h)
      = Cert.Spec.ctx (Cert.Spec.score (Cert.Spec.lin x0 x1 x2) (Cert.Spec.lin x0 x3 x4)) (Cert.Spec.lin x0 x5 x6) i h := by
  have e1 : ∀ k : Fin 8192, lidx_main_v28 (ix2 i h) k = ix2 i k := fun k => funext fun a => by
    match a with | ⟨0, _⟩ => rfl | ⟨1, _⟩ => rfl
  have e2 : ∀ k : Fin 8192, ridx_main_v28 (ix2 i h) k = ix2 k h := fun k => funext fun a => by
    match a with | ⟨0, _⟩ => rfl | ⟨1, _⟩ => rfl
  rw [val_main_v28_apply]
  simp only [e1, e2, soft_eq, v_eq]
  rfl

/-- The result at row "p", column "c". -/
theorem result_at (x0 : Arr S8192x512) (x1 : Arr S256x512) (x2 : Arr S256) (x3 : Arr S256x512) (x4 : Arr S256) (x5 : Arr S256x512) (x6 : Arr S256) (x7 : Arr S512x256) (x8 : Arr S512)
    (p : Fin 8192) (c : Fin 512) :
    val_main_v33 (F := Ideal) x0 x1 x2 x3 x4 x5 x6 x7 x8 (ix2 p c)
      = Cert.Spec.attnAt x0 x1 x2 x3 x4 x5 x6 x7 x8 p c := by
  have e1 : ∀ k : Fin 256, lidx_main_v30 (ix2 p c) k = ix2 p k := fun k => funext fun a => by
    match a with | ⟨0, _⟩ => rfl | ⟨1, _⟩ => rfl
  have e2 : ∀ k : Fin 256, idx_main_v29 (ridx_main_v30 (ix2 p c) k) = ix2 c k := fun k => funext fun a => by
    match a with | ⟨0, _⟩ => rfl | ⟨1, _⟩ => rfl
  have e3 : idx_main_v31 (idx_main_v32 (ix2 p c)) = ix1 c := funext fun a => by
    match a with | ⟨0, _⟩ => rfl
  rw [val_main_v33_apply, val_main_v30_apply, val_main_v32_apply, val_main_v31_apply, e3]
  simp only [val_main_v29_apply, e1, e2, ctx_eq, Ideal.addf_def]
  rfl

/-- The reference's last stage is the specification. -/
theorem result_eq (x0 : Arr S8192x512) (x1 : Arr S256x512) (x2 : Arr S256) (x3 : Arr S256x512) (x4 : Arr S256) (x5 : Arr S256x512) (x6 : Arr S256) (x7 : Arr S512x256) (x8 : Arr S512) :
    val_main_v33 (F := Ideal) x0 x1 x2 x3 x4 x5 x6 x7 x8 = Cert.Spec.attn x0 x1 x2 x3 x4 x5 x6 x7 x8 := by
  funext idx
  obtain ⟨p, c, rfl⟩ : ∃ (p : Fin 8192) (c : Fin 512), idx = ix2 p c := ⟨idx 0, idx 1, eq_ix2 idx⟩
  rw [result_at]
  rfl

/-- Every weakly fair execution of the reference terminates with its result the specification of the arguments'
    launch contents, the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v33)
          = Cert.Spec.attn (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run defs _ _).mono
    (fun _ h c => ⟨((h c).1.trans (val_main_v33_eq m' c)).trans (result_eq _ _ _ _ _ _ _ _ _), (h c).2⟩)
    (Cert.ReferenceIdeal.Value.run (F := Ideal) m' ρ')

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.PreFinite.lean ====
/-
  The precondition says every entry of the nine input arrays is finite.

  The precondition is the conjunction, over the nine arrays, of "every entry has absolute value below +∞". On the
  extended reals the absolute value of "x" is "max x (-x)", which is "⊤" for "x = ⊤" and for "x = ⊥"; so an entry
  with absolute value below "⊤" is neither.
-/
import proofs.«122180_j6064493822280_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.PreFinite

open Idealize.ShloMosaic Cert.Pre_finite_inputs

instance : Subsingleton S_.Idx := ⟨fun _ _ => funext fun d => d.elim0⟩

/-- An extended real whose absolute value is below the value of the "+∞" pattern is finite. -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  have ht : Ideal.ofBits .f32 0x7F800000#32 = (⊤ : EReal) := by simp [Ideal.ofBits, Ideal.ieee]
  rw [ht] at h
  change Ideal.cmp .olt (max x (-x)) ⊤ = 1#1 at h
  induction x using EReal.rec with
  | bot => simp [Ideal.cmp] at h
  | coe r => exact ⟨EReal.coe_ne_top r, EReal.coe_ne_bot r⟩
  | top => simp [Ideal.cmp] at h

variable [Facts]

/-- From the precondition: every entry of each of the nine arrays is neither "⊤" nor "⊥". -/
theorem finite_of_pre (a0 : FVec Ideal S8192x512 .f32) (a1 : FVec Ideal S256x512 .f32) (a2 : FVec Ideal S256 .f32)
    (a3 : FVec Ideal S256x512 .f32) (a4 : FVec Ideal S256 .f32) (a5 : FVec Ideal S256x512 .f32)
    (a6 : FVec Ideal S256 .f32) (a7 : FVec Ideal S512x256 .f32) (a8 : FVec Ideal S512 .f32)
    (h : fn (F := Ideal) a0 a1 a2 a3 a4 a5 a6 a7 a8 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) ∧ (∀ i, a7 i ≠ ⊤ ∧ a7 i ≠ ⊥) ∧ (∀ i, a8 i ≠ ⊤ ∧ a8 i ≠ ⊥) := by
  have h0 := congrFun h ValueIdx.ix0
  dsimp only [fn, fn_part1, fn_part2] at h0
  simp only [Idealize.ShloMosaic.andi, IntOp.andi_eq_one] at h0
  obtain ⟨⟨⟨⟨⟨⟨⟨⟨e0, e1⟩, e2⟩, e3⟩, e4⟩, e5⟩, e6⟩, e7⟩, e8⟩ := h0
  exact ⟨fun i => finite_of_abs_lt _ (Host.reduce_andi_all _ _ _ _ _ e0 i),
    fun i => finite_of_abs_lt _ (Host.reduce_andi_all _ _ _ _ _ e1 i),
    fun i => finite_of_abs_lt _ (Host.reduce_andi_all _ _ _ _ _ e2 i),
    fun i => finite_of_abs_lt _ (Host.reduce_andi_all _ _ _ _ _ e3 i),
    fun i => finite_of_abs_lt _ (Host.reduce_andi_all _ _ _ _ _ e4 i),
    fun i => finite_of_abs_lt _ (Host.reduce_andi_all _ _ _ _ _ e5 i),
    fun i => finite_of_abs_lt _ (Host.reduce_andi_all _ _ _ _ _ e6 i),
    fun i => finite_of_abs_lt _ (Host.reduce_andi_all _ _ _ _ _ e7 i),
    fun i => finite_of_abs_lt _ (Host.reduce_andi_all _ _ _ _ _ e8 i)⟩

end Cert.PreFinite

end
-- ==== Proof.HostVal.lean ====
/-
  The host operations between the kernel regions, read at an index on the extended reals: each stretch transposes
  a weight matrix (and changes its format, the identity here) and views a bias vector as a one-row matrix.
-/
import proofs.«122180_j6064493822280_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

variable (W : Valuation τ sig (Elt Ideal))

/-! ## The first stretch: the key and value weights transposed, their biases as rows -/

/-- The key weights after the stretch: entry `(k, h)` is the argument's entry `(h, k)`. -/
theorem host0_v1 (k : Fin 512) (h : Fin 256) :
    (StableHlo.after (hostOps0 (F := Ideal)) W (Proc.devRef .tc main_v1) : S512x256.Idx → EReal) (ix2 k h)
      = (W (Proc.devRef .tc main_arg3) : S256x512.Idx → EReal) (ix2 h k) := by
  have e : (StableHlo.after (hostOps0 (F := Ideal)) W (Proc.devRef .tc main_v1) : S512x256.Idx → EReal)
      = truncf (F := Ideal) .bf16 (transpose S512x256 [1, 0] (W (Proc.devRef .tc main_arg3) : S256x512.Idx → EReal) transposes_S256x512_S512x256_1_0) bitsLt_bf16_f32 := by
    dsimp only [hostOps0]; after_results
  rw [e, truncf_apply, transpose_ix2_apply]

/-- The value weights after the stretch: entry `(k, h)` is the argument's entry `(h, k)`. -/
theorem host0_v3 (k : Fin 512) (h : Fin 256) :
    (StableHlo.after (hostOps0 (F := Ideal)) W (Proc.devRef .tc main_v3) : S512x256.Idx → EReal) (ix2 k h)
      = (W (Proc.devRef .tc main_arg5) : S256x512.Idx → EReal) (ix2 h k) := by
  have e : (StableHlo.after (hostOps0 (F := Ideal)) W (Proc.devRef .tc main_v3) : S512x256.Idx → EReal)
      = truncf (F := Ideal) .bf16 (transpose S512x256 [1, 0] (W (Proc.devRef .tc main_arg5) : S256x512.Idx → EReal) transposes_S256x512_S512x256_1_0) bitsLt_bf16_f32 := by
    dsimp only [hostOps0]; after_results
  rw [e, truncf_apply, transpose_ix2_apply]

/-- The key bias after the stretch, as a row. -/
theorem host0_v4 (h : Fin 256) :
    (StableHlo.after (hostOps0 (F := Ideal)) W (Proc.devRef .tc main_v4) : S1x256.Idx → EReal) (ix2 (0 : Fin 1) h)
      = (W (Proc.devRef .tc main_arg4) : S256.Idx → EReal) (ix1 h) := by
  have e : (StableHlo.after (hostOps0 (F := Ideal)) W (Proc.devRef .tc main_v4) : S1x256.Idx → EReal)
      = shapeCast S1x256 (W (Proc.devRef .tc main_arg4) : S256.Idx → EReal) shapeCasts_S256_S1x256 := by
    dsimp only [hostOps0]; after_results; rfl
  rw [e, shapeCast_a_1a_apply]

/-- The value bias after the stretch, as a row. -/
theorem host0_v5 (h : Fin 256) :
    (StableHlo.after (hostOps0 (F := Ideal)) W (Proc.devRef .tc main_v5) : S1x256.Idx → EReal) (ix2 (0 : Fin 1) h)
      = (W (Proc.devRef .tc main_arg6) : S256.Idx → EReal) (ix1 h) := by
  have e : (StableHlo.after (hostOps0 (F := Ideal)) W (Proc.devRef .tc main_v5) : S1x256.Idx → EReal)
      = shapeCast S1x256 (W (Proc.devRef .tc main_arg6) : S256.Idx → EReal) shapeCasts_S256_S1x256 := by
    dsimp only [hostOps0]; after_results; rfl
  rw [e, shapeCast_a_1a_apply]

/-- A buffer the first stretch does not write is as it was. -/
theorem host0_of (r : Ref sig .tc) (h : r ∉ hostOps0_W) :
    StableHlo.after (hostOps0 (F := Ideal)) W (Proc.devRef .tc r) = W (Proc.devRef .tc r) :=
  StableHlo.after_of_writes_sub hostOps0 _ hostOps0_writes h

/-! ## The second stretch: the query and output weights transposed, their biases as rows -/

/-- The query weights after the stretch: entry `(k, h)` is the argument's entry `(h, k)`. -/
theorem host1_v8 (k : Fin 512) (h : Fin 256) :
    (StableHlo.after (hostOps1 (F := Ideal)) W (Proc.devRef .tc main_v8) : S512x256.Idx → EReal) (ix2 k h)
      = (W (Proc.devRef .tc main_arg1) : S256x512.Idx → EReal) (ix2 h k) := by
  have e : (StableHlo.after (hostOps1 (F := Ideal)) W (Proc.devRef .tc main_v8) : S512x256.Idx → EReal)
      = truncf (F := Ideal) .bf16 (transpose S512x256 [1, 0] (W (Proc.devRef .tc main_arg1) : S256x512.Idx → EReal) transposes_S256x512_S512x256_1_0) bitsLt_bf16_f32 := by
    dsimp only [hostOps1]; after_results
  rw [e, truncf_apply, transpose_ix2_apply]

/-- The query bias after the stretch, as a row. -/
theorem host1_v9 (h : Fin 256) :
    (StableHlo.after (hostOps1 (F := Ideal)) W (Proc.devRef .tc main_v9) : S1x256.Idx → EReal) (ix2 (0 : Fin 1) h)
      = (W (Proc.devRef .tc main_arg2) : S256.Idx → EReal) (ix1 h) := by
  have e : (StableHlo.after (hostOps1 (F := Ideal)) W (Proc.devRef .tc main_v9) : S1x256.Idx → EReal)
      = shapeCast S1x256 (W (Proc.devRef .tc main_arg2) : S256.Idx → EReal) shapeCasts_S256_S1x256 := by
    dsimp only [hostOps1]; after_results; rfl
  rw [e, shapeCast_a_1a_apply]

/-- The output weights after the stretch: entry `(h, o)` is the argument's entry `(o, h)`. -/
theorem host1_v11 (h : Fin 256) (o : Fin 512) :
    (StableHlo.after (hostOps1 (F := Ideal)) W (Proc.devRef .tc main_v11) : S256x512.Idx → EReal) (ix2 h o)
      = (W (Proc.devRef .tc main_arg7) : S512x256.Idx → EReal) (ix2 o h) := by
  have e : (StableHlo.after (hostOps1 (F := Ideal)) W (Proc.devRef .tc main_v11) : S256x512.Idx → EReal)
      = truncf (F := Ideal) .bf16 (transpose S256x512 [1, 0] (W (Proc.devRef .tc main_arg7) : S512x256.Idx → EReal) transposes_S512x256_S256x512_1_0) bitsLt_bf16_f32 := by
    dsimp only [hostOps1]; after_results
  rw [e, truncf_apply, transpose_ix2_apply]

/-- The output bias after the stretch, as a row. -/
theorem host1_v12 (o : Fin 512) :
    (StableHlo.after (hostOps1 (F := Ideal)) W (Proc.devRef .tc main_v12) : S1x512.Idx → EReal) (ix2 (0 : Fin 1) o)
      = (W (Proc.devRef .tc main_arg8) : S512.Idx → EReal) (ix1 o) := by
  have e : (StableHlo.after (hostOps1 (F := Ideal)) W (Proc.devRef .tc main_v12) : S1x512.Idx → EReal)
      = shapeCast S1x512 (W (Proc.devRef .tc main_arg8) : S512.Idx → EReal) shapeCasts_S512_S1x512 := by
    dsimp only [hostOps1]; after_results; rfl
  rw [e, shapeCast_a_1a_apply]

/-- A buffer the second stretch does not write is as it was. -/
theorem host1_of (r : Ref sig .tc) (h : r ∉ hostOps1_W) :
    StableHlo.after (hostOps1 (F := Ideal)) W (Proc.devRef .tc r) = W (Proc.devRef .tc r) :=
  StableHlo.after_of_writes_sub hostOps1 _ hostOps1_writes h

end Cert.KernelIdeal.Val

end
-- ==== Proof.PayProj.lean ====
import proofs.«122180_j6064493822280_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.SL.Sem Idealize.ShloMosaic.ValueIdx
open Cert.KernelIdeal Cert.KernelIdeal.Gen

/-! ### The contraction `[1024,512] × [512,256]`: the operand indices at output index `(r, c)` and contraction coordinate `k` are `(r, k)` and `(k, c)`. -/

theorem dotProj_lhs0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem dotProj_lhs1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem dotProj_rhs0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem dotProj_rhs1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The matrix product into the zero accumulator, at `(r, c)`: the plain sum over the contraction coordinate. -/
theorem dotProj_zero_apply {φ₁ φ₂ : FTy} (l : FVec Ideal S1024x512 φ₁) (w : FVec Ideal S512x256 φ₂) (r : Fin 1024) (c : Fin 256) :
    matmul dot_S1024x512_S512x256_S1024x256_1_0_0_1_n_n none l w (constant (F := Ideal) S1024x256 .f32 0x00000000#32) (ix2 r c)
      = ∑ k : Fin 512, l (ix2 r k) * w (ix2 k c) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r c) ((contrEquiv1 dot_S1024x512_S512x256_S1024x256_1_0_0_1_n_n 512 rfl rfl).symm k) = ix2 r k := funext fun a => Fin.ext (by
    match a with
    | ⟨0, _⟩ => exact dotProj_lhs0 _ _
    | ⟨1, _⟩ => exact (dotProj_lhs1 _ _).trans hk)
  have er : dot_S1024x512_S512x256_S1024x256_1_0_0_1_n_n.rhsIdx (ix2 r c) ((contrEquiv1 dot_S1024x512_S512x256_S1024x256_1_0_0_1_n_n 512 rfl rfl).symm k) = ix2 k c := funext fun a => Fin.ext (by
    match a with
    | ⟨0, _⟩ => exact (dotProj_rhs0 _ _).trans hk
    | ⟨1, _⟩ => exact dotProj_rhs1 _ _)
  rw [el, er]

/-- A `[1, 256]` row, cast to its own shape, broadcast over 1024 rows: at `(r, h)` the row at `h`. -/
theorem bias_apply (b : FVec Ideal S1x256 .f32) (hs : S1x256.ShapeCasts S1x256) (hb : S1x256.Broadcasts S1024x256)
    (r : Fin 1024) (h : Fin 256) :
    broadcastTo S1024x256 (shapeCast S1x256 b hs) hb (ix2 r h) = b (ix2 (0 : Fin 1) h) := by
  rw [shapeCast_self]
  exact broadcastTo_1b_ab_apply b hb r h

/-- The K projection of a 1024-row block: `x · w + b` at `(r, h)`. -/
theorem k0_pay2_apply (x : Vec Ideal S1024x512 .f32) (w : Vec Ideal S512x256 .bf16) (b : Vec Ideal S1x256 .f32)
    (r : Fin 1024) (h : Fin 256) :
    k0_pay2 (F := Ideal) x w b (ix2 r h) = (∑ k : Fin 512, x (ix2 r k) * w (ix2 k h)) + b (ix2 (0 : Fin 1) h) := by
  unfold k0_pay2 k0_pay1
  rw [truncf_apply, addf_apply, dotProj_zero_apply, bias_apply, shapeCast_self]
  rfl

/-- The V projection of a 1024-row block: `x · w + b` at `(r, h)`. -/
theorem k0_pay3_apply (x : Vec Ideal S1024x512 .f32) (w : Vec Ideal S512x256 .bf16) (b : Vec Ideal S1x256 .f32)
    (r : Fin 1024) (h : Fin 256) :
    k0_pay3 (F := Ideal) x w b (ix2 r h) = (∑ k : Fin 512, x (ix2 r k) * w (ix2 k h)) + b (ix2 (0 : Fin 1) h) := by
  unfold k0_pay3 k0_pay1
  rw [truncf_apply, addf_apply, dotProj_zero_apply, bias_apply, shapeCast_self]
  rfl

/-- The Q projection of a 1024-row query tile: `x · w + b` at `(r, h)`. -/
theorem k1_pay4_apply (x : Vec Ideal S1024x512 .f32) (w : Vec Ideal S512x256 .bf16) (b : Vec Ideal S1x256 .f32)
    (r : Fin 1024) (h : Fin 256) :
    k1_pay4 (F := Ideal) x w b (ix2 r h) = (∑ k : Fin 512, x (ix2 r k) * w (ix2 k h)) + b (ix2 (0 : Fin 1) h) := by
  unfold k1_pay4
  rw [shapeCast_self, truncf_apply, addf_apply, dotProj_zero_apply, bias_apply, shapeCast_self]
  rfl

end Cert.KernelIdeal.Pay

end
-- ==== Proof.R0Value.lean ====
/-
  The key/value projection region's two output arrays after the region, each as ONE function of the arrays the
  region finds: row "i", column "h" is the inner product of row "i" of the input with column "h" of the
  (already transposed) weights, plus the bias row at "h".
-/
import proofs.«122180_j6064493822280_2_alg».proof.Proof.FrameR0
import proofs.«122180_j6064493822280_2_alg».proof.Proof.PayProj
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl

/-! ## The payloads at any index of their literal shape -/

theorem k0_pay2_at (x : Vec Ideal S1024x512 .f32) (w : Vec Ideal S512x256 .bf16) (b : Vec Ideal S1x256 .f32) (y : S1024x256.Idx) :
    k0_pay2 (F := Ideal) x w b y = (∑ k : Fin 512, x (ix2 (y 0) k) * w (ix2 k (y 1))) + b (ix2 (0 : Fin 1) (y 1)) := by
  obtain ⟨p, q, rfl⟩ : ∃ (p : Fin 1024) (q : Fin 256), y = ix2 p q := ⟨y 0, y 1, eq_ix2 y⟩
  exact k0_pay2_apply x w b p q

theorem k0_pay3_at (x : Vec Ideal S1024x512 .f32) (w : Vec Ideal S512x256 .bf16) (b : Vec Ideal S1x256 .f32) (y : S1024x256.Idx) :
    k0_pay3 (F := Ideal) x w b y = (∑ k : Fin 512, x (ix2 (y 0) k) * w (ix2 k (y 1))) + b (ix2 (0 : Fin 1) (y 1)) := by
  obtain ⟨p, q, rfl⟩ : ∃ (p : Fin 1024) (q : Fin 256), y = ix2 p q := ⟨y 0, y 1, eq_ix2 y⟩
  exact k0_pay3_apply x w b p q

/-! ## The input blocks, read off their arrays -/

/-- The printed index maps over the grid: the row-blocked windows are at block `t`, the whole-array windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The input window's block at point `t` is rows `1024 t …` of the input array. -/
theorem iblk0_0_apply (c : Dev nD) (t : Fin cfg0.N) (x : S1024x512.Idx) (k : S8192x512.Idx)
    (hk0 : (k 0).val = 1024 * t.val + (x 0).val) (hk1 : (k 1).val = (x 1).val) :
    (iblk0 V c 0 t : Vec Ideal S1024x512 .f32) x = (V c main_arg0 : S8192x512.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

/-- Window 1's block at any point is its whole array. -/
theorem iblk0_1_apply (c : Dev nD) (t : Fin cfg0.N) (x : S512x256.Idx) :
    (iblk0 V c 1 t : Vec Ideal S512x256 .bf16) x = (V c main_v1 : S512x256.Idx → EReal) x := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t 0 * 512 + 1 * (x 0).val = (x 0).val; rw [e0]; omega
  | ⟨1, _⟩ => show win0_1.index t 1 * 256 + 1 * (x 1).val = (x 1).val; rw [e1]; omega

/-- Window 2's block at any point is its whole array. -/
theorem iblk0_2_apply (c : Dev nD) (t : Fin cfg0.N) (x : S1x256.Idx) :
    (iblk0 V c 2 t : Vec Ideal S1x256 .f32) x = (V c main_v4 : S1x256.Idx → EReal) x := by
  obtain ⟨-, -, -, -, e0, e1, -⟩ := idx_facts0 t
  unfold iblk0
  rw [View.read_apply]
  show V c main_v4 _ = V c main_v4 _
  congr 1
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-- Window 3's block at any point is its whole array. -/
theorem iblk0_3_apply (c : Dev nD) (t : Fin cfg0.N) (x : S512x256.Idx) :
    (iblk0 V c 3 t : Vec Ideal S512x256 .bf16) x = (V c main_v3 : S512x256.Idx → EReal) x := by
  obtain ⟨-, -, -, -, -, -, e0, e1, -⟩ := idx_facts0 t
  unfold iblk0
  rw [View.read_apply]
  show V c main_v3 _ = V c main_v3 _
  congr 1
  funext a
  apply Fin.ext
  match a with
  | ⟨0, _⟩ => show win0_3.index t 0 * 512 + 1 * (x 0).val = (x 0).val; rw [e0]; omega
  | ⟨1, _⟩ => show win0_3.index t 1 * 256 + 1 * (x 1).val = (x 1).val; rw [e1]; omega

/-- Window 4's block at any point is its whole array. -/
theorem iblk0_4_apply (c : Dev nD) (t : Fin cfg0.N) (x : S1x256.Idx) :
    (iblk0 V c 4 t : Vec Ideal S1x256 .f32) x = (V c main_v5 : S1x256.Idx → EReal) x := by
  obtain ⟨-, -, -, -, -, -, -, -, e0, e1, -⟩ := idx_facts0 t
  unfold iblk0
  rw [View.read_apply]
  show V c main_v5 _ = V c main_v5 _
  congr 1
  funext a
  apply Fin.ext
  match a with
  | ⟨0, _⟩ => show win0_4.index t 0 * 1 + 1 * (x 0).val = (x 0).val; rw [e0]; omega
  | ⟨1, _⟩ => show win0_4.index t 1 * 256 + 1 * (x 1).val = (x 1).val; rw [e1]; omega

/-! ## The output arrays -/

/-- The projection of an input of 8192 rows by weights already transposed (512 × 256), plus a bias row. -/
def proj0 (X : S8192x512.Idx → EReal) (Wt : S512x256.Idx → EReal) (B : S1x256.Idx → EReal) : S8192x256.Idx → EReal :=
  fun i => (∑ k : Fin 512, X (ix2 (i 0) k) * Wt (ix2 k (i 1))) + B (ix2 (0 : Fin 1) (i 1))

/-- What point `t` leaves in output window 5's block, at a block index `y` lying under array index `i`. -/
theorem blk0_5_point (c : Dev nD) (t : Fin cfg0.N) (y : S1024x256.Idx) (i : S8192x256.Idx)
    (h0 : (i 0).val = 1024 * t.val + (y 0).val) (h1 : (i 1).val = (y 1).val) :
    k0_pay2 (F := Ideal) (iblk0 V c 0 t) (iblk0 V c 1 t) (iblk0 V c 2 t) y
      = proj0 (V c main_arg0) (V c main_v1) (V c main_v4) i := by
  have hy : (y 1 : Fin 256) = i 1 := Fin.ext h1.symm
  rw [k0_pay2_at]
  unfold proj0
  rw [iblk0_2_apply, hy]
  refine congrArg (· + (V c main_v4 : S1x256.Idx → EReal) (ix2 (0 : Fin 1) (i 1))) ?_
  refine Finset.sum_congr rfl fun k _ => ?_
  rw [iblk0_0_apply V c t (ix2 (y 0) k) (ix2 (i 0) k) h0 rfl, iblk0_1_apply]

/-- WHAT POINT `t` WRITES BACK through output window 5 is block `t` of the projection of the arrays the region finds. -/
theorem flushed0_5_eq (c : Dev nD) (t : Fin cfg0.N) :
    (dat0 V c).flushed 5 t = ((cfg0.win 5).blk t).view.read (Elt Ideal) (proj0 (V c main_arg0) (V c main_v1) (V c main_v4)) := by
  obtain ⟨-, -, -, -, -, -, -, -, -, -, e0, e1, -⟩ := idx_facts0 t
  show (cfg0.win 5).cut (grid0.coords t) ((dat0 V c).after 5 t) = _
  rw [after0_5]
  unfold out0_5
  rw [View.canon_unit_zero hz2]
  simp only [View.ld_unit_zero (S := S1024x512) hz2, View.ld_unit_zero (S := S512x256) hz2, View.ld_unit_zero (S := S1x256) hz2]
  funext j
  rw [View.read_apply]
  refine blk0_5_point V c t ((cfg0.win 5).xinj (grid0.coords t) j) _ ?_ ?_
  · show win0_5.index t 0 * 1024 + 1 * (j 0).val = 1024 * t.val + (j 0).val
    rw [e0]; omega
  · show win0_5.index t 1 * 256 + 1 * (j 1).val = (j 1).val
    rw [e1]; omega

/-- An index of the array is in point `t`'s block iff each coordinate is in the block's range on its axis. -/
theorem mem_blk0_5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v6_0).slice (win0_5.rect t)).set ↔ _
  rw [View.set_slice_whole, Rect.mem_set_unit]
  exact Iff.rfl

/-- Row `r` of the array is in the block of point `r / 1024`. -/
theorem cover0_5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨-, -, -, -, -, -, -, -, -, -, e0, e1, -⟩ := idx_facts0 ⟨(i 0).val / 1024, ht⟩
  refine ⟨⟨(i 0).val / 1024, ht⟩, flush0_5 _, ?_⟩
  rw [mem_blk0_5]
  intro a
  match a with
  | ⟨0, _⟩ =>
    show win0_5.index ⟨(i 0).val / 1024, ht⟩ 0 * 1024 ≤ (i 0).val ∧ (i 0).val < win0_5.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ 1 * 256 ≤ (i 1).val ∧ (i 1).val < win0_5.index ⟨(i 0).val / 1024, ht⟩ 1 * 256 + 256
    rw [e1]; omega

/-- THE ARRAY after the region: the projection, index by index. -/
theorem final0_5 (c : Dev nD) :
    (dat0 V c).arrAt 5 cfg0.N = proj0 (V c main_arg0) (V c main_v1) (V c main_v4) :=
  (dat0 V c).arrAt_eq_of_cover 5 _ (fun t _ => flushed0_5_eq V c t) cover0_5

/-- What point `t` leaves in output window 6's block, at a block index `y` lying under array index `i`. -/
theorem blk0_6_point (c : Dev nD) (t : Fin cfg0.N) (y : S1024x256.Idx) (i : S8192x256.Idx)
    (h0 : (i 0).val = 1024 * t.val + (y 0).val) (h1 : (i 1).val = (y 1).val) :
    k0_pay3 (F := Ideal) (iblk0 V c 0 t) (iblk0 V c 3 t) (iblk0 V c 4 t) y
      = proj0 (V c main_arg0) (V c main_v3) (V c main_v5) i := by
  have hy : (y 1 : Fin 256) = i 1 := Fin.ext h1.symm
  rw [k0_pay3_at]
  unfold proj0
  rw [iblk0_4_apply, hy]
  refine congrArg (· + (V c main_v5 : S1x256.Idx → EReal) (ix2 (0 : Fin 1) (i 1))) ?_
  refine Finset.sum_congr rfl fun k _ => ?_
  rw [iblk0_0_apply V c t (ix2 (y 0) k) (ix2 (i 0) k) h0 rfl, iblk0_3_apply]

/-- WHAT POINT `t` WRITES BACK through output window 6 is block `t` of the projection of the arrays the region finds. -/
theorem flushed0_6_eq (c : Dev nD) (t : Fin cfg0.N) :
    (dat0 V c).flushed 6 t = ((cfg0.win 6).blk t).view.read (Elt Ideal) (proj0 (V c main_arg0) (V c main_v3) (V c main_v5)) := by
  obtain ⟨-, -, -, -, -, -, -, -, -, -, -, -, e0, e1⟩ := idx_facts0 t
  show (cfg0.win 6).cut (grid0.coords t) ((dat0 V c).after 6 t) = _
  rw [after0_6]
  unfold out0_6
  rw [View.canon_unit_zero hz2]
  simp only [View.ld_unit_zero (S := S1024x512) hz2, View.ld_unit_zero (S := S512x256) hz2, View.ld_unit_zero (S := S1x256) hz2]
  funext j
  rw [View.read_apply]
  refine blk0_6_point V c t ((cfg0.win 6).xinj (grid0.coords t) j) _ ?_ ?_
  · show win0_6.index t 0 * 1024 + 1 * (j 0).val = 1024 * t.val + (j 0).val
    rw [e0]; omega
  · show win0_6.index t 1 * 256 + 1 * (j 1).val = (j 1).val
    rw [e1]; omega

/-- An index of the array is in point `t`'s block iff each coordinate is in the block's range on its axis. -/
theorem mem_blk0_6 (t : Fin cfg0.N) (i : S8192x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v6_1).slice (win0_6.rect t)).set ↔ _
  rw [View.set_slice_whole, Rect.mem_set_unit]
  exact Iff.rfl

/-- Row `r` of the array is in the block of point `r / 1024`. -/
theorem cover0_6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨-, -, -, -, -, -, -, -, -, -, -, -, e0, e1⟩ := idx_facts0 ⟨(i 0).val / 1024, ht⟩
  refine ⟨⟨(i 0).val / 1024, ht⟩, flush0_6 _, ?_⟩
  rw [mem_blk0_6]
  intro a
  match a with
  | ⟨0, _⟩ =>
    show win0_6.index ⟨(i 0).val / 1024, ht⟩ 0 * 1024 ≤ (i 0).val ∧ (i 0).val < win0_6.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ 1 * 256 ≤ (i 1).val ∧ (i 1).val < win0_6.index ⟨(i 0).val / 1024, ht⟩ 1 * 256 + 256
    rw [e1]; omega

/-- THE ARRAY after the region: the projection, index by index. -/
theorem final0_6 (c : Dev nD) :
    (dat0 V c).arrAt 6 cfg0.N = proj0 (V c main_arg0) (V c main_v3) (V c main_v5) :=
  (dat0 V c).arrAt_eq_of_cover 6 _ (fun t _ => flushed0_6_eq V c t) cover0_6

end Cert.KernelIdeal.Val

end
-- ==== Proof.PayDots.lean ====
import proofs.«122180_j6064493822280_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.SL.Sem Idealize.ShloMosaic.ValueIdx
open Cert.KernelIdeal Cert.KernelIdeal.Gen

/-! ### The contraction `[1024,256] × [256,1024]`: the operand indices at output index `(r, c)` and contraction coordinate `k` are `(r, k)` and `(k, c)`. -/

theorem dotQK_lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dotQK_lhs1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem dotQK_rhs0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem dotQK_rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product into the zero accumulator, at `(r, c)`: the plain sum over the contraction coordinate. -/
theorem dotQK_zero_apply {φ₁ φ₂ : FTy} (l : FVec Ideal S1024x256 φ₁) (w : FVec Ideal S256x1024 φ₂) (r : Fin 1024) (c : Fin 1024) :
    matmul dot_S1024x256_S256x1024_S1024x1024_1_0_0_1_n_n none l w (constant (F := Ideal) S1024x1024 .f32 0x00000000#32) (ix2 r c)
      = ∑ k : Fin 256, l (ix2 r k) * w (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun a => Fin.ext (by
    match a with
    | ⟨0, _⟩ => exact dotQK_lhs0 _ _
    | ⟨1, _⟩ => exact (dotQK_lhs1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun a => Fin.ext (by
    match a with
    | ⟨0, _⟩ => exact (dotQK_rhs0 _ _).trans hk
    | ⟨1, _⟩ => exact dotQK_rhs1 _ _)
  rw [el, er]

/-! ### The contraction `[1024,1024] × [1024,256]`: the operand indices at output index `(r, c)` and contraction coordinate `k` are `(r, k)` and `(k, c)`. -/

theorem dotPV_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem dotPV_lhs1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem dotPV_rhs0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem dotPV_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The matrix product into the zero accumulator, at `(r, c)`: the plain sum over the contraction coordinate. -/
theorem dotPV_zero_apply {φ₁ φ₂ : FTy} (l : FVec Ideal S1024x1024 φ₁) (w : FVec Ideal S1024x256 φ₂) (r : Fin 1024) (c : Fin 256) :
    matmul dot_S1024x1024_S1024x256_S1024x256_1_0_0_1_n_n none l w (constant (F := Ideal) S1024x256 .f32 0x00000000#32) (ix2 r c)
      = ∑ k : Fin 1024, l (ix2 r k) * w (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k := funext fun a => Fin.ext (by
    match a with
    | ⟨0, _⟩ => exact dotPV_lhs0 _ _
    | ⟨1, _⟩ => exact (dotPV_lhs1 _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c := funext fun a => Fin.ext (by
    match a with
    | ⟨0, _⟩ => exact (dotPV_rhs0 _ _).trans hk
    | ⟨1, _⟩ => exact dotPV_rhs1 _ _)
  rw [el, er]

/-! ### The contraction `[1024,256] × [256,512]`: the operand indices at output index `(r, c)` and contraction coordinate `k` are `(r, k)` and `(k, c)`. -/

theorem dotOut_lhs0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem dotOut_lhs1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem dotOut_rhs0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem dotOut_rhs1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The matrix product into the zero accumulator, at `(r, c)`: the plain sum over the contraction coordinate. -/
theorem dotOut_zero_apply {φ₁ φ₂ : FTy} (l : FVec Ideal S1024x256 φ₁) (w : FVec Ideal S256x512 φ₂) (r : Fin 1024) (c : Fin 512) :
    matmul dot_S1024x256_S256x512_S1024x512_1_0_0_1_n_n none l w (constant (F := Ideal) S1024x512 .f32 0x00000000#32) (ix2 r c)
      = ∑ k : Fin 256, l (ix2 r k) * w (ix2 k c) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r c) ((contrEquiv1 dot_S1024x256_S256x512_S1024x512_1_0_0_1_n_n 256 rfl rfl).symm k) = ix2 r k := funext fun a => Fin.ext (by
    match a with
    | ⟨0, _⟩ => exact dotOut_lhs0 _ _
    | ⟨1, _⟩ => exact (dotOut_lhs1 _ _).trans hk)
  have er : dot_S1024x256_S256x512_S1024x512_1_0_0_1_n_n.rhsIdx (ix2 r c) ((contrEquiv1 dot_S1024x256_S256x512_S1024x512_1_0_0_1_n_n 256 rfl rfl).symm k) = ix2 k c := funext fun a => Fin.ext (by
    match a with
    | ⟨0, _⟩ => exact (dotOut_rhs0 _ _).trans hk
    | ⟨1, _⟩ => exact dotOut_rhs1 _ _)
  rw [el, er]

end Cert.KernelIdeal.Pay

end
-- ==== Proof.AttnSpec.lean ====
/-
  The running merge of one row of a blockwise softmax, over the extended reals.

  A row of scores is cut into blocks indexed by a finite type "C". Passing over the blocks one keeps a running
  maximum "m", a running normaliser "l" and a running weighted sum "acc". At a block with scores "sk" and values
  "vk": the new maximum is "m' = max m (max of sk)"; what was accumulated under the old maximum is rescaled by
  "alpha = exp (m - m')"; the block's own weights are "exp (sk c - m')"; so "l' = alpha * l + ∑ weights" and
  "acc' = alpha * acc + ∑ weight * vk". The start is "m = ⊥", "l = 0", "acc = 0". The output after "k" blocks
  is "acc * (1 / l)".
-/
import Idealize.ShloMosaic.PureOps.Ideal
import Mathlib.Data.EReal.Operations
import Mathlib.Data.EReal.Inv

noncomputable section

open scoped BigOperators

namespace Cert.AttnSpec

open Idealize.ShloMosaic

variable {C : Type} [Fintype C]

/-- The largest score of a block ("⊥" for an empty block). -/
def blockMax (s : C → EReal) : EReal := Finset.univ.fold max ⊥ s

/-- The running maximum after a block. -/
def mNext (m : EReal) (sk : C → EReal) : EReal := max m (blockMax sk)

/-- The factor that moves what was accumulated under the old maximum to the new one. -/
def alpha (m : EReal) (sk : C → EReal) : EReal := Ideal.exp (m - mNext m sk)

/-- A position's weight under the new maximum. -/
def weight (m : EReal) (sk : C → EReal) (c : C) : EReal := Ideal.exp (sk c - mNext m sk)

/-- The running normaliser after a block. -/
def lNext (m l : EReal) (sk : C → EReal) : EReal := alpha m sk * l + ∑ c, weight m sk c

/-- The running weighted sum after a block. -/
def accNext (m a : EReal) (sk vk : C → EReal) : EReal := alpha m sk * a + ∑ c, weight m sk c * vk c

/-- The running maximum and normaliser after "k" blocks. -/
def st (s : ℕ → C → EReal) : ℕ → EReal × EReal
  | 0 => (⊥, 0)
  | k + 1 => (mNext (st s k).1 (s k), lNext (st s k).1 (st s k).2 (s k))

/-- The running weighted sum after "k" blocks. -/
def acc (s v : ℕ → C → EReal) : ℕ → EReal
  | 0 => 0
  | k + 1 => accNext (st s k).1 (acc s v k) (s k) (v k)

/-- The merge's output after "k" blocks. -/
def out (s v : ℕ → C → EReal) (k : ℕ) : EReal := acc s v k * Ideal.div 1 (st s k).2

end Cert.AttnSpec

end
-- ==== Proof.PayAttn.lean ====
import proofs.«122180_j6064493822280_2_alg».proof.Proof.Gen.KernelIdeal.Skeleton
import proofs.«122180_j6064493822280_2_alg».proof.Proof.PayDots
import proofs.«122180_j6064493822280_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.SL.Sem Idealize.ShloMosaic.ValueIdx
open Cert.KernelIdeal Cert.KernelIdeal.Gen Cert.AttnSpec

/-! ## Layout and reduction steps at an index -/

/-- A column `[1024]` viewed as `[1024, 1]`: at `(r, 0)` the entry `r`. -/
theorem col_apply {α : Type} (v : S1024.Idx → α) (h : S1024.ShapeCasts S1024x1) (r : Fin 1024) :
    shapeCast S1024x1 v h (ix2 r (0 : Fin 1)) = v (ix1 r) := by
  refine shapeCast_apply v h _ _ ?_
  rw [Shape.rowMajor_val_one, Shape.rowMajor_val_two]
  show r.val = r.val * 1 + 0
  omega

/-- A column `[1024, 1]` broadcast along the rows to `[1024, N]`: at `(r, c)` the column's entry `r`. -/
theorem bcastCol_apply {α : Type} {N : ℕ} (v : S1024x1.Idx → α) (h : S1024x1.Broadcasts ⟨2, ![1024, N]⟩)
    (r : Fin 1024) (c : Fin N) :
    broadcastTo ⟨2, ![1024, N]⟩ v h (ix2 r c) = v (ix2 r (0 : Fin 1)) := by
  refine broadcastTo_apply v h (ix2 r c) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else c.val
    rw [if_pos rfl]

/-- The word of negative infinity denotes the bottom of the extended reals. -/
theorem ofBits_neg_inf_f32 : Ideal.ofBits .f32 0xFF800000#32 = ⊥ := by
  simp [Ideal.ofBits, Ideal.ieee]

/-- The source index over row `r` with column `c` inserted is `(r, c)`. -/
theorem lift_row (h : S1024x1024.Reduces [1] S1024) (r c : Fin 1024) : h.lift (ix1 r) c = ix2 r c :=
  funext fun a => Fin.ext (by
    match a with
    | ⟨0, _⟩ => rfl
    | ⟨1, _⟩ => rfl)

/-- The maximum along the rows of a `[1024, 1024]` value, from negative infinity: at `r` the fold of `max` over row `r`. -/
theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1024)).fold max ⊥ (fun c => src (ix2 r c)) := by
  refine (Ideal.multiReduction_maximumf_single src 0xFF800000#32 h hφ hacc (ix1 r)).trans ?_
  show (Finset.univ : Finset (Fin 1024)).fold max (Ideal.ofBits .f32 0xFF800000#32) (fun c => src (h.lift (ix1 r) c)) = _
  rw [ofBits_neg_inf_f32]
  exact congrArg (fun f : Fin 1024 → EReal => (Finset.univ : Finset (Fin 1024)).fold max ⊥ f) (funext fun c => congrArg src (lift_row h r c))

/-- The sum along the rows of a `[1024, 1024]` value, from zero: at `r` the sum of row `r`. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r)
      = ∑ c : Fin 1024, src (ix2 r c) := by
  refine (Ideal.multiReduction_add_single src 0x00000000#32 h hφ hacc (ix1 r)).trans ?_
  show ∑ c : Fin 1024, src (h.lift (ix1 r) c) = _
  exact Finset.sum_congr rfl fun c _ => congrArg src (lift_row h r c)

/-! ## The flash-attention payloads at an index -/

/-- The scores of query row `r` against the 1024 keys of a block: `q_r · k_c`. -/
def sc (q kb : S1024x256.Idx → EReal) (r : Fin 1024) : Fin 1024 → EReal :=
  fun c => ∑ h : Fin 256, q (ix2 r h) * kb (ix2 c h)

/-- The score tile `q · kbᵀ` at `(r, c)`. -/
theorem k1_pay9_apply (q kb : Vec Ideal S1024x256 .bf16) (r c : Fin 1024) :
    k1_pay9 (F := Ideal) q kb (ix2 r c) = sc q kb r c := by
  unfold k1_pay9
  rw [dotQK_zero_apply]
  refine Finset.sum_congr rfl fun h _ => ?_
  rw [transpose_ix2_apply, shapeCast_self]

/-- The new running maximum of row `r`. -/
theorem k1_pay10_apply (q kb : Vec Ideal S1024x256 .bf16) (m : Vec Ideal S1024x1 .f32) (r : Fin 1024) :
    k1_pay10 (F := Ideal) q kb m (ix2 r (0 : Fin 1)) = mNext (m (ix2 r (0 : Fin 1))) (sc q kb r) := by
  unfold k1_pay10
  rw [maximumf_apply, col_apply]
  refine congrArg (max (m (ix2 r (0 : Fin 1)))) ?_
  refine (rowMax_apply _ _ _ _ r).trans ?_
  exact congrArg (fun f : Fin 1024 → EReal => (Finset.univ : Finset (Fin 1024)).fold max ⊥ f) (funext fun c => k1_pay9_apply q kb r c)

/-- A position's weight `exp (s - m')` under the new maximum. -/
theorem k1_pay12_apply (q kb : Vec Ideal S1024x256 .bf16) (m : Vec Ideal S1024x1 .f32) (r c : Fin 1024) :
    k1_pay12 (F := Ideal) q kb m (ix2 r c) = weight (m (ix2 r (0 : Fin 1))) (sc q kb r) c := by
  unfold k1_pay12
  show Ideal.exp (k1_pay9 (F := Ideal) q kb (ix2 r c) - broadcastTo S1024x1024 (k1_pay10 (F := Ideal) q kb m) _ (ix2 r c)) = _
  rw [bcastCol_apply, k1_pay9_apply, k1_pay10_apply]
  rfl

/-- The same weights after the change of format. -/
theorem k1_pay15_apply (q kb : Vec Ideal S1024x256 .bf16) (m : Vec Ideal S1024x1 .f32) (r c : Fin 1024) :
    k1_pay15 (F := Ideal) q kb m (ix2 r c) = weight (m (ix2 r (0 : Fin 1))) (sc q kb r) c := by
  unfold k1_pay15
  rw [truncf_apply]
  exact k1_pay12_apply q kb m r c

/-- The rescaling factor, with the two reads of the running maximum kept apart. -/
theorem k1_pay11_apply (q kb : Vec Ideal S1024x256 .bf16) (m m' : Vec Ideal S1024x1 .f32) (r : Fin 1024) :
    k1_pay11 (F := Ideal) q kb m m' (ix2 r (0 : Fin 1))
      = Ideal.exp (m' (ix2 r (0 : Fin 1)) - mNext (m (ix2 r (0 : Fin 1))) (sc q kb r)) := by
  unfold k1_pay11
  show Ideal.exp (m' (ix2 r (0 : Fin 1)) - k1_pay10 (F := Ideal) q kb m (ix2 r (0 : Fin 1))) = _
  rw [k1_pay10_apply]

/-- The rescaling factor `exp (m - m')` when both reads are of the same running maximum. -/
theorem k1_pay11_self (q kb : Vec Ideal S1024x256 .bf16) (m : Vec Ideal S1024x1 .f32) (r : Fin 1024) :
    k1_pay11 (F := Ideal) q kb m m (ix2 r (0 : Fin 1)) = alpha (m (ix2 r (0 : Fin 1))) (sc q kb r) :=
  k1_pay11_apply q kb m m r

/-- The new running normaliser of row `r`. -/
theorem k1_pay13_apply (q kb : Vec Ideal S1024x256 .bf16) (m l : Vec Ideal S1024x1 .f32) (r : Fin 1024) :
    k1_pay13 (F := Ideal) q kb m m l (ix2 r (0 : Fin 1))
      = lNext (m (ix2 r (0 : Fin 1))) (l (ix2 r (0 : Fin 1))) (sc q kb r) := by
  unfold k1_pay13
  rw [shapeCast_self, addf_apply, mulf_apply, k1_pay11_self, col_apply]
  refine congrArg (alpha (m (ix2 r (0 : Fin 1))) (sc q kb r) * l (ix2 r (0 : Fin 1)) + ·) ?_
  refine (rowSum_apply _ _ _ _ r).trans ?_
  exact Finset.sum_congr rfl fun c _ => k1_pay12_apply q kb m r c

/-- The rescaled running weighted sum at `(r, h)`. -/
theorem k1_pay14_apply (q kb : Vec Ideal S1024x256 .bf16) (m : Vec Ideal S1024x1 .f32) (a : Vec Ideal S1024x256 .f32)
    (r : Fin 1024) (h : Fin 256) :
    k1_pay14 (F := Ideal) q kb m m a (ix2 r h) = alpha (m (ix2 r (0 : Fin 1))) (sc q kb r) * a (ix2 r h) := by
  unfold k1_pay14
  rw [mulf_apply, bcastCol_apply, k1_pay11_self]

end Cert.KernelIdeal.Pay

end
-- ==== Proof.PayTail.lean ====
import proofs.«122180_j6064493822280_2_alg».proof.Proof.Gen.KernelIdeal.Skeleton
import proofs.«122180_j6064493822280_2_alg».proof.Proof.PayDots
import proofs.«122180_j6064493822280_2_alg».proof.Proof.PayAttn
import proofs.«122180_j6064493822280_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.SL.Sem Idealize.ShloMosaic.ValueIdx
open Cert.KernelIdeal Cert.KernelIdeal.Gen Cert.AttnSpec

/-! ## The accumulator update, the resets, the pass-through values and the final projection at an index -/

/-- The new running weighted sum from its three operands: `v34 + v35 · v11` at `(r, h)`. -/
theorem k1_pay1_apply (v11 : FVec Ideal S1024x256 .bf16) (v34 : FVec Ideal S1024x256 .f32) (v35 : FVec Ideal S1024x1024 .bf16)
    (r : Fin 1024) (h : Fin 256) :
    k1_pay1 (F := Ideal) v11 v34 v35 (ix2 r h) = v34 (ix2 r h) + ∑ c : Fin 1024, v35 (ix2 r c) * v11 (ix2 c h) := by
  unfold k1_pay1
  rw [shapeCast_self, addf_apply, dotPV_zero_apply]

/-- The block of V passes through unchanged. -/
theorem k1_pay8_eq (vb : Vec Ideal S1024x256 .bf16) : k1_pay8 (F := Ideal) vb = vb := by
  unfold k1_pay8
  rw [shapeCast_self]

/-- The new running maximum is stored unchanged. -/
theorem k1_pay2_eq (x : FVec Ideal S1024x1 .f32) : k1_pay2 (F := Ideal) x = x := by
  unfold k1_pay2
  rw [shapeCast_self]

/-- The accumulator update composed with the payloads it is fed: the merge's `accNext` of row `r`, column `h`. -/
theorem k1_pay1_comp_apply (q kb vb : Vec Ideal S1024x256 .bf16) (m : Vec Ideal S1024x1 .f32) (a : Vec Ideal S1024x256 .f32)
    (r : Fin 1024) (h : Fin 256) :
    k1_pay1 (F := Ideal) (k1_pay8 (F := Ideal) vb) (k1_pay14 (F := Ideal) q kb m m a) (k1_pay15 (F := Ideal) q kb m) (ix2 r h)
      = accNext (m (ix2 r (0 : Fin 1))) (a (ix2 r h)) (sc q kb r) (fun c => vb (ix2 c h)) := by
  rw [k1_pay1_apply, k1_pay8_eq, k1_pay14_apply]
  refine congrArg (alpha (m (ix2 r (0 : Fin 1))) (sc q kb r) * a (ix2 r h) + ·) ?_
  exact Finset.sum_congr rfl fun c _ => by rw [k1_pay15_apply]

/-- The reset of the running maximum: negative infinity. -/
theorem k1_pay5_apply (r : Fin 1024) : k1_pay5 (F := Ideal) (ix2 r (0 : Fin 1)) = ⊥ := by
  unfold k1_pay5
  rw [shapeCast_self]
  exact ofBits_neg_inf_f32

/-- The reset of the running normaliser: zero. -/
theorem k1_pay6_apply (r : Fin 1024) : k1_pay6 (F := Ideal) (ix2 r (0 : Fin 1)) = 0 := by
  unfold k1_pay6
  rw [shapeCast_self]
  exact Ideal.ofBits_zero_f32

/-- The reset of the running weighted sum: zero. -/
theorem k1_pay7_apply (r : Fin 1024) (h : Fin 256) : k1_pay7 (F := Ideal) (ix2 r h) = 0 := by
  unfold k1_pay7
  rw [shapeCast_self]
  exact Ideal.ofBits_zero_f32

/-- A `[1, 512]` row, cast to its own shape, broadcast over 1024 rows: at `(r, o)` the row at `o`. -/
theorem bias512_apply (b : FVec Ideal S1x512 .f32) (hs : S1x512.ShapeCasts S1x512) (hb : S1x512.Broadcasts S1024x512)
    (r : Fin 1024) (o : Fin 512) :
    broadcastTo S1024x512 (shapeCast S1x512 b hs) hb (ix2 r o) = b (ix2 (0 : Fin 1) o) := by
  rw [shapeCast_self]
  exact broadcastTo_1b_ab_apply b hb r o

/-- The final projection of the normalised accumulator: `(acc / l) · fw + fb` at `(r, o)`. -/
theorem k1_pay3_apply (acc : Vec Ideal S1024x256 .f32) (l : Vec Ideal S1024x1 .f32) (fw : Vec Ideal S256x512 .bf16)
    (fb : Vec Ideal S1x512 .f32) (r : Fin 1024) (o : Fin 512) :
    k1_pay3 (F := Ideal) acc l fw fb (ix2 r o)
      = (∑ h : Fin 256, Ideal.div (acc (ix2 r h)) (l (ix2 r (0 : Fin 1))) * fw (ix2 h o)) + fb (ix2 (0 : Fin 1) o) := by
  unfold k1_pay3
  rw [addf_apply, dotOut_zero_apply, bias512_apply, shapeCast_self]
  refine congrArg (· + fb (ix2 (0 : Fin 1) o)) ?_
  refine Finset.sum_congr rfl fun h _ => ?_
  rw [truncf_apply, divf_apply, bcastCol_apply]

end Cert.KernelIdeal.Pay

end
-- ==== Proof.R1Step.lean ====
/-
  One key tile of the attention body as a map on the three running quantities (row maximum, normaliser, weighted
  sum), and its reading row by row on the extended reals: it is one step of the blockwise softmax merge.
-/
import proofs.«122180_j6064493822280_2_alg».proof.Proof.PayTail

noncomputable section

namespace Cert.KernelIdeal.Val

open Idealize.ShloMosaic Idealize.SL.Sem Idealize.ShloMosaic.ValueIdx
open Cert.KernelIdeal Cert.KernelIdeal.Gen Cert.KernelIdeal.Pay Cert.AttnSpec

section AnyF
variable {F : FTy → Type} [FloatOps F]

/-- What a key tile leaves as running maximum, normaliser and weighted sum, from the query tile `q`, the tile's
    keys `kb` and values `vb`, and what the key tile before left (`m`, `l`, `a`). -/
def stepS (q kb vb : Vec F S1024x256 .bf16) (m l : Vec F S1024x1 .f32) (a : Vec F S1024x256 .f32) :
    FVec F S1024x1 .f32 × FVec F S1024x1 .f32 × FVec F S1024x256 .f32 :=
  (k1_pay2 (k1_pay10 q kb m), k1_pay13 q kb m m l, k1_pay1 (k1_pay8 vb) (k1_pay14 q kb m m a) (k1_pay15 q kb m))

end AnyF

theorem stepS_m (q kb vb : Vec Ideal S1024x256 .bf16) (m l : Vec Ideal S1024x1 .f32) (a : Vec Ideal S1024x256 .f32) (r : Fin 1024) :
    (stepS (F := Ideal) q kb vb m l a).1 (ix2 r (0 : Fin 1)) = mNext (m (ix2 r (0 : Fin 1))) (sc q kb r) := by
  show k1_pay2 (F := Ideal) (k1_pay10 (F := Ideal) q kb m) (ix2 r (0 : Fin 1)) = _
  rw [k1_pay2_eq]
  exact k1_pay10_apply q kb m r

theorem stepS_l (q kb vb : Vec Ideal S1024x256 .bf16) (m l : Vec Ideal S1024x1 .f32) (a : Vec Ideal S1024x256 .f32) (r : Fin 1024) :
    (stepS (F := Ideal) q kb vb m l a).2.1 (ix2 r (0 : Fin 1))
      = lNext (m (ix2 r (0 : Fin 1))) (l (ix2 r (0 : Fin 1))) (sc q kb r) :=
  k1_pay13_apply q kb m l r

theorem stepS_a (q kb vb : Vec Ideal S1024x256 .bf16) (m l : Vec Ideal S1024x1 .f32) (a : Vec Ideal S1024x256 .f32)
    (r : Fin 1024) (h : Fin 256) :
    (stepS (F := Ideal) q kb vb m l a).2.2 (ix2 r h)
      = accNext (m (ix2 r (0 : Fin 1))) (a (ix2 r h)) (sc q kb r) (fun c => vb (ix2 c h)) :=
  k1_pay1_comp_apply q kb vb m a r h

/-- A key tile is one step of the merge: if row `r`'s scores against the tile are block `k` of `s`, the tile's values
    block `k` of `v`, and the running quantities of row `r` are the merge's after `k` blocks, then what the tile leaves
    are the merge's after `k + 1` blocks. -/
theorem step_row (q kb vb : Vec Ideal S1024x256 .bf16) (m l : Vec Ideal S1024x1 .f32) (a : Vec Ideal S1024x256 .f32)
    (r : Fin 1024) (s : ℕ → Fin 1024 → EReal) (v : Fin 256 → ℕ → Fin 1024 → EReal) (k : ℕ)
    (hq : sc q kb r = s k) (hv : ∀ (h : Fin 256) (c : Fin 1024), vb (ix2 c h) = v h k c)
    (hm : m (ix2 r (0 : Fin 1)) = (st s k).1) (hl : l (ix2 r (0 : Fin 1)) = (st s k).2)
    (ha : ∀ h : Fin 256, a (ix2 r h) = acc s (v h) k) :
    (stepS (F := Ideal) q kb vb m l a).1 (ix2 r (0 : Fin 1)) = (st s (k + 1)).1
    ∧ (stepS (F := Ideal) q kb vb m l a).2.1 (ix2 r (0 : Fin 1)) = (st s (k + 1)).2
    ∧ ∀ h : Fin 256, (stepS (F := Ideal) q kb vb m l a).2.2 (ix2 r h) = acc s (v h) (k + 1) := by
  refine ⟨?_, ?_, fun h => ?_⟩
  · rw [stepS_m, hm, hq]; rfl
  · rw [stepS_l, hm, hl, hq]; rfl
  · rw [stepS_a, hm, ha h, hq, show (fun c => vb (ix2 c h)) = v h k from funext fun c => hv h c]; rfl

/-- The first key tile starts the merge: the resets are the merge's start. -/
theorem step_row_first (q kb vb : Vec Ideal S1024x256 .bf16)
    (r : Fin 1024) (s : ℕ → Fin 1024 → EReal) (v : Fin 256 → ℕ → Fin 1024 → EReal)
    (hq : sc q kb r = s 0) (hv : ∀ (h : Fin 256) (c : Fin 1024), vb (ix2 c h) = v h 0 c) :
    (stepS (F := Ideal) q kb vb (k1_pay5 (F := Ideal)) (k1_pay6 (F := Ideal)) (k1_pay7 (F := Ideal))).1 (ix2 r (0 : Fin 1)) = (st s 1).1
    ∧ (stepS (F := Ideal) q kb vb (k1_pay5 (F := Ideal)) (k1_pay6 (F := Ideal)) (k1_pay7 (F := Ideal))).2.1 (ix2 r (0 : Fin 1)) = (st s 1).2
    ∧ ∀ h : Fin 256, (stepS (F := Ideal) q kb vb (k1_pay5 (F := Ideal)) (k1_pay6 (F := Ideal)) (k1_pay7 (F := Ideal))).2.2 (ix2 r h) = acc s (v h) 1 :=
  step_row q kb vb _ _ _ r s v 0 hq hv (k1_pay5_apply r) (k1_pay6_apply r) (fun h => k1_pay7_apply r h)

end Cert.KernelIdeal.Val

end
-- ==== Proof.R1Pieces.lean ====
/-
  What each case of the attention body leaves in the scratch buffers and in the output block, as the payloads of
  the values it loaded: the first key tile stores the query tile and one step of the merge from the resets; a later
  key tile one step from what the tile before left; the last one also the projected, normalised result.
-/
import proofs.«122180_j6064493822280_2_alg».proof.Proof.FrameR1
import proofs.«122180_j6064493822280_2_alg».proof.Proof.R1Step
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen Cert.KernelIdeal.Fr

variable {F : FTy → Type} [FloatOps F]

theorem hzz : (![0, 0] : Fin 2 → Nat) = fun _ => 0 := funext fun a => by fin_cases a <;> rfl

/-- The rows of the key (or value) array that the point's key tile reads. -/
abbrev kvRect (i : grid1.Coords) : Rect S8192x256 := Rect.unit (s := S8192x256) (k1_off1 i) S1024x256.size (k1_off1_inb i)

/-! ## The first key tile -/

theorem soutA0_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    sout1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k1_pay4 x0 x1 x2 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutA1_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    sout1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = (stepS (k1_pay4 x0 x1 x2) (View.ld x3 (kvRect i)) (View.ld x4 (kvRect i)) (k1_pay5 (F := F)) (k1_pay6 (F := F)) (k1_pay7 (F := F))).1 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_run_names
  rw [View.canon_cons_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutA2_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    sout1_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = (stepS (k1_pay4 x0 x1 x2) (View.ld x3 (kvRect i)) (View.ld x4 (kvRect i)) (k1_pay5 (F := F)) (k1_pay6 (F := F)) (k1_pay7 (F := F))).2.1 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_run_names
  rw [View.canon_cons_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutA3_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) :
    sout1_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = (stepS (k1_pay4 x0 x1 x2) (View.ld x3 (kvRect i)) (View.ld x4 (kvRect i)) (k1_pay5 (F := F)) (k1_pay6 (F := F)) (k1_pay7 (F := F))).2.2 := by
  unfold sout1_A_3
  rw [View.read_writes_eq_canon _ _ _ (scover1_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_run_names
  rw [View.canon_cons_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

/-! ## A middle key tile -/

theorem soutB1_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_B
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutB2_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).2.1 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_B
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutB3_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : ¬cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).2.2 := by
  unfold sout1_B_3
  rw [View.read_writes_eq_canon _ _ _ (scover1_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_B
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

/-! ## The last key tile -/

theorem soutC1_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_C
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutC2_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).2.1 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_C
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem soutC3_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    sout1_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = (stepS xs0 (View.ld x3 (kvRect i)) (View.ld x4 (kvRect i)) xs1 xs2 xs3).2.2 := by
  unfold sout1_C_3
  rw [View.read_writes_eq_canon _ _ _ (scover1_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_C
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

theorem outC7_eq (c : Dev nD) (i : grid1.Coords) (arg2 : Memref sig .tc .vmem S1024x512 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x256 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x256 .f32) (harg13 : arg13.IsWhole) (hc0 : ¬cond1_0 i) (hc1 : cond1_1 i)
    (x0 : Vec F S1024x512 .f32) (x1 : Vec F S512x256 .bf16) (x2 : Vec F S1x256 .f32) (x3 : Vec F S8192x256 .bf16) (x4 : Vec F S8192x256 .bf16) (x5 : Vec F S256x512 .bf16) (x6 : Vec F S1x512 .f32) (xs0 : Vec F S1024x256 .bf16) (xs1 : Vec F S1024x1 .f32) (xs2 : Vec F S1024x1 .f32) (xs3 : Vec F S1024x256 .f32) :
    out1_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k1_pay3 (stepS xs0 (View.ld x3 (kvRect i)) (View.ld x4 (kvRect i)) xs1 xs2 xs3).2.2 (stepS xs0 (View.ld x3 (kvRect i)) (View.ld x4 (kvRect i)) xs1 xs2 xs3).2.1 x5 x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun1_C
  dsimp only
  sl_unfold_run_names
  rw [View.canon_unit_zero hzz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S1024x512) hzz, View.ld_unit_zero (S := S512x256) hzz, View.ld_unit_zero (S := S1x256) hzz, View.ld_unit_zero (S := S256x512) hzz, View.ld_unit_zero (S := S1x512) hzz, View.ld_unit_zero (S := S1024x256) hzz, View.ld_unit_zero (S := S1024x1) hzz, View.readCov_unit_zero (S := S1024x256) arg10.view hzz, View.readCov_unit_zero (S := S1024x1) arg11.view hzz, View.readCov_unit_zero (S := S1024x1) arg12.view hzz, View.readCov_unit_zero (S := S1024x256) arg13.view hzz]
  try rfl

end Cert.KernelIdeal.Val

end
-- ==== Proof.R1Blocks.lean ====
/-
  The attention region's windows over the 8 × 8 grid: point "t" is query tile "t / 8", key tile "t % 8". The input
  window's block at a point is rows "1024 · (t / 8) …" of the input; the six other input windows hold their whole
  arrays at every point; the output window's block at a point is rows "1024 · (t / 8) …" of the output, written
  back at the last key tile of each query tile, and these blocks cover the output.
-/
import proofs.«122180_j6064493822280_2_alg».proof.Proof.FrameR1Base
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The printed index maps over the grid: the row-blocked windows are at block "t / 8", the whole-array windows at
    block 0. -/
theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 8 ∧ win1_7.index t (1 : Fin 2) = 0 :=
  (by decide +kernel : ∀ t : Fin grid1.N, _)

/-- The input window's block at point "t" is rows "1024 · (t / 8) …" of the input array. -/
theorem iblk1_0_apply (c : Dev nD) (t : Fin cfg1.N) (x : S1024x512.Idx) (k : S8192x512.Idx)
    (hk0 : (k 0).val = 1024 * (t.val / 8) + (x 0).val) (hk1 : (k 1).val = (x 1).val) :
    (iblk1 V c 0 t : Vec Ideal S1024x512 .f32) x = (V c main_arg0 : S8192x512.Idx → EReal) k := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 1024 + 1 * (x 0).val = (k 0).val; rw [e0, hk0]; omega
  | ⟨1, _⟩ => show win1_0.index t 1 * 512 + 1 * (x 1).val = (k 1).val; rw [e1, hk1]; omega

/-- Window 1's block at any point is its whole array. -/
theorem iblk1_1_apply (c : Dev nD) (t : Fin cfg1.N) (x : S512x256.Idx) :
    (iblk1 V c 1 t : Vec Ideal S512x256 .bf16) x = (V c main_v8 : S512x256.Idx → EReal) x := by
  obtain ⟨-, -, e0, e1, -⟩ := idx_facts1 t
  unfold iblk1
  rw [View.read_apply]
  show V c main_v8 _ = V c main_v8 _
  congr 1
  funext a
  apply Fin.ext
  match a with
  | ⟨0, _⟩ => show win1_1.index t 0 * 512 + 1 * (x 0).val = (x 0).val; rw [e0]; omega
  | ⟨1, _⟩ => show win1_1.index t 1 * 256 + 1 * (x 1).val = (x 1).val; rw [e1]; omega

/-- Window 2's block at any point is its whole array. -/
theorem iblk1_2_apply (c : Dev nD) (t : Fin cfg1.N) (x : S1x256.Idx) :
    (iblk1 V c 2 t : Vec Ideal S1x256 .f32) x = (V c main_v9 : S1x256.Idx → EReal) x := by
  obtain ⟨-, -, -, -, e0, e1, -⟩ := idx_facts1 t
  unfold iblk1
  rw [View.read_apply]
  show V c main_v9 _ = V c main_v9 _
  congr 1
  funext a
  apply Fin.ext
  match a with
  | ⟨0, _⟩ => show win1_2.index t 0 * 1 + 1 * (x 0).val = (x 0).val; rw [e0]; omega
  | ⟨1, _⟩ => show win1_2.index t 1 * 256 + 1 * (x 1).val = (x 1).val; rw [e1]; omega

/-- Window 3's block at any point is its whole array. -/
theorem iblk1_3_apply (c : Dev nD) (t : Fin cfg1.N) (x : S8192x256.Idx) :
    (iblk1 V c 3 t : Vec Ideal S8192x256 .bf16) x = (V c main_v6_0 : S8192x256.Idx → EReal) x := by
  obtain ⟨-, -, -, -, -, -, e0, e1, -⟩ := idx_facts1 t
  unfold iblk1
  rw [View.read_apply]
  show V c main_v6_0 _ = V c main_v6_0 _
  congr 1
  funext a
  apply Fin.ext
  match a with
  | ⟨0, _⟩ => show win1_3.index t 0 * 8192 + 1 * (x 0).val = (x 0).val; rw [e0]; omega
  | ⟨1, _⟩ => show win1_3.index t 1 * 256 + 1 * (x 1).val = (x 1).val; rw [e1]; omega

/-- Window 4's block at any point is its whole array. -/
theorem iblk1_4_apply (c : Dev nD) (t : Fin cfg1.N) (x : S8192x256.Idx) :
    (iblk1 V c 4 t : Vec Ideal S8192x256 .bf16) x = (V c main_v6_1 : S8192x256.Idx → EReal) x := by
  obtain ⟨-, -, -, -, -, -, -, -, e0, e1, -⟩ := idx_facts1 t
  unfold iblk1
  rw [View.read_apply]
  show V c main_v6_1 _ = V c main_v6_1 _
  congr 1
  funext a
  apply Fin.ext
  match a with
  | ⟨0, _⟩ => show win1_4.index t 0 * 8192 + 1 * (x 0).val = (x 0).val; rw [e0]; omega
  | ⟨1, _⟩ => show win1_4.index t 1 * 256 + 1 * (x 1).val = (x 1).val; rw [e1]; omega

/-- Window 5's block at any point is its whole array. -/
theorem iblk1_5_apply (c : Dev nD) (t : Fin cfg1.N) (x : S256x512.Idx) :
    (iblk1 V c 5 t : Vec Ideal S256x512 .bf16) x = (V c main_v11 : S256x512.Idx → EReal) x := by
  obtain ⟨-, -, -, -, -, -, -, -, -, -, e0, e1, -⟩ := idx_facts1 t
  unfold iblk1
  rw [View.read_apply]
  show V c main_v11 _ = V c main_v11 _
  congr 1
  funext a
  apply Fin.ext
  match a with
  | ⟨0, _⟩ => show win1_5.index t 0 * 256 + 1 * (x 0).val = (x 0).val; rw [e0]; omega
  | ⟨1, _⟩ => show win1_5.index t 1 * 512 + 1 * (x 1).val = (x 1).val; rw [e1]; omega

/-- Window 6's block at any point is its whole array. -/
theorem iblk1_6_apply (c : Dev nD) (t : Fin cfg1.N) (x : S1x512.Idx) :
    (iblk1 V c 6 t : Vec Ideal S1x512 .f32) x = (V c main_v12 : S1x512.Idx → EReal) x := by
  obtain ⟨-, -, -, -, -, -, -, -, -, -, -, -, e0, e1, -⟩ := idx_facts1 t
  unfold iblk1
  rw [View.read_apply]
  show V c main_v12 _ = V c main_v12 _
  congr 1
  funext a
  apply Fin.ext
  match a with
  | ⟨0, _⟩ => show win1_6.index t 0 * 1 + 1 * (x 0).val = (x 0).val; rw [e0]; omega
  | ⟨1, _⟩ => show win1_6.index t 1 * 512 + 1 * (x 1).val = (x 1).val; rw [e1]; omega

/-- An index of the output array is in point "t"'s block iff each coordinate is in the block's range on its axis. -/
theorem mem_blk1_7 (t : Fin cfg1.N) (i : S8192x512.Idx) :
    i ∈ ((cfg1.win 7).blk t).view.set ↔ ∀ a : Fin 2, win1_7.index t a * S1024x512.size a ≤ (i a).val ∧ (i a).val < win1_7.index t a * S1024x512.size a + S1024x512.size a := by
  show i ∈ ((View.whole main_v13).slice (win1_7.rect t)).set ↔ _
  rw [View.set_slice_whole, Rect.mem_set_unit]
  exact Iff.rfl

/-- Row "r" of the output is in the block of the last key tile of query tile "r / 1024", a point that writes back. -/
theorem cover1_7 (i : S8192x512.Idx) : ∃ t : Fin cfg1.N, (cfg1.win 7).flush t = true ∧ i ∈ ((cfg1.win 7).blk t).view.set := by
  have hi0 : (i 0).val < 8192 := (i 0).isLt
  have hi1 : (i 1).val < 512 := (i 1).isLt
  have hN : cfg1.N = 64 := N_1
  have ht : 8 * ((i 0).val / 1024) + 7 < cfg1.N := by rw [hN]; omega
  obtain ⟨-, -, -, -, -, -, -, -, -, -, -, -, -, -, e0, e1⟩ := idx_facts1 ⟨8 * ((i 0).val / 1024) + 7, ht⟩
  refine ⟨⟨8 * ((i 0).val / 1024) + 7, ht⟩, (flush1_7 _).mpr (by show (8 * ((i 0).val / 1024) + 7) % 8 = 7; omega), ?_⟩
  rw [mem_blk1_7]
  intro a
  match a with
  | ⟨0, _⟩ =>
    show win1_7.index ⟨8 * ((i 0).val / 1024) + 7, ht⟩ 0 * 1024 ≤ (i 0).val ∧ (i 0).val < win1_7.index ⟨8 * ((i 0).val / 1024) + 7, ht⟩ 0 * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_7.index ⟨8 * ((i 0).val / 1024) + 7, ht⟩ 1 * 512 ≤ (i 1).val ∧ (i 1).val < win1_7.index ⟨8 * ((i 0).val / 1024) + 7, ht⟩ 1 * 512 + 512
    rw [e1]; omega

/-- Where the output window's block at point "t" sits in the output: its position "j" is row "1024 · (t / 8) + j 0",
    column "j 1". -/
theorem emb1_7 (t : Fin cfg1.N) (j : ((cfg1.win 7).xblock (grid1.coords t)).Idx) :
    ((((cfg1.win 7).blk t).view.emb j) 0).val = 1024 * (t.val / 8) + (((cfg1.win 7).xinj (grid1.coords t) j) 0).val
      ∧ ((((cfg1.win 7).blk t).view.emb j) 1).val = (((cfg1.win 7).xinj (grid1.coords t) j) 1).val := by
  obtain ⟨-, -, -, -, -, -, -, -, -, -, -, -, -, -, e0, e1⟩ := idx_facts1 t
  constructor
  · show win1_7.index t 0 * 1024 + 1 * (j 0).val = 1024 * (t.val / 8) + (j 0).val
    rw [e0]; omega
  · show win1_7.index t 1 * 512 + 1 * (j 1).val = (j 1).val
    rw [e1]; omega

end Cert.KernelIdeal.Val

end
-- ==== Proof.R1Slice.lean ====
/-
  The attention region's grid point "t" has query tile "t / 8" and key tile "t % 8"; the body's slice of the keys
  (and of the values) at a point is rows "1024 · (t % 8) …" of the array.
-/
import proofs.«122180_j6064493822280_2_alg».proof.Proof.FrameR1Base
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-- The coordinates of grid point "t": the key tile is "t % 8", the query tile "t / 8". -/
theorem coords1 : ∀ t : Fin cfg1.N, ((grid1.coords t) 1).val = t.val % 8 ∧ ((grid1.coords t) 0).val = t.val / 8 :=
  (by decide +kernel : ∀ t : Fin grid1.N, _)

/-- The slice of 1024 rows the body loads at point "t" out of an array of 8192 rows and 256 columns: position "y" of
    the slice is row "1024 · (t % 8) + y 0", column "y 1" of the array. -/
theorem ld_slice1 {Val : EltTy → Type} {e : EltTy} (x : S8192x256.Idx → Val e) (t : Fin cfg1.N)
    (inb : ∀ a, (k1_off1 (grid1.coords t)) a + S1024x256.size a ≤ S8192x256.size a)
    (y : S1024x256.Idx) (k : S8192x256.Idx)
    (hk0 : (k 0).val = 1024 * (t.val % 8) + (y 0).val) (hk1 : (k 1).val = (y 1).val) :
    View.ld x (Rect.unit (s := S8192x256) (k1_off1 (grid1.coords t)) S1024x256.size inb) y = x k := by
  obtain ⟨c1, -⟩ := coords1 t
  show x _ = x k
  congr 1
  funext a
  apply Fin.ext
  match a with
  | ⟨0, _⟩ =>
    show k1_off1 (grid1.coords t) 0 + 1 * (y 0).val = (k 0).val
    rw [k1_off1_eq]
    show 1024 * ((grid1.coords t) 1).val + 1 * (y 0).val = (k 0).val
    rw [c1, hk0]; omega
  | ⟨1, _⟩ =>
    show k1_off1 (grid1.coords t) 1 + 1 * (y 1).val = (k 1).val
    rw [k1_off1_eq]
    show 0 + 1 * (y 1).val = (k 1).val
    rw [hk1]; omega

end Cert.KernelIdeal.Val

end
-- ==== Proof.AttnOut.lean ====
/-
  The attention region's result array in the kernel's own arrangement: row "p" of the scores is cut into 8 blocks
  of 1024 keys, the blocks are merged by the running softmax recurrence, the merged weighted sum is divided by the
  merged normaliser and projected by the (already transposed) output weights, plus their bias row.
-/
import proofs.«122180_j6064493822280_2_alg».proof.Proof.AttnSpec
import Idealize.ShloMosaic.Lib.ValueIdx

noncomputable section

open scoped BigOperators

namespace Cert.KernelIdeal.Val

open Idealize.ShloMosaic Idealize.ShloMosaic.ValueIdx Cert.AttnSpec

/-- Row `1024 b + c` of an array of 8192 rows (reduced modulo 8192, so that it is a row for every `b`). -/
def krow (b : ℕ) (c : Fin 1024) : Fin 8192 := ⟨(1024 * b + c.val) % 8192, Nat.mod_lt _ (by decide)⟩

theorem krow_val (b : ℕ) (hb : b < 8) (c : Fin 1024) : (krow b c).val = 1024 * b + c.val := by
  have := c.isLt
  show (1024 * b + c.val) % 8192 = _
  exact Nat.mod_eq_of_lt (by omega)

/-- Block `b` of the scores of query row `p`: its inner products with keys `1024 b … 1024 b + 1023`. -/
def sblk (Q K : (⟨2, ![8192, 256]⟩ : Shape).Idx → EReal) (p : Fin 8192) : ℕ → Fin 1024 → EReal :=
  fun b c => ∑ h : Fin 256, Q (ix2 p h) * K (ix2 (krow b c) h)

/-- Block `b` of column `h` of the values. -/
def vblk (Vv : (⟨2, ![8192, 256]⟩ : Shape).Idx → EReal) (h : Fin 256) : ℕ → Fin 1024 → EReal :=
  fun b c => Vv (ix2 (krow b c) h)

/-- The result array: the merge of the 8 blocks, normalised, projected by `Fw` (256 × 512) plus the row `Fb`. -/
def attnOut (Q K Vv : (⟨2, ![8192, 256]⟩ : Shape).Idx → EReal) (Fw : (⟨2, ![256, 512]⟩ : Shape).Idx → EReal)
    (Fb : (⟨2, ![1, 512]⟩ : Shape).Idx → EReal) : (⟨2, ![8192, 512]⟩ : Shape).Idx → EReal :=
  fun i => (∑ h : Fin 256, Ideal.div (acc (sblk Q K (i 0)) (vblk Vv h) 8) (st (sblk Q K (i 0)) 8).2 * Fw (ix2 h (i 1)))
    + Fb (ix2 (0 : Fin 1) (i 1))

end Cert.KernelIdeal.Val

end
-- ==== Proof.R1Value.lean ====
/-
  The attention region's output array after the region, as ONE function of the arrays the region finds. After the
  point of query tile "t / 8" and key tile "t % 8" the scratch buffers hold, row by row, the query tile and the
  blockwise softmax merge of the row's first "t % 8 + 1" blocks of scores; the last key tile of a query tile writes
  the normalised, projected rows; the write-backs tile the array.
-/
import proofs.«122180_j6064493822280_2_alg».proof.Proof.R1Pieces
import proofs.«122180_j6064493822280_2_alg».proof.Proof.R1Blocks
import proofs.«122180_j6064493822280_2_alg».proof.Proof.R1Slice
import proofs.«122180_j6064493822280_2_alg».proof.Proof.R0Value
import proofs.«122180_j6064493822280_2_alg».proof.Proof.AttnOut

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.Pay Cert.AttnSpec

variable (V : (c : Dev nD) → (b : Ref sig .tc) → Buf (Elt Ideal) ((c : Thread nD τ).loc b))

/-- The queries: the projection of the input by the (transposed) query weights, plus their bias row. -/
abbrev Qf (c : Dev nD) : S8192x256.Idx → EReal := proj0 (V c main_arg0) (V c main_v8) (V c main_v9)
/-- The keys and the values, as the region finds them. -/
abbrev Kf (c : Dev nD) : S8192x256.Idx → EReal := V c main_v6_0
abbrev Vf (c : Dev nD) : S8192x256.Idx → EReal := V c main_v6_1

theorem N1 : cfg1.N = 64 := N_1

/-! ## What a point reads -/

/-- The query tile a first key tile stores: rows `1024 (t / 8) …` of the queries. -/
theorem qtile (c : Dev nD) (t : Fin cfg1.N) (r : Fin 1024) (h : Fin 256) :
    k1_pay4 (F := Ideal) (iblk1 V c 0 t) (iblk1 V c 1 t) (iblk1 V c 2 t) (ix2 r h) = Qf V c (ix2 (krow (t.val / 8) r) h) := by
  have ht : t.val / 8 < 8 := by have := t.isLt; have hN : cfg1.N = 64 := N1; omega
  have key : ∀ i : S8192x256.Idx, (i 0).val = 1024 * (t.val / 8) + r.val → (i 1).val = h.val →
      k1_pay4 (F := Ideal) (iblk1 V c 0 t) (iblk1 V c 1 t) (iblk1 V c 2 t) (ix2 r h)
        = proj0 (V c main_arg0) (V c main_v8) (V c main_v9) i := by
    intro i h0' h1'
    have hy : (h : Fin 256) = i 1 := Fin.ext h1'.symm
    rw [k1_pay4_apply]
    unfold proj0
    rw [iblk1_2_apply, hy]
    refine congrArg (· + (V c main_v9 : S1x256.Idx → EReal) (ix2 (0 : Fin 1) (i 1))) ?_
    refine Finset.sum_congr rfl fun k _ => ?_
    rw [iblk1_0_apply V c t (ix2 r k) (ix2 (i 0) k) h0' rfl, iblk1_1_apply]
  exact key _ (krow_val _ ht r) rfl

/-- The keys a point's key tile reads: rows `1024 (t % 8) …` of the keys. -/
theorem ktile (c : Dev nD) (t : Fin cfg1.N) (c' : Fin 1024) (h : Fin 256) :
    View.ld (iblk1 V c 3 t : Vec Ideal S8192x256 .bf16) (kvRect (grid1.coords t)) (ix2 c' h) = Kf V c (ix2 (krow (t.val % 8) c') h) := by
  have ht : t.val % 8 < 8 := Nat.mod_lt _ (by decide)
  rw [ld_slice1 (iblk1 V c 3 t : Vec Ideal S8192x256 .bf16) t _ (ix2 c' h) (ix2 (krow (t.val % 8) c') h) (krow_val _ ht c') rfl, iblk1_3_apply]

/-- The values a point's key tile reads. -/
theorem vtile (c : Dev nD) (t : Fin cfg1.N) (c' : Fin 1024) (h : Fin 256) :
    View.ld (iblk1 V c 4 t : Vec Ideal S8192x256 .bf16) (kvRect (grid1.coords t)) (ix2 c' h) = Vf V c (ix2 (krow (t.val % 8) c') h) := by
  have ht : t.val % 8 < 8 := Nat.mod_lt _ (by decide)
  rw [ld_slice1 (iblk1 V c 4 t : Vec Ideal S8192x256 .bf16) t _ (ix2 c' h) (ix2 (krow (t.val % 8) c') h) (krow_val _ ht c') rfl, iblk1_4_apply]

/-- A tile's scores of a row are a block of the row's scores. -/
theorem sc_eq_sblk (q kb : Vec Ideal S1024x256 .bf16) (Q K : S8192x256.Idx → EReal) (r : Fin 1024) (p : Fin 8192) (b : ℕ)
    (hq : ∀ h : Fin 256, q (ix2 r h) = Q (ix2 p h)) (hk : ∀ (c' : Fin 1024) (h : Fin 256), kb (ix2 c' h) = K (ix2 (krow b c') h)) :
    sc q kb r = sblk Q K p b :=
  funext fun c' => Finset.sum_congr rfl fun h _ => by rw [hq h, hk c' h]

/-! ## The scratch buffers after each point -/

/-- After point `n`: the query tile of query tile `n / 8`, and per row the merge of its first `n % 8 + 1` blocks. -/
def Inv (c : Dev nD) (n : ℕ) (hn : n < cfg1.N) : Prop :=
  ∀ r : Fin 1024,
    (∀ h : Fin 256, (outsAt1 V c n hn).2.1 (ix2 r h) = Qf V c (ix2 (krow (n / 8) r) h))
    ∧ (outsAt1 V c n hn).2.2.1 (ix2 r (0 : Fin 1)) = (st (sblk (Qf V c) (Kf V c) (krow (n / 8) r)) (n % 8 + 1)).1
    ∧ (outsAt1 V c n hn).2.2.2.1 (ix2 r (0 : Fin 1)) = (st (sblk (Qf V c) (Kf V c) (krow (n / 8) r)) (n % 8 + 1)).2
    ∧ ∀ h : Fin 256, (outsAt1 V c n hn).2.2.2.2 (ix2 r h)
        = acc (sblk (Qf V c) (Kf V c) (krow (n / 8) r)) (vblk (Vf V c) h) (n % 8 + 1)

theorem invA (c : Dev nD) (t : Fin cfg1.N) (h0 : t.val % 8 = 0) : Inv V c t.val t.isLt := by
  have h1 : ¬t.val % 8 = 7 := by omega
  intro r
  rw [outsAt1_A V c t h0 h1]
  dsimp only
  rw [soutA0_eq, soutA1_eq, soutA2_eq, soutA3_eq]
  have hq : ∀ h : Fin 256, k1_pay4 (F := Ideal) (iblk1 V c 0 t) (iblk1 V c 1 t) (iblk1 V c 2 t) (ix2 r h) = Qf V c (ix2 (krow (t.val / 8) r) h) :=
    fun h => qtile V c t r h
  have hs := sc_eq_sblk (k1_pay4 (F := Ideal) (iblk1 V c 0 t) (iblk1 V c 1 t) (iblk1 V c 2 t)) (View.ld (iblk1 V c 3 t : Vec Ideal S8192x256 .bf16) (kvRect (grid1.coords t)))
    (Qf V c) (Kf V c) r (krow (t.val / 8) r) (t.val % 8) hq (fun c' h => ktile V c t c' h)
  rw [h0] at hs
  obtain ⟨e1, e2, e3⟩ := step_row_first (k1_pay4 (F := Ideal) (iblk1 V c 0 t) (iblk1 V c 1 t) (iblk1 V c 2 t))
    (View.ld (iblk1 V c 3 t : Vec Ideal S8192x256 .bf16) (kvRect (grid1.coords t))) (View.ld (iblk1 V c 4 t : Vec Ideal S8192x256 .bf16) (kvRect (grid1.coords t)))
    r (sblk (Qf V c) (Kf V c) (krow (t.val / 8) r)) (fun h => vblk (Vf V c) h) hs
    (fun h c' => by rw [vtile V c t c' h, h0]; rfl)
  rw [h0]
  exact ⟨hq, e1, e2, e3⟩

/-- A later key tile, from the state the tile before left. -/
theorem inv_step (c : Dev nD) (t : Fin cfg1.N) (h0 : ¬t.val % 8 = 0)
    (xs0 : Vec Ideal S1024x256 .bf16) (xs1 xs2 : Vec Ideal S1024x1 .f32) (xs3 : Vec Ideal S1024x256 .f32) (r : Fin 1024)
    (i0 : ∀ h : Fin 256, xs0 (ix2 r h) = Qf V c (ix2 (krow ((t.val - 1) / 8) r) h))
    (i1 : xs1 (ix2 r (0 : Fin 1)) = (st (sblk (Qf V c) (Kf V c) (krow ((t.val - 1) / 8) r)) ((t.val - 1) % 8 + 1)).1)
    (i2 : xs2 (ix2 r (0 : Fin 1)) = (st (sblk (Qf V c) (Kf V c) (krow ((t.val - 1) / 8) r)) ((t.val - 1) % 8 + 1)).2)
    (i3 : ∀ h : Fin 256, xs3 (ix2 r h) = acc (sblk (Qf V c) (Kf V c) (krow ((t.val - 1) / 8) r)) (vblk (Vf V c) h) ((t.val - 1) % 8 + 1)) :
    (∀ h : Fin 256, xs0 (ix2 r h) = Qf V c (ix2 (krow (t.val / 8) r) h))
    ∧ (stepS (F := Ideal) xs0 (View.ld (iblk1 V c 3 t : Vec Ideal S8192x256 .bf16) (kvRect (grid1.coords t))) (View.ld (iblk1 V c 4 t : Vec Ideal S8192x256 .bf16) (kvRect (grid1.coords t))) xs1 xs2 xs3).1 (ix2 r (0 : Fin 1))
        = (st (sblk (Qf V c) (Kf V c) (krow (t.val / 8) r)) (t.val % 8 + 1)).1
    ∧ (stepS (F := Ideal) xs0 (View.ld (iblk1 V c 3 t : Vec Ideal S8192x256 .bf16) (kvRect (grid1.coords t))) (View.ld (iblk1 V c 4 t : Vec Ideal S8192x256 .bf16) (kvRect (grid1.coords t))) xs1 xs2 xs3).2.1 (ix2 r (0 : Fin 1))
        = (st (sblk (Qf V c) (Kf V c) (krow (t.val / 8) r)) (t.val % 8 + 1)).2
    ∧ ∀ h : Fin 256, (stepS (F := Ideal) xs0 (View.ld (iblk1 V c 3 t : Vec Ideal S8192x256 .bf16) (kvRect (grid1.coords t))) (View.ld (iblk1 V c 4 t : Vec Ideal S8192x256 .bf16) (kvRect (grid1.coords t))) xs1 xs2 xs3).2.2 (ix2 r h)
        = acc (sblk (Qf V c) (Kf V c) (krow (t.val / 8) r)) (vblk (Vf V c) h) (t.val % 8 + 1) := by
  have e1 : (t.val - 1) / 8 = t.val / 8 := by omega
  have e2 : (t.val - 1) % 8 + 1 = t.val % 8 := by omega
  rw [e1] at i0 i1 i2 i3
  rw [e2] at i1 i2 i3
  have hs := sc_eq_sblk xs0 (View.ld (iblk1 V c 3 t : Vec Ideal S8192x256 .bf16) (kvRect (grid1.coords t)))
    (Qf V c) (Kf V c) r (krow (t.val / 8) r) (t.val % 8) i0 (fun c' h => ktile V c t c' h)
  obtain ⟨a1, a2, a3⟩ := step_row xs0 (View.ld (iblk1 V c 3 t : Vec Ideal S8192x256 .bf16) (kvRect (grid1.coords t)))
    (View.ld (iblk1 V c 4 t : Vec Ideal S8192x256 .bf16) (kvRect (grid1.coords t))) xs1 xs2 xs3
    r (sblk (Qf V c) (Kf V c) (krow (t.val / 8) r)) (fun h => vblk (Vf V c) h) (t.val % 8) hs
    (fun h c' => by rw [vtile V c t c' h]; rfl) i1 i2 i3
  exact ⟨i0, a1, a2, a3⟩

theorem invB (c : Dev nD) (t : Fin cfg1.N) (h0 : ¬t.val % 8 = 0) (h1 : ¬t.val % 8 = 7)
    (ih : Inv V c (t.val - 1) (Nat.lt_of_le_of_lt (Nat.sub_le _ _) t.isLt)) : Inv V c t.val t.isLt := by
  intro r
  obtain ⟨i0, i1, i2, i3⟩ := ih r
  rw [outsAt1_B V c t h0 h1]
  dsimp only
  rw [soutB1_eq, soutB2_eq, soutB3_eq]
  exact inv_step V c t h0 _ _ _ _ r i0 i1 i2 i3

theorem invC (c : Dev nD) (t : Fin cfg1.N) (h0 : ¬t.val % 8 = 0) (h1 : t.val % 8 = 7)
    (ih : Inv V c (t.val - 1) (Nat.lt_of_le_of_lt (Nat.sub_le _ _) t.isLt)) : Inv V c t.val t.isLt := by
  intro r
  obtain ⟨i0, i1, i2, i3⟩ := ih r
  rw [outsAt1_C V c t h0 h1]
  dsimp only
  rw [soutC1_eq, soutC2_eq, soutC3_eq]
  exact inv_step V c t h0 _ _ _ _ r i0 i1 i2 i3

theorem inv_all (c : Dev nD) : ∀ (n : ℕ) (hn : n < cfg1.N), Inv V c n hn := by
  intro n
  induction n with
  | zero => intro hn; exact invA V c ⟨0, hn⟩ rfl
  | succ n ih =>
    intro hn
    by_cases h0 : (n + 1) % 8 = 0
    · exact invA V c ⟨n + 1, hn⟩ h0
    · by_cases h1 : (n + 1) % 8 = 7
      · exact invC V c ⟨n + 1, hn⟩ h0 h1 (ih _)
      · exact invB V c ⟨n + 1, hn⟩ h0 h1 (ih _)

/-! ## The output block at a last key tile, and the array -/

/-- The result array in the kernel's arrangement. -/
abbrev outF (c : Dev nD) : S8192x512.Idx → EReal :=
  attnOut (Qf V c) (Kf V c) (Vf V c) (V c main_v11) (V c main_v12)

theorem sum_add_congr (f g : Fin 256 → EReal) (x y : EReal) (hf : ∀ h, f h = g h) (hx : x = y) :
    (∑ h, f h) + x = (∑ h, g h) + y := by
  rw [show f = g from funext hf, hx]

theorem div_mul_congr (a a' l l' w w' : EReal) (ha : a = a') (hl : l = l') (hw : w = w') :
    Ideal.div a l * w = Ideal.div a' l' * w' := by
  rw [ha, hl, hw]

/-- What a last key tile leaves in the output block, at a block index `y` lying under array index `i`. -/
theorem out_point (c : Dev nD) (t : Fin cfg1.N) (h1 : t.val % 8 = 7) (y : S1024x512.Idx) (i : S8192x512.Idx)
    (hi0 : (i 0).val = 1024 * (t.val / 8) + (y 0).val) (hi1 : (i 1).val = (y 1).val) :
    (outsAt1 V c t.val t.isLt).1 y = outF V c i := by
  have h0 : ¬t.val % 8 = 0 := by omega
  have ht : t.val / 8 < 8 := by have := t.isLt; have hN : cfg1.N = 64 := N1; omega
  obtain ⟨r, o, rfl⟩ : ∃ (r : Fin 1024) (o : Fin 512), y = ix2 r o := ⟨y 0, y 1, eq_ix2 y⟩
  have hp : (i 0 : Fin 8192) = krow (t.val / 8) r := Fin.ext (hi0.trans (krow_val _ ht r).symm)
  have ho : (i 1 : Fin 512) = o := Fin.ext hi1
  obtain ⟨i0, i1, i2, i3⟩ := inv_all V c (t.val - 1) (Nat.lt_of_le_of_lt (Nat.sub_le _ _) t.isLt) r
  obtain ⟨-, -, a2, a3⟩ := inv_step V c t h0 _ _ _ _ r i0 i1 i2 i3
  have b2 := a2.trans (show (st (sblk (Qf V c) (Kf V c) (krow (t.val / 8) r)) (t.val % 8 + 1)).2
      = (st (sblk (Qf V c) (Kf V c) (krow (t.val / 8) r)) 8).2 by rw [h1])
  have b3 : ∀ h : Fin 256, _ = acc (sblk (Qf V c) (Kf V c) (krow (t.val / 8) r)) (vblk (Vf V c) h) 8 :=
    fun h => (a3 h).trans (by rw [h1])
  rw [outsAt1_C V c t h0 h1]
  dsimp only
  rw [outC7_eq]
  refine (k1_pay3_apply _ _ _ _ r o).trans ?_
  show _ = (∑ h : Fin 256, Ideal.div (acc (sblk (Qf V c) (Kf V c) (i 0)) (vblk (Vf V c) h) 8) (st (sblk (Qf V c) (Kf V c) (i 0)) 8).2 * (V c main_v11 : S256x512.Idx → EReal) (ix2 h (i 1)))
      + (V c main_v12 : S1x512.Idx → EReal) (ix2 (0 : Fin 1) (i 1))
  rw [hp, ho]
  exact sum_add_congr _ _ _ _ (fun h => div_mul_congr _ _ _ _ _ _ (b3 h) b2 (iblk1_5_apply V c t (ix2 h o)))
    (iblk1_6_apply V c t (ix2 (0 : Fin 1) o))

/-- WHAT A LAST KEY TILE WRITES BACK is its block of the result array. -/
theorem flushed1_7_eq (c : Dev nD) (t : Fin cfg1.N) (hf : (cfg1.win 7).flush t = true) :
    (dat1 V c).flushed 7 t = ((cfg1.win 7).blk t).view.read (Elt Ideal) (outF V c) := by
  have h1 : t.val % 8 = 7 := (flush1_7 t).mp hf
  obtain ⟨-, -, -, -, -, -, -, -, -, -, -, -, -, -, e0, e1⟩ := idx_facts1 t
  show (cfg1.win 7).cut (grid1.coords t) ((dat1 V c).after 7 t) = _
  rw [after1_7]
  funext j
  rw [View.read_apply]
  refine out_point V c t h1 ((cfg1.win 7).xinj (grid1.coords t) j) _ ?_ ?_
  · show win1_7.index t 0 * 1024 + 1 * (j 0).val = 1024 * (t.val / 8) + (j 0).val
    rw [e0]; omega
  · show win1_7.index t 1 * 512 + 1 * (j 1).val = (j 1).val
    rw [e1]; omega

/-- THE ARRAY after the region. -/
theorem final1_7 (c : Dev nD) : (dat1 V c).arrAt 7 cfg1.N = outF V c :=
  (dat1 V c).arrAt_eq_of_cover 7 _ (fun t hf => flushed1_7_eq V c t hf) cover1_7

end Cert.KernelIdeal.Val

end
-- ==== Proof.LibOnlineSoftmax.lean ====
/-
  The online softmax law, over the extended reals.

  A row of scores is cut into blocks. The running merge of "AttnSpec" keeps a running maximum "m", a running
  normaliser "l" and a running weighted sum "acc"; passing a block, what was accumulated under the old maximum is
  rescaled by "exp (m - m')" and the block's own terms "exp (s - m')" are added. This module proves that, when no
  score is "⊤", the first block holds a finite score, the blocks after the "n"-th are all "⊥" and the values are
  finite, the merge's output after "n + 1" blocks, "acc * (1 / l)", is the softmax-weighted sum of the values over
  all "N" blocks: "∑ (exp (s - M) / ∑ exp (s - M)) * v" with "M" the largest score of the row.

  The argument: from the first block on the running maximum is a real number "M_k", the largest score of the first
  "k" blocks, and by induction on "k" the normaliser is "∑ exp (s - M_k)" and the weighted sum "∑ exp (s - M_k) * v",
  the sums over the first "k" blocks; the step is "exp (M - M') * exp (a - M) = exp (a - M')" for a real score "a"
  (both sides are "0" for the score "⊥"). All of it is arithmetic of real numbers: every term is the image of a
  real, and the image of a finite sum is the sum of the images. At the end the largest score of the whole row is
  "M_(n+1)", the blocks after the "n"-th add "exp ⊥ = 0", and "(∑ e * v) * (1 / L) = ∑ (e / L) * v" for the positive
  real "L".

  Nothing here mentions a program or an array: the lemma can serve any kernel whose merge is "AttnSpec"'s.
-/
import proofs.«122180_j6064493822280_2_alg».proof.Proof.AttnSpec
import Mathlib.Data.EReal.Operations
import Mathlib.Data.EReal.Inv
import Mathlib.Analysis.SpecialFunctions.Exp

noncomputable section

open scoped BigOperators

namespace Cert.AttnSpec.OnlineSoftmax

open Idealize.ShloMosaic

/-! ## Real numbers inside the extended reals -/

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over "Fin N" of a function of the position that vanishes after position "n < N" is the sum over the first
    "n + 1" positions. -/
theorem sum_fin_dead (N n : ℕ) (hn : n < N) (g : ℕ → ℝ) (hg : ∀ b, n < b → g b = 0) :
    ∑ b : Fin N, g b.val = ∑ b ∈ Finset.range (n + 1), g b := by
  rw [Fin.sum_univ_eq_sum_range g N]
  symm
  apply Finset.sum_subset
  · intro b hb
    rw [Finset.mem_range] at hb ⊢
    omega
  · intro b _ hb
    rw [Finset.mem_range] at hb
    exact hg b (by omega)

/-! ## A weight as a real number -/

/-- "exp (x - M)" as a real: "0" for "x = ⊥". -/
def w (M : ℝ) (x : EReal) : ℝ := (Ideal.exp (x - (M : EReal))).toReal

theorem w_bot (M : ℝ) : w M ⊥ = 0 := by
  unfold w
  rw [EReal.bot_sub, Ideal.exp_bot, EReal.toReal_zero]

theorem w_coe (M a : ℝ) : w M (a : EReal) = Real.exp (a - M) := by
  unfold w
  rw [← EReal.coe_sub, Ideal.exp_coe, EReal.toReal_coe]

/-- Off "⊤", "exp (x - M)" is the image of the real weight. -/
theorem exp_sub_coe (M : ℝ) (x : EReal) (hx : x ≠ ⊤) :
    Ideal.exp (x - (M : EReal)) = ((w M x : ℝ) : EReal) := by
  induction x using EReal.rec with
  | bot => rw [w_bot, EReal.bot_sub, Ideal.exp_bot, EReal.coe_zero]
  | coe a => rw [w_coe, ← EReal.coe_sub, Ideal.exp_coe]
  | top => exact absurd rfl hx

theorem w_nonneg (M : ℝ) (x : EReal) : 0 ≤ w M x := by
  induction x using EReal.rec with
  | bot => rw [w_bot]
  | coe a => rw [w_coe]; exact (Real.exp_pos _).le
  | top => unfold w; rw [EReal.top_sub_coe, Ideal.exp_top, EReal.toReal_top]

/-- Moving the reference point from "M" to "M'" multiplies a weight by "exp (M - M')". -/
theorem w_rescale (M M' : ℝ) (x : EReal) (hx : x ≠ ⊤) : Real.exp (M - M') * w M x = w M' x := by
  induction x using EReal.rec with
  | bot => rw [w_bot, w_bot, mul_zero]
  | coe a =>
    rw [w_coe, w_coe, ← Real.exp_add]
    congr 1
    ring
  | top => exact absurd rfl hx

/-! ## The running maximum -/

section Merge

variable {C : Type} [Fintype C]

theorem blockMax_le (s : C → EReal) (x : EReal) : blockMax s ≤ x ↔ ∀ c, s c ≤ x := by
  unfold blockMax
  rw [Finset.fold_max_le]
  simp

theorem blockMax_lt_top (s : C → EReal) (hs : ∀ c, s c ≠ ⊤) : blockMax s < ⊤ := by
  unfold blockMax
  rw [Finset.fold_max_lt]
  exact ⟨bot_lt_top, fun c _ => lt_top_iff_ne_top.mpr (hs c)⟩

theorem st_succ (s : ℕ → C → EReal) (k : ℕ) :
    st s (k + 1) = (mNext (st s k).1 (s k), lNext (st s k).1 (st s k).2 (s k)) := rfl

theorem acc_succ (s v : ℕ → C → EReal) (k : ℕ) :
    acc s v (k + 1) = accNext (st s k).1 (acc s v k) (s k) (v k) := rfl

/-- The running maximum after "k" blocks is the least upper bound of the scores of the first "k" blocks. -/
theorem st_fst_le (s : ℕ → C → EReal) (k : ℕ) (x : EReal) :
    (st s k).1 ≤ x ↔ ∀ b, b < k → ∀ c, s b c ≤ x := by
  induction k with
  | zero =>
    constructor
    · intro _ b hb
      exact absurd hb (Nat.not_lt_zero b)
    · intro _
      exact bot_le
  | succ k ih =>
    rw [st_succ]
    show max (st s k).1 (blockMax (s k)) ≤ x ↔ _
    rw [max_le_iff, ih, blockMax_le]
    constructor
    · rintro ⟨h1, h2⟩ b hb c
      rcases Nat.lt_succ_iff_lt_or_eq.mp hb with h | h
      · exact h1 b h c
      · rw [h]; exact h2 c
    · intro h
      exact ⟨fun b hb c => h b (Nat.lt_succ_of_lt hb) c, fun c => h k (Nat.lt_succ_self k) c⟩

theorem st_fst_lt_top (s : ℕ → C → EReal) (hs : ∀ b c, s b c ≠ ⊤) (k : ℕ) : (st s k).1 < ⊤ := by
  induction k with
  | zero => exact bot_lt_top
  | succ k ih =>
    rw [st_succ]
    exact max_lt ih (blockMax_lt_top (s k) (hs k))

/-- From the first block on the running maximum is a real number. -/
theorem st_fst_real (s : ℕ → C → EReal) (hs : ∀ b c, s b c ≠ ⊤) (hlive : ∃ c, s 0 c ≠ ⊥) (k : ℕ) :
    ∃ M : ℝ, (st s (k + 1)).1 = (M : EReal) := by
  obtain ⟨c0, hc0⟩ := hlive
  have h1 : (st s (k + 1)).1 ≠ ⊤ := (st_fst_lt_top s hs (k + 1)).ne
  have h2 : (st s (k + 1)).1 ≠ ⊥ := by
    intro h
    have := (st_fst_le s (k + 1) (st s (k + 1)).1).mp le_rfl 0 (Nat.succ_pos k) c0
    rw [h] at this
    exact hc0 (le_bot_iff.mp this)
  exact ⟨(st s (k + 1)).1.toReal, (EReal.coe_toReal h1 h2).symm⟩

/-! ## One block's terms as real sums -/

theorem block_terms (m : EReal) (sk vk : C → EReal) (hsk : ∀ c, sk c ≠ ⊤)
    (hvk : ∀ c, vk c ≠ ⊤ ∧ vk c ≠ ⊥) (M' : ℝ) (hM' : mNext m sk = (M' : EReal)) :
    (∑ c, weight m sk c) = ((∑ c, w M' (sk c) : ℝ) : EReal)
      ∧ (∑ c, weight m sk c * vk c) = ((∑ c, w M' (sk c) * (vk c).toReal : ℝ) : EReal) := by
  constructor
  · rw [coe_sum]
    refine Finset.sum_congr rfl (fun c _ => ?_)
    unfold weight
    rw [hM', exp_sub_coe _ _ (hsk c)]
  · rw [coe_sum]
    refine Finset.sum_congr rfl (fun c _ => ?_)
    unfold weight
    rw [hM', exp_sub_coe _ _ (hsk c), EReal.coe_mul, EReal.coe_toReal (hvk c).1 (hvk c).2]

/-! ## The invariant of the merge -/

/-- After "k + 1" blocks the running maximum is a real "M", the normaliser is "∑ exp (s - M)" and the weighted sum is
    "∑ exp (s - M) * v", the sums over the first "k + 1" blocks. -/
theorem merge_inv (s v : ℕ → C → EReal) (hs : ∀ b c, s b c ≠ ⊤) (hlive : ∃ c, s 0 c ≠ ⊥)
    (hv : ∀ b c, v b c ≠ ⊤ ∧ v b c ≠ ⊥) (k : ℕ) :
    ∃ M : ℝ, (st s (k + 1)).1 = (M : EReal)
      ∧ (st s (k + 1)).2 = ((∑ b ∈ Finset.range (k + 1), ∑ c, w M (s b c) : ℝ) : EReal)
      ∧ acc s v (k + 1)
          = ((∑ b ∈ Finset.range (k + 1), ∑ c, w M (s b c) * (v b c).toReal : ℝ) : EReal) := by
  induction k with
  | zero =>
    obtain ⟨M, hM⟩ := st_fst_real s hs hlive 0
    have hM' : mNext (⊥ : EReal) (s 0) = (M : EReal) := hM
    obtain ⟨t1, t2⟩ := block_terms ⊥ (s 0) (v 0) (hs 0) (hv 0) M hM'
    refine ⟨M, hM, ?_, ?_⟩
    · show lNext (⊥ : EReal) 0 (s 0) = _
      unfold lNext
      rw [mul_zero, zero_add, t1, Finset.sum_range_one]
    · show accNext (⊥ : EReal) 0 (s 0) (v 0) = _
      unfold accNext
      rw [mul_zero, zero_add, t2, Finset.sum_range_one]
  | succ k ih =>
    obtain ⟨M, h1, h2, h3⟩ := ih
    obtain ⟨M', hM'⟩ := st_fst_real s hs hlive (k + 1)
    have hN : mNext (M : EReal) (s (k + 1)) = (M' : EReal) := by
      rw [← h1]; exact hM'
    obtain ⟨t1, t2⟩ := block_terms (M : EReal) (s (k + 1)) (v (k + 1)) (hs (k + 1)) (hv (k + 1)) M' hN
    have ha : alpha (M : EReal) (s (k + 1)) = ((Real.exp (M - M') : ℝ) : EReal) := by
      unfold alpha
      rw [hN, ← EReal.coe_sub, Ideal.exp_coe]
    refine ⟨M', hM', ?_, ?_⟩
    · rw [st_succ]
      show lNext (st s (k + 1)).1 (st s (k + 1)).2 (s (k + 1)) = _
      rw [h1, h2]
      unfold lNext
      rw [ha, t1, ← EReal.coe_mul, ← EReal.coe_add, Finset.sum_range_succ _ (k + 1)]
      congr 2
      rw [Finset.mul_sum]
      refine Finset.sum_congr rfl (fun b _ => ?_)
      rw [Finset.mul_sum]
      exact Finset.sum_congr rfl (fun c _ => w_rescale M M' _ (hs b c))
    · rw [acc_succ, h1, h3]
      unfold accNext
      rw [ha, t2, ← EReal.coe_mul, ← EReal.coe_add, Finset.sum_range_succ _ (k + 1)]
      congr 2
      rw [Finset.mul_sum]
      refine Finset.sum_congr rfl (fun b _ => ?_)
      rw [Finset.mul_sum]
      refine Finset.sum_congr rfl (fun c _ => ?_)
      rw [← mul_assoc, w_rescale M M' _ (hs b c)]

end Merge

end Cert.AttnSpec.OnlineSoftmax

/-! ## The law -/

namespace Cert.AttnSpec

open Idealize.ShloMosaic OnlineSoftmax

theorem out_eq_softmax {C : Type} [Fintype C] (N n : ℕ) (hn : n < N) (s v : ℕ → C → EReal)
    (hs : ∀ b c, s b c ≠ ⊤) (hlive : ∃ c, s 0 c ≠ ⊥) (hdead : ∀ b, n < b → ∀ c, s b c = ⊥)
    (hv : ∀ b c, v b c ≠ ⊤ ∧ v b c ≠ ⊥) :
    out s v (n + 1)
      = ∑ b : Fin N, ∑ c : C,
          Ideal.div (Ideal.exp (s b.val c - Finset.univ.fold max ⊥ (fun p : Fin N × C => s p.1.val p.2)))
            (∑ b' : Fin N, ∑ c' : C, Ideal.exp (s b'.val c' - Finset.univ.fold max ⊥ (fun p : Fin N × C => s p.1.val p.2)))
          * v b.val c := by
  obtain ⟨M, h1, h2, h3⟩ := merge_inv s v hs hlive hv n
  -- the largest score of the whole row is the running maximum after "n + 1" blocks
  have hF : Finset.univ.fold max ⊥ (fun p : Fin N × C => s p.1.val p.2) = (M : EReal) := by
    rw [← h1]
    apply eq_of_forall_ge_iff
    intro x
    rw [Finset.fold_max_le, st_fst_le]
    constructor
    · rintro ⟨_, h⟩ b hb c
      exact h (⟨b, by omega⟩, c) (Finset.mem_univ _)
    · intro h
      refine ⟨bot_le, fun p _ => ?_⟩
      by_cases hp : p.1.val < n + 1
      · exact h p.1.val hp p.2
      · rw [hdead p.1.val (by omega) p.2]
        exact bot_le
  rw [hF]
  -- the normaliser
  obtain ⟨L, hL⟩ : ∃ L : ℝ, L = ∑ b ∈ Finset.range (n + 1), ∑ c, w M (s b c) := ⟨_, rfl⟩
  rw [← hL] at h2
  have hLpos : 0 < L := by
    obtain ⟨c0, hc0⟩ := hlive
    have hpos : 0 < w M (s 0 c0) := by
      have e : s 0 c0 = ((s 0 c0).toReal : EReal) := (EReal.coe_toReal (hs 0 c0) hc0).symm
      rw [e, w_coe]
      exact Real.exp_pos _
    have l1 : w M (s 0 c0) ≤ ∑ c, w M (s 0 c) :=
      Finset.single_le_sum (f := fun c => w M (s 0 c)) (fun c _ => w_nonneg M _) (Finset.mem_univ c0)
    have l2 : (∑ c, w M (s 0 c)) ≤ L := by
      rw [hL]
      exact Finset.single_le_sum (f := fun b => ∑ c, w M (s b c))
        (fun b _ => Finset.sum_nonneg (fun c _ => w_nonneg M _)) (Finset.mem_range.mpr (Nat.succ_pos n))
    linarith
  have hL0 : L ≠ 0 := hLpos.ne'
  have hden : (∑ b' : Fin N, ∑ c' : C, Ideal.exp (s b'.val c' - (M : EReal))) = (L : EReal) := by
    rw [hL, ← sum_fin_dead N n hn (fun b => ∑ c, w M (s b c))
      (fun b hb => Finset.sum_eq_zero (fun c _ => by rw [hdead b hb c, w_bot])), coe_sum]
    refine Finset.sum_congr rfl (fun b _ => ?_)
    rw [coe_sum]
    exact Finset.sum_congr rfl (fun c _ => exp_sub_coe M _ (hs b.val c))
  rw [hden]
  -- the right side as the image of a real sum
  have hR : (∑ b : Fin N, ∑ c : C, Ideal.div (Ideal.exp (s b.val c - (M : EReal))) (L : EReal) * v b.val c)
      = ((∑ b ∈ Finset.range (n + 1), ∑ c, w M (s b c) * (1 / L) * (v b c).toReal : ℝ) : EReal) := by
    rw [← sum_fin_dead N n hn (fun b => ∑ c, w M (s b c) * (1 / L) * (v b c).toReal)
      (fun b hb => Finset.sum_eq_zero (fun c _ => by rw [hdead b hb c, w_bot, zero_mul, zero_mul])), coe_sum]
    refine Finset.sum_congr rfl (fun b _ => ?_)
    rw [coe_sum]
    refine Finset.sum_congr rfl (fun c _ => ?_)
    rw [Ideal.div_coe hL0, exp_sub_coe M _ (hs b.val c), EReal.coe_mul, EReal.coe_mul,
      EReal.coe_toReal (hv b.val c).1 (hv b.val c).2]
  rw [hR]
  -- the left side
  unfold out
  rw [h2, h3, Ideal.div_coe hL0, one_mul, ← EReal.coe_mul]
  congr 1
  rw [Finset.sum_mul]
  refine Finset.sum_congr rfl (fun b _ => ?_)
  rw [Finset.sum_mul]
  refine Finset.sum_congr rfl (fun c _ => ?_)
  ring

end Cert.AttnSpec

end
-- ==== Proof.SoftmaxLaw.lean ====
/-
  The blockwise merge of a row of 8192 real scores, cut into 8 blocks of 1024, gives the row's softmax-weighted
  sum of the values.

  The running merge keeps a maximum, a normaliser and a weighted sum and, at the end, DIVIDES the weighted sum by
  the normaliser. The normaliser is a positive real (it contains "exp (s - M)" for a real score "s"), so dividing
  by it is multiplying by its reciprocal, and the online softmax law gives the double sum over blocks and
  positions; position "c" of block "b" is position "1024 · b + c" of the row, and this is a bijection of
  "Fin 8 × Fin 1024" with "Fin 8192", through which the double sums and the maximum of the row are re-indexed.
-/
import proofs.«122180_j6064493822280_2_alg».proof.Proof.AttnSpec
import proofs.«122180_j6064493822280_2_alg».proof.Proof.LibOnlineSoftmax
import proofs.«122180_j6064493822280_2_alg».proof.Proof.Spec

noncomputable section

open scoped BigOperators

namespace Cert.SoftmaxLaw

open Idealize.ShloMosaic Cert.AttnSpec Cert.AttnSpec.OnlineSoftmax

/-! ## The merge reads only the blocks it has passed -/

section Congr

variable {C : Type} [Fintype C]

theorem st_congr (s s' : ℕ → C → EReal) (k : ℕ) (h : ∀ b, b < k → s b = s' b) : st s k = st s' k := by
  induction k with
  | zero => rfl
  | succ k ih =>
    rw [st_succ, st_succ, ih (fun b hb => h b (Nat.lt_succ_of_lt hb)), h k (Nat.lt_succ_self k)]

theorem acc_congr (s s' v v' : ℕ → C → EReal) (k : ℕ) (hs : ∀ b, b < k → s b = s' b)
    (hv : ∀ b, b < k → v b = v' b) : acc s v k = acc s' v' k := by
  induction k with
  | zero => rfl
  | succ k ih =>
    rw [acc_succ, acc_succ, ih (fun b hb => hs b (Nat.lt_succ_of_lt hb)) (fun b hb => hv b (Nat.lt_succ_of_lt hb)),
      st_congr s s' k (fun b hb => hs b (Nat.lt_succ_of_lt hb)), hs k (Nat.lt_succ_self k), hv k (Nat.lt_succ_self k)]

end Congr

/-! ## Dividing by a nonzero normaliser -/

theorem div_eq_mul_div_one (a l : EReal) (hl : l ≠ 0) : Ideal.div a l = a * Ideal.div 1 l := by
  unfold Ideal.div
  rw [if_neg hl, if_neg hl, one_mul]

/-! ## A row as 8 blocks of 1024 -/

/-- Position "c" of block "b" is position "1024 · b + c" of the row. -/
def blkEquiv : Fin 8 × Fin 1024 ≃ Fin 8192 where
  toFun p := ⟨1024 * p.1.val + p.2.val, by have := p.1.isLt; have := p.2.isLt; omega⟩
  invFun j := (⟨j.val / 1024, by have := j.isLt; omega⟩, ⟨j.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv j := by
    refine Fin.ext ?_
    show 1024 * (j.val / 1024) + j.val % 1024 = j.val
    omega

/-- The row "r" as blocks: block "b < 8" holds positions "1024 · b …", the blocks from the eighth on hold "d". -/
def rowBlk (r : Fin 8192 → EReal) (d : EReal) (b : ℕ) (c : Fin 1024) : EReal :=
  if hb : b < 8 then r ⟨1024 * b + c.val, by have := c.isLt; omega⟩ else d

theorem rowBlk_eq (r : Fin 8192 → EReal) (d : EReal) (p : Fin 8 × Fin 1024) :
    rowBlk r d p.1.val p.2 = r (blkEquiv p) := by
  unfold rowBlk
  rw [dif_pos p.1.isLt]
  rfl

/-- A sum over blocks and positions is the sum over the row. -/
theorem sum_blocks (r u : Fin 8192 → EReal) (d d' : EReal) (g : EReal → EReal → EReal) :
    (∑ b : Fin 8, ∑ c : Fin 1024, g (rowBlk r d b.val c) (rowBlk u d' b.val c)) = ∑ j : Fin 8192, g (r j) (u j) := by
  rw [← Equiv.sum_comp blkEquiv (fun j => g (r j) (u j)), Fintype.sum_prod_type]
  refine Finset.sum_congr rfl fun b _ => Finset.sum_congr rfl fun c _ => ?_
  rw [rowBlk_eq r d (b, c), rowBlk_eq u d' (b, c)]

/-- The largest score over blocks and positions is the largest score of the row. -/
theorem fold_blocks (r : Fin 8192 → EReal) (d : EReal) :
    Finset.univ.fold max ⊥ (fun p : Fin 8 × Fin 1024 => rowBlk r d p.1.val p.2) = Finset.univ.fold max ⊥ r := by
  apply eq_of_forall_ge_iff
  intro x
  rw [Finset.fold_max_le, Finset.fold_max_le]
  constructor
  · rintro ⟨h0, h⟩
    refine ⟨h0, fun j _ => ?_⟩
    have := h (blkEquiv.symm j) (Finset.mem_univ _)
    rwa [rowBlk_eq, Equiv.apply_symm_apply] at this
  · rintro ⟨h0, h⟩
    refine ⟨h0, fun p _ => ?_⟩
    rw [rowBlk_eq]
    exact h _ (Finset.mem_univ _)

/-! ## The law -/

/-- For a row of real scores and finite values, the merge's weighted sum after the 8 blocks divided by its
    normaliser is the softmax-weighted sum of the values, the maximum written as the fold of "max" from "⊥" over
    the row taken once more against "⊥". -/
theorem div_merge_eq (r u : Fin 8192 → EReal) (hr : ∀ j, r j ≠ ⊤ ∧ r j ≠ ⊥) (hu : ∀ j, u j ≠ ⊤ ∧ u j ≠ ⊥) :
    Ideal.div (acc (rowBlk r ⊥) (rowBlk u 0) 8) (st (rowBlk r ⊥) 8).2
      = ∑ j : Fin 8192,
          Ideal.div (Ideal.exp (r j - max ⊥ (Finset.univ.fold max ⊥ r)))
            (∑ j' : Fin 8192, Ideal.exp (r j' - max ⊥ (Finset.univ.fold max ⊥ r))) * u j := by
  have hs : ∀ b c, rowBlk r ⊥ b c ≠ ⊤ := by
    intro b c
    unfold rowBlk
    split
    · exact (hr _).1
    · exact bot_ne_top
  have hlive : ∃ c, rowBlk r ⊥ 0 c ≠ ⊥ := by
    refine ⟨⟨0, by norm_num⟩, ?_⟩
    unfold rowBlk
    rw [dif_pos (by norm_num)]
    exact (hr _).2
  have hdead : ∀ b, 7 < b → ∀ c, rowBlk r ⊥ b c = ⊥ := by
    intro b hb c
    unfold rowBlk
    rw [dif_neg (by omega)]
  have hv : ∀ b c, rowBlk u 0 b c ≠ ⊤ ∧ rowBlk u 0 b c ≠ ⊥ := by
    intro b c
    unfold rowBlk
    split
    · exact hu _
    · exact ⟨EReal.zero_ne_top, EReal.zero_ne_bot⟩
  -- the normaliser is a positive real
  have hl0 : (st (rowBlk r ⊥) 8).2 ≠ 0 := by
    obtain ⟨M, _, h2, _⟩ : ∃ M : ℝ, (st (rowBlk r ⊥) 8).1 = (M : EReal)
        ∧ (st (rowBlk r ⊥) 8).2 = ((∑ b ∈ Finset.range 8, ∑ c, w M (rowBlk r ⊥ b c) : ℝ) : EReal)
        ∧ acc (rowBlk r ⊥) (rowBlk u 0) 8
            = ((∑ b ∈ Finset.range 8, ∑ c, w M (rowBlk r ⊥ b c) * (rowBlk u 0 b c).toReal : ℝ) : EReal) :=
      merge_inv (rowBlk r ⊥) (rowBlk u 0) hs hlive hv 7
    obtain ⟨c0, hc0⟩ := hlive
    have hpos : 0 < w M (rowBlk r ⊥ 0 c0) := by
      have e : rowBlk r ⊥ 0 c0 = ((rowBlk r ⊥ 0 c0).toReal : EReal) := (EReal.coe_toReal (hs 0 c0) hc0).symm
      rw [e, w_coe]
      exact Real.exp_pos _
    have l1 : w M (rowBlk r ⊥ 0 c0) ≤ ∑ c, w M (rowBlk r ⊥ 0 c) :=
      Finset.single_le_sum (f := fun c => w M (rowBlk r ⊥ 0 c)) (fun c _ => w_nonneg M _) (Finset.mem_univ c0)
    have l2 : (∑ c, w M (rowBlk r ⊥ 0 c)) ≤ ∑ b ∈ Finset.range 8, ∑ c, w M (rowBlk r ⊥ b c) :=
      Finset.single_le_sum (f := fun b => ∑ c, w M (rowBlk r ⊥ b c))
        (fun b _ => Finset.sum_nonneg (fun c _ => w_nonneg M _)) (Finset.mem_range.mpr (by norm_num))
    rw [h2]
    have hL : (0 : ℝ) < ∑ b ∈ Finset.range 8, ∑ c, w M (rowBlk r ⊥ b c) := by linarith
    exact_mod_cast hL.ne'
  have hout := out_eq_softmax 8 7 (by norm_num) (rowBlk r ⊥) (rowBlk u 0) hs hlive hdead hv
  rw [fold_blocks r ⊥] at hout
  have hden : (∑ b : Fin 8, ∑ c : Fin 1024, Ideal.exp (rowBlk r ⊥ b.val c - Finset.univ.fold max ⊥ r))
      = ∑ j : Fin 8192, Ideal.exp (r j - Finset.univ.fold max ⊥ r) :=
    sum_blocks r u ⊥ 0 (fun x _ => Ideal.exp (x - Finset.univ.fold max ⊥ r))
  rw [hden] at hout
  rw [max_eq_right bot_le]
  refine (div_eq_mul_div_one _ _ hl0).trans (Eq.trans hout ?_)
  exact sum_blocks r u ⊥ 0 (fun x y => Ideal.div (Ideal.exp (x - Finset.univ.fold max ⊥ r))
    (∑ j' : Fin 8192, Ideal.exp (r j' - Finset.univ.fold max ⊥ r)) * y)

/-- The same for row "i" of a score matrix and column "h" of a value matrix, for any blockwise reading "s", "v" of
    them over the first 8 blocks: the merge gives the specification's context. -/
theorem merge_eq_ctx (sc : Fin 8192 → Fin 8192 → EReal) (vv : Fin 8192 → Fin 256 → EReal) (i : Fin 8192) (h : Fin 256)
    (s v : ℕ → Fin 1024 → EReal)
    (hs : ∀ (b : ℕ) (hb : b < 8) (c : Fin 1024), s b c = sc i ⟨1024 * b + c.val, by have := c.isLt; omega⟩)
    (hv : ∀ (b : ℕ) (hb : b < 8) (c : Fin 1024), v b c = vv ⟨1024 * b + c.val, by have := c.isLt; omega⟩ h)
    (hsc : ∀ j, sc i j ≠ ⊤ ∧ sc i j ≠ ⊥) (hvv : ∀ j, vv j h ≠ ⊤ ∧ vv j h ≠ ⊥) :
    Ideal.div (acc s v 8) (st s 8).2 = Cert.Spec.ctx sc vv i h := by
  have es : ∀ b, b < 8 → s b = rowBlk (sc i) ⊥ b := fun b hb => funext fun c => by
    rw [hs b hb c]
    unfold rowBlk
    rw [dif_pos hb]
  have ev : ∀ b, b < 8 → v b = rowBlk (fun j => vv j h) 0 b := fun b hb => funext fun c => by
    rw [hv b hb c]
    unfold rowBlk
    rw [dif_pos hb]
  rw [st_congr s _ 8 es, acc_congr s _ v _ 8 es ev, div_merge_eq (sc i) (fun j => vv j h) hsc hvv]
  rfl

end Cert.SoftmaxLaw

end
-- ==== Proof.Finite.lean ====
/-
  Finite inputs give finite projections and finite scores.

  An extended real is finite (neither "⊤" nor "⊥") exactly when it is the image of a real number; images of reals
  are closed under sums and products, so the affine images "x · wᵀ + b" of finite arrays and the inner products of
  their rows are finite.
-/
import proofs.«122180_j6064493822280_2_alg».proof.Proof.Spec
import Mathlib.Data.EReal.Operations

noncomputable section

open scoped BigOperators

namespace Cert.Finite

open Idealize.ShloMosaic Idealize.ShloMosaic.ValueIdx

theorem real_of_finite {a : EReal} (h : a ≠ ⊤ ∧ a ≠ ⊥) : ∃ r : ℝ, a = (r : EReal) :=
  ⟨a.toReal, (EReal.coe_toReal h.1 h.2).symm⟩

theorem finite_of_real {a : EReal} (h : ∃ r : ℝ, a = (r : EReal)) : a ≠ ⊤ ∧ a ≠ ⊥ := by
  obtain ⟨r, rfl⟩ := h
  exact ⟨EReal.coe_ne_top r, EReal.coe_ne_bot r⟩

theorem real_add {a b : EReal} (ha : ∃ r : ℝ, a = (r : EReal)) (hb : ∃ r : ℝ, b = (r : EReal)) :
    ∃ r : ℝ, a + b = (r : EReal) := by
  obtain ⟨r1, rfl⟩ := ha
  obtain ⟨r2, rfl⟩ := hb
  exact ⟨r1 + r2, (EReal.coe_add r1 r2).symm⟩

theorem real_mul {a b : EReal} (ha : ∃ r : ℝ, a = (r : EReal)) (hb : ∃ r : ℝ, b = (r : EReal)) :
    ∃ r : ℝ, a * b = (r : EReal) := by
  obtain ⟨r1, rfl⟩ := ha
  obtain ⟨r2, rfl⟩ := hb
  exact ⟨r1 * r2, (EReal.coe_mul r1 r2).symm⟩

theorem real_sum {ι : Type} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih (fun i hi => h i (Finset.mem_insert_of_mem hi)))

/-- The affine image of finite arrays is finite. -/
theorem lin_finite (x : (⟨2, ![8192, 512]⟩ : Shape).Idx → EReal) (w : (⟨2, ![256, 512]⟩ : Shape).Idx → EReal)
    (b : (⟨1, ![256]⟩ : Shape).Idx → EReal) (hx : ∀ i, x i ≠ ⊤ ∧ x i ≠ ⊥) (hw : ∀ i, w i ≠ ⊤ ∧ w i ≠ ⊥)
    (hb : ∀ i, b i ≠ ⊤ ∧ b i ≠ ⊥) (i : Fin 8192) (h : Fin 256) :
    Cert.Spec.lin x w b i h ≠ ⊤ ∧ Cert.Spec.lin x w b i h ≠ ⊥ := by
  unfold Cert.Spec.lin
  exact finite_of_real (real_add
    (real_sum _ _ (fun k _ => real_mul (real_of_finite (hx _)) (real_of_finite (hw _)))) (real_of_finite (hb _)))

/-- The inner products of finite rows are finite. -/
theorem score_finite (q k : Fin 8192 → Fin 256 → EReal) (hq : ∀ i h, q i h ≠ ⊤ ∧ q i h ≠ ⊥)
    (hk : ∀ i h, k i h ≠ ⊤ ∧ k i h ≠ ⊥) (i j : Fin 8192) :
    Cert.Spec.score q k i j ≠ ⊤ ∧ Cert.Spec.score q k i j ≠ ⊥ := by
  unfold Cert.Spec.score
  exact finite_of_real (real_sum _ _ (fun h _ => real_mul (real_of_finite (hq i h)) (real_of_finite (hk j h))))

end Cert.Finite

end
-- ==== Proof.AttnFinal.lean ====
/-
  The result from the blockwise merge.

  If, for a query row "p", a blockwise reading of its 8192 scores and, for each of the 256 columns, of the values
  are merged block by block, then the merge's weighted sums divided by its normaliser are the row's context, and
  their image under the output projection (given transposed, with its bias as a row) is the specification's result.
-/
import proofs.«122180_j6064493822280_2_alg».proof.Proof.Spec
import proofs.«122180_j6064493822280_2_alg».proof.Proof.AttnSpec
import proofs.«122180_j6064493822280_2_alg».proof.Proof.SoftmaxLaw
import proofs.«122180_j6064493822280_2_alg».proof.Proof.Finite

noncomputable section

open scoped BigOperators

namespace Cert.AttnFinal

open Idealize.ShloMosaic Idealize.ShloMosaic.ValueIdx Cert.AttnSpec Cert.Spec

theorem attnAt_of_merge (x : (⟨2, ![8192, 512]⟩ : Shape).Idx → EReal) (ww : (⟨2, ![256, 512]⟩ : Shape).Idx → EReal) (wb : (⟨1, ![256]⟩ : Shape).Idx → EReal)
    (uw : (⟨2, ![256, 512]⟩ : Shape).Idx → EReal) (ub : (⟨1, ![256]⟩ : Shape).Idx → EReal) (hw : (⟨2, ![256, 512]⟩ : Shape).Idx → EReal) (hb : (⟨1, ![256]⟩ : Shape).Idx → EReal)
    (fw : (⟨2, ![512, 256]⟩ : Shape).Idx → EReal) (fb : (⟨1, ![512]⟩ : Shape).Idx → EReal)
    (fx : ∀ i, x i ≠ ⊤ ∧ x i ≠ ⊥) (fww : ∀ i, ww i ≠ ⊤ ∧ ww i ≠ ⊥) (fwb : ∀ i, wb i ≠ ⊤ ∧ wb i ≠ ⊥) (fuw : ∀ i, uw i ≠ ⊤ ∧ uw i ≠ ⊥) (fub : ∀ i, ub i ≠ ⊤ ∧ ub i ≠ ⊥) (fhw : ∀ i, hw i ≠ ⊤ ∧ hw i ≠ ⊥) (fhb : ∀ i, hb i ≠ ⊤ ∧ hb i ≠ ⊥)
    (p : Fin 8192) (o : Fin 512) (s : ℕ → Fin 1024 → EReal) (v : Fin 256 → ℕ → Fin 1024 → EReal)
    (fwT : (⟨2, ![256, 512]⟩ : Shape).Idx → EReal) (fbr : (⟨2, ![1, 512]⟩ : Shape).Idx → EReal)
    (hs : ∀ (b : ℕ) (hb8 : b < 8) (c : Fin 1024),
      s b c = score (lin x ww wb) (lin x uw ub) p ⟨1024 * b + c.val, by have := c.isLt; omega⟩)
    (hv : ∀ (h : Fin 256) (b : ℕ) (hb8 : b < 8) (c : Fin 1024),
      v h b c = lin x hw hb ⟨1024 * b + c.val, by have := c.isLt; omega⟩ h)
    (hfw : ∀ (h : Fin 256) (o : Fin 512), fwT (ix2 h o) = fw (ix2 o h))
    (hfb : ∀ o : Fin 512, fbr (ix2 (0 : Fin 1) o) = fb (ix1 o)) :
    (∑ h : Fin 256, Ideal.div (acc s (v h) 8) (st s 8).2 * fwT (ix2 h o)) + fbr (ix2 (0 : Fin 1) o)
      = attnAt x ww wb uw ub hw hb fw fb p o := by
  unfold attnAt
  rw [hfb o]
  congr 1
  refine Finset.sum_congr rfl fun h _ => ?_
  rw [hfw h o, Cert.SoftmaxLaw.merge_eq_ctx (score (lin x ww wb) (lin x uw ub)) (lin x hw hb) p h s (v h)
    (fun b hb8 c => hs b hb8 c) (fun b hb8 c => hv h b hb8 c)
    (fun j => Cert.Finite.score_finite _ _ (Cert.Finite.lin_finite x ww wb fx fww fwb)
      (Cert.Finite.lin_finite x uw ub fx fuw fub) p j)
    (fun j => Cert.Finite.lin_finite x hw hb fx fhw fhb j h)]

end Cert.AttnFinal

end
-- ==== Proof.AttnAssembly.lean ====
/-
  The kernel's arrangement meets the specification: the key/value projection by transposed weights and a bias row
  is the specification's affine image, and the blockwise-merged, normalised and projected result over such
  projections is the specification's result.
-/
import proofs.«122180_j6064493822280_2_alg».proof.Proof.AttnOut
import proofs.«122180_j6064493822280_2_alg».proof.Proof.AttnFinal
import proofs.«122180_j6064493822280_2_alg».proof.Proof.Spec
import proofs.«122180_j6064493822280_2_alg».proof.Proof.R0Value

noncomputable section

open scoped BigOperators

namespace Cert.KernelIdeal.Val

open Idealize.ShloMosaic Idealize.ShloMosaic.ValueIdx Cert.AttnSpec Cert.Spec

/-- The projection by transposed weights and a bias row is the specification's affine image. -/
theorem proj0_eq_lin (X : (⟨2, ![8192, 512]⟩ : Shape).Idx → EReal) (Wt : (⟨2, ![512, 256]⟩ : Shape).Idx → EReal) (B : (⟨2, ![1, 256]⟩ : Shape).Idx → EReal)
    (w : (⟨2, ![256, 512]⟩ : Shape).Idx → EReal) (b : (⟨1, ![256]⟩ : Shape).Idx → EReal)
    (hW : ∀ (k : Fin 512) (h : Fin 256), Wt (ix2 k h) = w (ix2 h k))
    (hB : ∀ h : Fin 256, B (ix2 (0 : Fin 1) h) = b (ix1 h)) :
    proj0 X Wt B = fun i => lin X w b (i 0) (i 1) := by
  funext i
  obtain ⟨p, q, rfl⟩ : ∃ (p : Fin 8192) (q : Fin 256), i = ix2 p q := ⟨i 0, i 1, eq_ix2 i⟩
  show (∑ k : Fin 512, X (ix2 p k) * Wt (ix2 k q)) + B (ix2 (0 : Fin 1) q)
    = (∑ k : Fin 512, X (ix2 p k) * w (ix2 q k)) + b (ix1 q)
  rw [hB q]
  congr 1
  exact Finset.sum_congr rfl fun k _ => by rw [hW k q]

/-- The kernel's result array over the specification's projections is the specification's result. -/
theorem attnOut_eq_attn (x : (⟨2, ![8192, 512]⟩ : Shape).Idx → EReal) (ww : (⟨2, ![256, 512]⟩ : Shape).Idx → EReal) (wb : (⟨1, ![256]⟩ : Shape).Idx → EReal)
    (uw : (⟨2, ![256, 512]⟩ : Shape).Idx → EReal) (ub : (⟨1, ![256]⟩ : Shape).Idx → EReal) (hw : (⟨2, ![256, 512]⟩ : Shape).Idx → EReal) (hb : (⟨1, ![256]⟩ : Shape).Idx → EReal)
    (fw : (⟨2, ![512, 256]⟩ : Shape).Idx → EReal) (fb : (⟨1, ![512]⟩ : Shape).Idx → EReal)
    (fx : ∀ i, x i ≠ ⊤ ∧ x i ≠ ⊥) (fww : ∀ i, ww i ≠ ⊤ ∧ ww i ≠ ⊥) (fwb : ∀ i, wb i ≠ ⊤ ∧ wb i ≠ ⊥) (fuw : ∀ i, uw i ≠ ⊤ ∧ uw i ≠ ⊥) (fub : ∀ i, ub i ≠ ⊤ ∧ ub i ≠ ⊥) (fhw : ∀ i, hw i ≠ ⊤ ∧ hw i ≠ ⊥) (fhb : ∀ i, hb i ≠ ⊤ ∧ hb i ≠ ⊥)
    (Fw : (⟨2, ![256, 512]⟩ : Shape).Idx → EReal) (Fb : (⟨2, ![1, 512]⟩ : Shape).Idx → EReal)
    (hFw : ∀ (h : Fin 256) (o : Fin 512), Fw (ix2 h o) = fw (ix2 o h))
    (hFb : ∀ o : Fin 512, Fb (ix2 (0 : Fin 1) o) = fb (ix1 o)) :
    attnOut (fun i => lin x ww wb (i 0) (i 1)) (fun i => lin x uw ub (i 0) (i 1)) (fun i => lin x hw hb (i 0) (i 1)) Fw Fb
      = attn x ww wb uw ub hw hb fw fb := by
  funext i
  obtain ⟨p, o, rfl⟩ : ∃ (p : Fin 8192) (o : Fin 512), i = ix2 p o := ⟨i 0, i 1, eq_ix2 i⟩
  rw [attn_ix2]
  refine Cert.AttnFinal.attnAt_of_merge x ww wb uw ub hw hb fw fb fx fww fwb fuw fub fhw fhb p o
    (sblk (fun i => lin x ww wb (i 0) (i 1)) (fun i => lin x uw ub (i 0) (i 1)) p)
    (fun h => vblk (fun i => lin x hw hb (i 0) (i 1)) h) Fw Fb ?_ ?_ hFw hFb
  · intro b hb8 c
    have e : krow b c = ⟨1024 * b + c.val, by have := c.isLt; omega⟩ := Fin.ext (krow_val b hb8 c)
    show (∑ h : Fin 256, lin x ww wb p h * lin x uw ub (krow b c) h) = _
    rw [e]
    rfl
  · intro h b hb8 c
    have e : krow b c = ⟨1024 * b + c.val, by have := c.isLt; omega⟩ := Fin.ext (krow_val b hb8 c)
    show lin x hw hb (krow b c) h = _
    rw [e]

end Cert.KernelIdeal.Val

end
-- ==== Proof.KernelValue.lean ====
/-
  The kernel's result array is the specification of the launch contents.

  Between the launch and the attention region: a first stretch of host operations transposes the key and value
  weights and turns their biases into rows; the projection region writes the keys and the values; a second stretch
  does the same for the query and output weights and biases. Read back through these boundaries, the arrays the
  attention region finds are the specification's projections of the launch contents and the transposed weights,
  and the region's result over them is the specification's result.
-/
import proofs.«122180_j6064493822280_2_alg».proof.Proof.FrameRun
import proofs.«122180_j6064493822280_2_alg».proof.Proof.HostVal
import proofs.«122180_j6064493822280_2_alg».proof.Proof.R0Value
import proofs.«122180_j6064493822280_2_alg».proof.Proof.R1Value
import proofs.«122180_j6064493822280_2_alg».proof.Proof.AttnAssembly

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.Spec

variable (m : (ℓ : Loc nD τ sig) → Buf (Elt Ideal) ℓ) (ρ : Dev nD → PrngReg)

/-! ## The arguments as the second stretch of host operations finds them -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The arrays the attention region finds -/

/-- The input array, as launched. -/
theorem V3_main_arg0 (c : Dev nD) : V3 m ρ c main_arg0 = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- The input array as the projection region finds it, as launched. -/
theorem V1_main_arg0 (c : Dev nD) : V1 m ρ c main_arg0 = m ((c : Thread nD τ).loc main_arg0) :=
  calc W1 m ρ c (Proc.devRef .tc main_arg0)
    _ = W0 m ρ c (Proc.devRef .tc main_arg0) := W1_of m ρ c main_arg0 (by decide)
    _ = m ((c : Thread nD τ).loc main_arg0) := rfl

/-- The query weights, transposed. -/
theorem V3_v8 (c : Dev nD) (k : Fin 512) (h : Fin 256) :
    (V3 m ρ c main_v8 : S512x256.Idx → EReal) (ix2 k h) = ((m ((c : Thread nD τ).loc main_arg1)) : S256x512.Idx → EReal) (ix2 h k) := by
  refine (host1_v8 (W2 m ρ c) k h).trans ?_
  rw [W2_main_arg1 m ρ c]

/-- The query bias, as a row. -/
theorem V3_v9 (c : Dev nD) (h : Fin 256) :
    (V3 m ρ c main_v9 : S1x256.Idx → EReal) (ix2 (0 : Fin 1) h) = ((m ((c : Thread nD τ).loc main_arg2)) : S256.Idx → EReal) (ix1 h) := by
  refine (host1_v9 (W2 m ρ c) h).trans ?_
  rw [W2_main_arg2 m ρ c]

/-- The output weights, transposed. -/
theorem V3_v11 (c : Dev nD) (h : Fin 256) (o : Fin 512) :
    (V3 m ρ c main_v11 : S256x512.Idx → EReal) (ix2 h o) = ((m ((c : Thread nD τ).loc main_arg7)) : S512x256.Idx → EReal) (ix2 o h) := by
  refine (host1_v11 (W2 m ρ c) h o).trans ?_
  rw [W2_main_arg7 m ρ c]

/-- The output bias, as a row. -/
theorem V3_v12 (c : Dev nD) (o : Fin 512) :
    (V3 m ρ c main_v12 : S1x512.Idx → EReal) (ix2 (0 : Fin 1) o) = ((m ((c : Thread nD τ).loc main_arg8)) : S512.Idx → EReal) (ix1 o) := by
  refine (host1_v12 (W2 m ρ c) o).trans ?_
  rw [W2_main_arg8 m ρ c]

/-- The keys: the specification's projection of the launch contents. -/
theorem V3_v6_0 (c : Dev nD) :
    (V3 m ρ c main_v6_0 : S8192x256.Idx → EReal)
      = fun i => lin (m ((c : Thread nD τ).loc main_arg0)) (m ((c : Thread nD τ).loc main_arg3)) (m ((c : Thread nD τ).loc main_arg4)) (i 0) (i 1) :=
  calc (W3 m ρ c (Proc.devRef .tc main_v6_0) : S8192x256.Idx → EReal)
    _ = W2 m ρ c (Proc.devRef .tc main_v6_0) := W3_of m ρ c main_v6_0 (by decide)
    _ = (dat0 (V1 m ρ) c).arrAt 5 cfg0.N := W2_arr m ρ c 5
    _ = proj0 (V1 m ρ c main_arg0) (V1 m ρ c main_v1) (V1 m ρ c main_v4) := final0_5 (V1 m ρ) c
    _ = fun i => lin (m ((c : Thread nD τ).loc main_arg0)) (m ((c : Thread nD τ).loc main_arg3)) (m ((c : Thread nD τ).loc main_arg4)) (i 0) (i 1) := by
      rw [V1_main_arg0 m ρ c]
      exact proj0_eq_lin _ _ _ _ _ (fun k h => host0_v1 (W0 m ρ c) k h) (fun h => host0_v4 (W0 m ρ c) h)

/-- The values: the specification's projection of the launch contents. -/
theorem V3_v6_1 (c : Dev nD) :
    (V3 m ρ c main_v6_1 : S8192x256.Idx → EReal)
      = fun i => lin (m ((c : Thread nD τ).loc main_arg0)) (m ((c : Thread nD τ).loc main_arg5)) (m ((c : Thread nD τ).loc main_arg6)) (i 0) (i 1) :=
  calc (W3 m ρ c (Proc.devRef .tc main_v6_1) : S8192x256.Idx → EReal)
    _ = W2 m ρ c (Proc.devRef .tc main_v6_1) := W3_of m ρ c main_v6_1 (by decide)
    _ = (dat0 (V1 m ρ) c).arrAt 6 cfg0.N := W2_arr m ρ c 6
    _ = proj0 (V1 m ρ c main_arg0) (V1 m ρ c main_v3) (V1 m ρ c main_v5) := final0_6 (V1 m ρ) c
    _ = fun i => lin (m ((c : Thread nD τ).loc main_arg0)) (m ((c : Thread nD τ).loc main_arg5)) (m ((c : Thread nD τ).loc main_arg6)) (i 0) (i 1) := by
      rw [V1_main_arg0 m ρ c]
      exact proj0_eq_lin _ _ _ _ _ (fun k h => host0_v3 (W0 m ρ c) k h) (fun h => host0_v5 (W0 m ρ c) h)

/-! ## The result -/

/-- The kernel's result array after the run is the specification of the launch contents, for finite inputs. -/
theorem kernel_value (c : Dev nD)
    (f0 : ∀ i : S8192x512.Idx, ((m ((c : Thread nD τ).loc main_arg0)) : S8192x512.Idx → EReal) i ≠ (⊤ : EReal) ∧ ((m ((c : Thread nD τ).loc main_arg0)) : S8192x512.Idx → EReal) i ≠ (⊥ : EReal))
    (f1 : ∀ i : S256x512.Idx, ((m ((c : Thread nD τ).loc main_arg1)) : S256x512.Idx → EReal) i ≠ (⊤ : EReal) ∧ ((m ((c : Thread nD τ).loc main_arg1)) : S256x512.Idx → EReal) i ≠ (⊥ : EReal))
    (f2 : ∀ i : S256.Idx, ((m ((c : Thread nD τ).loc main_arg2)) : S256.Idx → EReal) i ≠ (⊤ : EReal) ∧ ((m ((c : Thread nD τ).loc main_arg2)) : S256.Idx → EReal) i ≠ (⊥ : EReal))
    (f3 : ∀ i : S256x512.Idx, ((m ((c : Thread nD τ).loc main_arg3)) : S256x512.Idx → EReal) i ≠ (⊤ : EReal) ∧ ((m ((c : Thread nD τ).loc main_arg3)) : S256x512.Idx → EReal) i ≠ (⊥ : EReal))
    (f4 : ∀ i : S256.Idx, ((m ((c : Thread nD τ).loc main_arg4)) : S256.Idx → EReal) i ≠ (⊤ : EReal) ∧ ((m ((c : Thread nD τ).loc main_arg4)) : S256.Idx → EReal) i ≠ (⊥ : EReal))
    (f5 : ∀ i : S256x512.Idx, ((m ((c : Thread nD τ).loc main_arg5)) : S256x512.Idx → EReal) i ≠ (⊤ : EReal) ∧ ((m ((c : Thread nD τ).loc main_arg5)) : S256x512.Idx → EReal) i ≠ (⊥ : EReal))
    (f6 : ∀ i : S256.Idx, ((m ((c : Thread nD τ).loc main_arg6)) : S256.Idx → EReal) i ≠ (⊤ : EReal) ∧ ((m ((c : Thread nD τ).loc main_arg6)) : S256.Idx → EReal) i ≠ (⊥ : EReal)) :
    (W4 m ρ c (Proc.devRef .tc main_v13) : S8192x512.Idx → EReal)
      = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc (W4 m ρ c (Proc.devRef .tc main_v13) : S8192x512.Idx → EReal)
    _ = (dat1 (V3 m ρ) c).arrAt 7 cfg1.N := W4_arr m ρ c 7
    _ = attnOut (proj0 (V3 m ρ c main_arg0) (V3 m ρ c main_v8) (V3 m ρ c main_v9)) (V3 m ρ c main_v6_0)
          (V3 m ρ c main_v6_1) (V3 m ρ c main_v11) (V3 m ρ c main_v12) := final1_7 (V3 m ρ) c
    _ = attnOut (fun i => lin (m ((c : Thread nD τ).loc main_arg0)) (m ((c : Thread nD τ).loc main_arg1)) (m ((c : Thread nD τ).loc main_arg2)) (i 0) (i 1))
          (fun i => lin (m ((c : Thread nD τ).loc main_arg0)) (m ((c : Thread nD τ).loc main_arg3)) (m ((c : Thread nD τ).loc main_arg4)) (i 0) (i 1))
          (fun i => lin (m ((c : Thread nD τ).loc main_arg0)) (m ((c : Thread nD τ).loc main_arg5)) (m ((c : Thread nD τ).loc main_arg6)) (i 0) (i 1))
          (V3 m ρ c main_v11) (V3 m ρ c main_v12) := by
      rw [V3_main_arg0 m ρ c, V3_v6_0 m ρ c, V3_v6_1 m ρ c,
        proj0_eq_lin _ _ _ _ _ (V3_v8 m ρ c) (V3_v9 m ρ c)]
      rfl
    _ = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
      attnOut_eq_attn _ _ _ _ _ _ _ _ _ f0 f1 f2 f3 f4 f5 f6 (V3 m ρ c main_v11) (V3 m ρ c main_v12)
        (V3_v11 m ρ c) (V3_v12 m ρ c)

end Cert.KernelIdeal.Val

end
-- ==== Proof.lean ====
/-
  A two-kernel attention layer against its plain reference, on the extended reals.

  The layer projects its input to queries, keys and values (three affine maps), forms the unscaled scores q·kᵀ,
  takes a softmax of each row of scores, weighs the values with it and applies an output affine map. The kernel
  computes keys and values in a first region, 1024 rows per grid point, and in a second region — a grid of eight
  query tiles by eight key tiles — the queries of a tile at its first key tile, and then, key tile by key tile, a
  running row maximum, a running normaliser and a running weighted sum of the values, rescaling what was
  accumulated under the old maximum by exp (old − new); at the last key tile it divides the weighted sum by the
  normaliser and applies the output map. Every score being a finite real (the inputs are finite), the running
  merge after all eight key tiles is the softmax-weighted sum: exp of minus infinity is zero at the first tile,
  exp x · exp y = exp (x + y), and a sum of products divided by a positive real is the sum of the quotients' products.

  The frames: each region's body runs to its end on whole buffers, the first region's blocks and the second
  region's scratch contents named point by point, and @main is the run of its four segments; every argument
  array is read back through the segments to its launch contents. The value: the last segment's contents of the
  result array are the layer's function of the argument arrays, index by index, which is also what the reference
  computes.
-/
import proofs.«122180_j6064493822280_2_alg».proof.Defs
import proofs.«122180_j6064493822280_2_alg».proof.Proof.Gen.Kernel
import proofs.«122180_j6064493822280_2_alg».proof.Proof.Gen.KernelIdeal
import proofs.«122180_j6064493822280_2_alg».proof.Proof.Gen.ReferenceIdeal
import proofs.«122180_j6064493822280_2_alg».proof.Proof.Gen.Pre_finite_inputs
import proofs.«122180_j6064493822280_2_alg».proof.Proof.KFrameRun
import proofs.«122180_j6064493822280_2_alg».proof.Proof.FrameRun
import proofs.«122180_j6064493822280_2_alg».proof.Proof.RefValue
import proofs.«122180_j6064493822280_2_alg».proof.Proof.PreFinite
import proofs.«122180_j6064493822280_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- On the extended reals, from memories agreeing on the arguments, both programs end with the layer's function
    of the arguments in their result arrays. -/
theorem algebraic : Cert.algebraic_KernelIdeal_ReferenceIdeal := by
  intro m ρ m' ρ' hpre hagree
  refine ⟨fun c => Cert.Spec.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run (Cert.KernelIdeal.defs (F := Ideal)) _ _).mono (fun r h c => ?_) (Cert.KernelIdeal.Fr.run_all (F := Ideal) m ρ)
    obtain ⟨f0, f1, f2, f3, f4, f5, f6, f7, f8⟩ := Cert.PreFinite.finite_of_pre _ _ _ _ _ _ _ _ _ (hpre c)
    exact ⟨(h c _ (Cert.KernelIdeal.Fr.mem_uc Cert.KernelIdeal.main_v13 (by decide))).trans (Cert.KernelIdeal.Val.kernel_value m ρ c f0 f1 f2 f3 f4 f5 f6),
      (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c),
      (h c _ (Cert.KernelIdeal.Fr.mem_uc Cert.KernelIdeal.main_arg4 (by decide))).trans (Cert.KernelIdeal.Fr.W4_main_arg4 m ρ c),
      (h c _ (Cert.KernelIdeal.Fr.mem_uc Cert.KernelIdeal.main_arg5 (by decide))).trans (Cert.KernelIdeal.Fr.W4_main_arg5 m ρ c),
      (h c _ (Cert.KernelIdeal.Fr.mem_uc Cert.KernelIdeal.main_arg6 (by decide))).trans (Cert.KernelIdeal.Fr.W4_main_arg6 m ρ c),
      (h c _ (Cert.KernelIdeal.Fr.mem_uc Cert.KernelIdeal.main_arg7 (by decide))).trans (Cert.KernelIdeal.Fr.W4_main_arg7 m ρ c),
      (h c _ (Cert.KernelIdeal.Fr.mem_uc Cert.KernelIdeal.main_arg8 (by decide))).trans (Cert.KernelIdeal.Fr.W4_main_arg8 m ρ c)⟩
  · refine (θ_run (Cert.ReferenceIdeal.defs (F := Ideal)) _ _).mono (fun r h c => ⟨?_, (h c).2⟩) (Cert.RefValue.run_spec m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
